-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x1024 : Shape := ⟨3, ![2, 4096, 1024]⟩
abbrev S8192x1024 : Shape := ⟨2, ![8192, 1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S2x4096x1024 .f32) (main_arg1 : FVec F S8192x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S2x4096x1024 : Shape := ⟨3, ![2, 4096, 1024]⟩
abbrev S8192x1024 : Shape := ⟨2, ![8192, 1024]⟩
abbrev S4096x1024 : Shape := ⟨2, ![4096, 1024]⟩
abbrev S2x32x1024 : Shape := ⟨3, ![2, 32, 1024]⟩
abbrev S16x2x32x1024 : Shape := ⟨4, ![16, 2, 32, 1024]⟩
abbrev S_ : Shape := ⟨0, ![]⟩
abbrev S1x32x1024 : Shape := ⟨3, ![1, 32, 1024]⟩
abbrev S32x1024 : Shape := ⟨2, ![32, 1024]⟩
abbrev S1x1x32x1024 : Shape := ⟨4, ![1, 1, 32, 1024]⟩
abbrev S1x4096x1024 : Shape := ⟨3, ![1, 4096, 1024]⟩

abbrev nBuf : Table → Nat
  | .hbm => 4
  | .shared => 1
  | .local .scVector .vmem => 1
  | _ => 0

abbrev bufTy : (tb : Table) → Fin (nBuf tb) → BufTy
  | .hbm, ⟨0, _⟩ => ⟨S2x4096x1024, .f32⟩
  | .hbm, ⟨1, _⟩ => ⟨S8192x1024, .f32⟩
  | .hbm, ⟨2, _⟩ => ⟨S4096x1024, .f32⟩
  | .hbm, ⟨3, _⟩ => ⟨S1x4096x1024, .f32⟩
  | .shared, ⟨0, _⟩ => ⟨S16x2x32x1024, .f32⟩
  | .local .scVector .vmem, ⟨0, _⟩ => ⟨S2x32x1024, .f32⟩
  | _, _ => ⟨S2x4096x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scv : Ref sig .scVector := ⟨.hbm, 1, rfl⟩
abbrev main_v0_scv : Ref sig .scVector := ⟨.hbm, 2, rfl⟩
abbrev cc0_scratch1 : Ref sig .scVector := ⟨.shared, 0, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v4 : BitVec 32 := Scalar.addi v2 c0_i32
  let c0_i32_3 : BitVec 32 := 0#32
  ![v4.toNat, 0]
def k0_off2 (i : grid0.Coords) : Fin 4 → Nat :=
  let arg1 : BitVec 32 := BitVec.ofNat 32 (i 1).val
  let c0_i32_8 : BitVec 32 := 0#32
  let c0_i32_9 : BitVec 32 := 0#32
  let c0_i32_10 : BitVec 32 := 0#32
  ![arg1.toNat, 0, 0, 0]
def k0_off3 (i : grid0.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32 : BitVec 32 := 64#32
  let v3 : BitVec 32 := Scalar.addi v2 c64_i32
  let v11 : BitVec 32 := Scalar.addi v3 c0_i32_7
  let c0_i32_11 : BitVec 32 := 0#32
  ![v11.toNat, 0]
def k0_off4 (i : grid0.Coords) : Fin 4 → Nat :=
  let arg1 : BitVec 32 := BitVec.ofNat 32 (i 1).val
  let c1_i32_19 : BitVec 32 := 1#32
  let c0_i32_20 : BitVec 32 := 0#32
  let c0_i32_21 : BitVec 32 := 0#32
  ![arg1.toNat, 1, 0, 0]
def k0_off5 (i : grid0.Coords) (c0_i32_30 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v32 : BitVec 32 := Scalar.addi v2 c0_i32_30
  let c0_i32_34 : BitVec 32 := 0#32
  ![v32.toNat, 0]
def k0_off6 (i : grid0.Coords) (c0_i32_42 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32 : BitVec 32 := 64#32
  let v3 : BitVec 32 := Scalar.addi v2 c64_i32
  let v42 : BitVec 32 := Scalar.addi v3 c0_i32_42
  let c0_i32_44 : BitVec 32 := 0#32
  ![v42.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S2x32x1024_S1x32x1024_0_0_0 : ∀ a, (![0, 0, 0] : Fin 3 → Nat) a + S1x32x1024.size a ≤ S2x32x1024.size a
  squeezes_S1x32x1024_S32x1024 : S1x32x1024.Squeezes S32x1024
  squeezes_S1x1x32x1024_S32x1024 : S1x1x32x1024.Squeezes S32x1024
  inb_S2x32x1024_S1x32x1024_1_0_0 : ∀ a, (![1, 0, 0] : Fin 3 → Nat) a + S1x32x1024.size a ≤ S2x32x1024.size a
  bcast_S4096x1024_S1x4096x1024_1_2 : S4096x1024.BroadcastsInDim S1x4096x1024 (![1, 2] : Fin 2 → Fin S1x4096x1024.rank)
  hcc0_scratch2 : 0 + S_.numel ≤ 8
  hcc0_scratch3 : 1 + S_.numel ≤ 8
  hcc0_scratch4 : 2 + S_.numel ≤ 8
  hcc0_scratch5 : 3 + S_.numel ≤ 8
  hcc0_scratch6 : 4 + S_.numel ≤ 8
  hcc0_scratch7 : 5 + S_.numel ≤ 8
  hcc0_scratch8 : 6 + S_.numel ≤ 8
  hcc0_scratch9 : 7 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (32 * r.val))) a + S32x1024.size a ≤ S8192x1024.size a
  k0_off2_inb : ∀ i : grid0.Coords, ∀ a, (k0_off2 i) a + S1x1x32x1024.size a ≤ S16x2x32x1024.size a
  k0_off3_inb : ∀ i : grid0.Coords, ∀ (r : Fin 2), ∀ a, (k0_off3 i (BitVec.ofNat 32 (32 * r.val))) a + S32x1024.size a ≤ S8192x1024.size a
  k0_off4_inb : ∀ i : grid0.Coords, ∀ a, (k0_off4 i) a + S1x1x32x1024.size a ≤ S16x2x32x1024.size a
  k0_off5_inb : ∀ i : grid0.Coords, ∀ (r : Fin 2), ∀ a, (k0_off5 i (BitVec.ofNat 32 (32 * r.val))) a + S32x1024.size a ≤ S4096x1024.size a
  k0_off6_inb : ∀ i : grid0.Coords, ∀ (r : Fin 2), ∀ a, (k0_off6 i (BitVec.ofNat 32 (32 * r.val))) a + S32x1024.size a ≤ S4096x1024.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9

class Facts : Prop extends Facts₀ where

variable [Facts]
-- ==== ReferenceIdeal.lean ====
abbrev S2x4096x1024 : Shape := ⟨3, ![2, 4096, 1024]⟩
abbrev S8192x1024 : Shape := ⟨2, ![8192, 1024]⟩
abbrev S4096 : Shape := ⟨1, ![4096]⟩
abbrev S1x4096 : Shape := ⟨2, ![1, 4096]⟩
abbrev S_ : Shape := ⟨0, ![]⟩
abbrev S1x4096x1 : Shape := ⟨3, ![1, 4096, 1]⟩
abbrev S1 : Shape := ⟨1, ![1]⟩
abbrev S1x1x1 : Shape := ⟨3, ![1, 1, 1]⟩
abbrev S1x4096x1024 : Shape := ⟨3, ![1, 4096, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S8192x1024, .f32⟩
  | .hbm, ⟨2, _⟩ => ⟨S4096, .i32⟩
  | .hbm, ⟨3, _⟩ => ⟨S1x4096, .i32⟩
  | .hbm, ⟨4, _⟩ => ⟨S_, .i32⟩
  | .hbm, ⟨5, _⟩ => ⟨S1x4096, .i32⟩
  | .hbm, ⟨6, _⟩ => ⟨S1x4096, .i1⟩
  | .hbm, ⟨7, _⟩ => ⟨S_, .i32⟩
  | .hbm, ⟨8, _⟩ => ⟨S1x4096, .i32⟩
  | .hbm, ⟨9, _⟩ => ⟨S1x4096, .i32⟩
  | .hbm, ⟨10, _⟩ => ⟨S1x4096, .i32⟩
  | .hbm, ⟨11, _⟩ => ⟨S1x4096x1, .i32⟩
  | .hbm, ⟨12, _⟩ => ⟨S1, .i32⟩
  | .hbm, ⟨13, _⟩ => ⟨S_, .i32⟩
  | .hbm, ⟨14, _⟩ => ⟨S1x4096x1, .i32⟩
  | .hbm, ⟨15, _⟩ => ⟨S1x4096x1, .i1⟩
  | .hbm, ⟨16, _⟩ => ⟨S1x1x1, .i32⟩
  | .hbm, ⟨17, _⟩ => ⟨S1x4096x1, .i32⟩
  | .hbm, ⟨18, _⟩ => ⟨S1x4096x1, .i1⟩
  | .hbm, ⟨19, _⟩ => ⟨S1x4096x1, .i1⟩
  | .hbm, ⟨20, _⟩ => ⟨S_, .i1⟩
  | .hbm, ⟨21, _⟩ => ⟨S1x4096, .i1⟩
  | .hbm, ⟨22, _⟩ => ⟨S1x4096x1024, .f32⟩
  | .hbm, ⟨23, _⟩ => ⟨S1x4096x1024, .i1⟩
  | .hbm, ⟨24, _⟩ => ⟨S_, .f32⟩
  | .hbm, ⟨25, _⟩ => ⟨S1x4096x1024, .f32⟩
  | .hbm, ⟨26, _⟩ => ⟨S1x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S1x4096x1_0_1 : S1x4096.BroadcastsInDim S1x4096x1 (![0, 1] : Fin 2 → Fin S1x4096x1.rank)
  bcast_S_S1x4096x1 : S_.BroadcastsInDim S1x4096x1 (![] : Fin 0 → Fin S1x4096x1.rank)
  bcast_S1_S1x1x1_2 : S1.BroadcastsInDim S1x1x1 (![2] : Fin 1 → Fin S1x1x1.rank)
  bcast_S1x1x1_S1x4096x1_0_1_2 : S1x1x1.BroadcastsInDim S1x4096x1 (![0, 1, 2] : Fin 3 → Fin S1x4096x1.rank)
  reducesTo_S1x4096x1_S1x4096_d2 : S1x4096x1.ReducesTo [2] S1x4096
  h_S_ : 0 < S_.numel
  bcast_S1x4096_S1x4096x1024_0_1 : S1x4096.BroadcastsInDim S1x4096x1024 (![0, 1] : Fin 2 → Fin S1x4096x1024.rank)
  bcast_S_S1x4096x1024 : S_.BroadcastsInDim S1x4096x1024 (![] : Fin 0 → Fin S1x4096x1024.rank)
  gather_S8192x1024_S1x4096x1_S1x4096x1024_2_0_n_n_0_2_11024_wf : GatherDims.WF S8192x1024 S1x4096x1 S1x4096x1024 [2] [0] [] [0] [] 2 ![1, 1024]

variable [Facts₀]

def gather_S8192x1024_S1x4096x1_S1x4096x1024_2_0_n_n_0_2_11024 : GatherDims S8192x1024 S1x4096x1 S1x4096x1024 where
  offsetDims := [2]
  collapsedSliceDims := [0]
  operandBatchingDims := []
  startIndicesBatchingDims := []
  startIndexMap := [0]
  indexVectorDim := 2
  sliceSizes := ![1, 1024]
  wf := gather_S8192x1024_S1x4096x1_S1x4096x1024_2_0_n_n_0_2_11024_wf

class Facts : Prop extends Facts₀ where

variable [Facts]
-- ==== Proof.Spec.lean ====
/-
  The function both programs compute: the result array `[1, 4096, 1024]` holds, at `(0, r, q)`, the entry `(r, q)` of the
  table `[8192, 1024]` — its first 4096 rows, under a leading axis of extent one. The intermediate array `[4096, 1024]` the
  kernel fills holds the same rows without that axis.
-/
import Idealize.ShloMosaic.Lib.ValueIdx

namespace Cert.Spec

open Idealize.ShloMosaic Idealize.ShloMosaic.ValueIdx

abbrev STab : Shape := ⟨2, ![8192, 1024]⟩
abbrev SRows : Shape := ⟨2, ![4096, 1024]⟩
abbrev SRes : Shape := ⟨3, ![1, 4096, 1024]⟩

/-- Entry `(r, q)` of the table, for a row `r` among the first 4096. -/
def tabIdx (r : Fin 4096) (q : Fin 1024) : STab.Idx := ix2 (⟨r.val, by omega⟩ : Fin 8192) q

/-- The first 4096 rows of the table, as an array `[4096, 1024]`. -/
def rows {α : Type} (t : STab.Idx → α) : SRows.Idx → α := fun j => t (tabIdx (j 0) (j 1))

/-- The first 4096 rows of the table under a leading unit axis: the result both programs end with. -/
def G {α : Type} (t : STab.Idx → α) : SRes.Idx → α := fun i => t (tabIdx (i 1) (i 2))

theorem G_apply {α : Type} (t : STab.Idx → α) (i : SRes.Idx) : G t i = t (tabIdx (i 1) (i 2)) := rfl
theorem rows_apply {α : Type} (t : STab.Idx → α) (j : SRows.Idx) : rows t j = t (tabIdx (j 0) (j 1)) := rfl

end Cert.Spec
-- ==== Proof.KernelSetup.lean ====
/-
  The program `Kernel` as the SparseCore launch theorem sees it, and the pieces of memory one tile's task works on.
  The kernel copies the first 4096 rows of the table `[8192, 1024]` into an array `[4096, 1024]`: tile `(c, s)` of the
  2 × 16 grid moves the 128 rows starting at row `256 s + 128 c`, in four chunks of 32 rows — two through the halves of
  its own vector memory `[2, 32, 1024]`, two through its two rows `(s, 0)`, `(s, 1)` of the SparseCore's shared vector
  memory `[16, 2, 32, 1024]`. Every chunk is read from the table into a buffer piece and written from that piece to the
  same rows of the result, each transfer on a semaphore of its own, one transfer per semaphore.
-/
import proofs.«210076_g26774826123951_cont_9to1_2051_14_alg».proof.Defs
import proofs.«210076_g26774826123951_cont_9to1_2051_14_alg».proof.Proof.Spec
import Idealize.ShloMosaic.Lib.SparseCore.Launch
import Idealize.ShloMosaic.Lib.StableHlo.Run
import Idealize.ShloMosaic.Lib.Pipeline.Kit
import Idealize.ShloMosaic.Lib.Tactic
import proofs.«210076_g26774826123951_cont_9to1_2051_14_alg».proof.Proof.Gen.Kernel
import proofs.«210076_g26774826123951_cont_9to1_2051_14_alg».proof.Proof.Gen.Kernel.Skeleton

noncomputable section

namespace Cert.Proof.KernelFrame

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1
/-- The shared vector memory of SparseCore `c`. -/
abbrev shRef (c : Fin τ.nSC) : DevRef τ sig := ⟨.shared, ⟨0, by decide⟩, c⟩
abbrev shLoc (d : Dev nD) (c : Fin τ.nSC) : Loc nD τ sig := (d, shRef c)

end Cert.Proof.KernelFrame

end
-- ==== Proof.KernelPieces.lean ====
/-
  One tile's pieces of memory in `Kernel`, spelt as the program slices them, and where they lie: which elements of the
  result `[4096, 1024]` each of a tile's four chunks holds (the 32 rows from row `256 s + 128 c + 32 k`), which elements
  of the tile's own vector memory its two halves hold, and which elements of the shared vector memory the tile's two rows
  hold. Over all tiles the chunks are pairwise disjoint and cover the result; the halves partition the tile's memory; the
  rows of the sixteen tiles of one SparseCore partition its shared memory.
-/
import proofs.«210076_g26774826123951_cont_9to1_2051_14_alg».proof.Proof.KernelSetup

noncomputable section

namespace Cert.Proof.KernelFrame

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## One tile's pieces, spelt as the program slices them -/

section Tile

variable (d : Dev nD) (L : grid0.Coords)

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

local notation "tW" => (Memref.whole Cert.Kernel.main_arg1_scv : Memref Cert.Kernel.sig Kind.scVector Space.hbm Cert.Kernel.S8192x1024 EltTy.f32)
local notation "oW" => (Memref.whole Cert.Kernel.main_v0_scv : Memref Cert.Kernel.sig Kind.scVector Space.hbm Cert.Kernel.S4096x1024 EltTy.f32)
local notation "bW" => (Memref.whole Cert.Kernel.cc0_scratch0 : Memref Cert.Kernel.sig Kind.scVector Space.vmem Cert.Kernel.S2x32x1024 EltTy.f32)
local notation "shW" => (Memref.whole Cert.Kernel.cc0_scratch1 : Memref Cert.Kernel.sig Kind.scVector Space.shared Cert.Kernel.S16x2x32x1024 EltTy.f32)
-- the four chunks of the result the tile writes: rows `256 s + 128 c + 32 k` onwards, 32 rows each
local notation "oA0" => (Memref.slice oW (Rect.unit (s := Cert.Kernel.S4096x1024) (Cert.Kernel.k0_off5 L 0#32) (Shape.size Cert.Kernel.S32x1024) (k0_off5_inb L 0)) (fun _ => rfl))
local notation "oA1" => (Memref.slice oW (Rect.unit (s := Cert.Kernel.S4096x1024) (Cert.Kernel.k0_off5 L 32#32) (Shape.size Cert.Kernel.S32x1024) (k0_off5_inb L 1)) (fun _ => rfl))
local notation "oB0" => (Memref.slice oW (Rect.unit (s := Cert.Kernel.S4096x1024) (Cert.Kernel.k0_off6 L 0#32) (Shape.size Cert.Kernel.S32x1024) (k0_off6_inb L 0)) (fun _ => rfl))
local notation "oB1" => (Memref.slice oW (Rect.unit (s := Cert.Kernel.S4096x1024) (Cert.Kernel.k0_off6 L 32#32) (Shape.size Cert.Kernel.S32x1024) (k0_off6_inb L 1)) (fun _ => rfl))
-- the two halves of the tile's own vector memory
local notation "bH0" => (Memref.squeeze (Memref.slice bW (Rect.unit (s := Cert.Kernel.S2x32x1024) ![0, 0, 0] (Shape.size Cert.Kernel.S1x32x1024) inb_S2x32x1024_S1x32x1024_0_0_0) (fun _ => rfl)) Cert.Kernel.S32x1024 squeezes_S1x32x1024_S32x1024)
local notation "bH1" => (Memref.squeeze (Memref.slice bW (Rect.unit (s := Cert.Kernel.S2x32x1024) ![1, 0, 0] (Shape.size Cert.Kernel.S1x32x1024) inb_S2x32x1024_S1x32x1024_1_0_0) (fun _ => rfl)) Cert.Kernel.S32x1024 squeezes_S1x32x1024_S32x1024)
-- the tile's two rows of the shared vector memory
local notation "sH0" => (Memref.squeeze (Memref.slice shW (Rect.unit (s := Cert.Kernel.S16x2x32x1024) (Cert.Kernel.k0_off2 L) (Shape.size Cert.Kernel.S1x1x32x1024) (k0_off2_inb L)) (fun _ => rfl)) Cert.Kernel.S32x1024 squeezes_S1x1x32x1024_S32x1024)
local notation "sH1" => (Memref.squeeze (Memref.slice shW (Rect.unit (s := Cert.Kernel.S16x2x32x1024) (Cert.Kernel.k0_off4 L) (Shape.size Cert.Kernel.S1x1x32x1024) (k0_off4_inb L)) (fun _ => rfl)) Cert.Kernel.S32x1024 squeezes_S1x1x32x1024_S32x1024)

/-- The elements of the result's four chunks, of the two halves and of the two shared rows. -/
abbrev oSetA0 : Finset S4096x1024.Idx := (oA0).view.set
abbrev oSetA1 : Finset S4096x1024.Idx := (oA1).view.set
abbrev oSetB0 : Finset S4096x1024.Idx := (oB0).view.set
abbrev oSetB1 : Finset S4096x1024.Idx := (oB1).view.set
abbrev bSet0 : Finset S2x32x1024.Idx := (bH0).view.set
abbrev bSet1 : Finset S2x32x1024.Idx := (bH1).view.set
abbrev sSet0 : Finset S16x2x32x1024.Idx := (sH0).view.set
abbrev sSet1 : Finset S16x2x32x1024.Idx := (sH1).view.set

abbrev bLoc (d : Dev nD) (L : grid0.Coords) : Loc nD τ sig := (thrV d L).loc cc0_scratch0
abbrev cell (d : Dev nD) (L : grid0.Coords) (a : DmaSems sig S_) : GSem nD τ sig := (thrV d L, .dma a.sem)

theorem pts_t (q : PosShare TreeShare) (f : Buf (Elt F) (tLoc d)) :
    ((tW).view.loc (thrV d L) ↦{q} f : sProp 𝕄) = tLoc d ↦{q} f := rfl
theorem pts_oA0 (f : Buf (Elt F) (oLoc d)) : ((oA0).view.loc (thrV d L) ↦[(oA0).view.set]{fullShare} f : sProp 𝕄) = oLoc d ↦[oSetA0 L]{fullShare} f := rfl
theorem pts_oA1 (f : Buf (Elt F) (oLoc d)) : ((oA1).view.loc (thrV d L) ↦[(oA1).view.set]{fullShare} f : sProp 𝕄) = oLoc d ↦[oSetA1 L]{fullShare} f := rfl
theorem pts_oB0 (f : Buf (Elt F) (oLoc d)) : ((oB0).view.loc (thrV d L) ↦[(oB0).view.set]{fullShare} f : sProp 𝕄) = oLoc d ↦[oSetB0 L]{fullShare} f := rfl
theorem pts_oB1 (f : Buf (Elt F) (oLoc d)) : ((oB1).view.loc (thrV d L) ↦[(oB1).view.set]{fullShare} f : sProp 𝕄) = oLoc d ↦[oSetB1 L]{fullShare} f := rfl
theorem pts_bH0 (f : Buf (Elt F) (bLoc d L)) : ((bH0).view.loc (thrV d L) ↦[(bH0).view.set]{fullShare} f : sProp 𝕄) = bLoc d L ↦[bSet0]{fullShare} f := rfl
theorem pts_bH1 (f : Buf (Elt F) (bLoc d L)) : ((bH1).view.loc (thrV d L) ↦[(bH1).view.set]{fullShare} f : sProp 𝕄) = bLoc d L ↦[bSet1]{fullShare} f := rfl
theorem pts_sH0 (f : Buf (Elt F) (shLoc d (cV L))) : ((sH0).view.loc (thrV d L) ↦[(sH0).view.set]{fullShare} f : sProp 𝕄) = shLoc d (cV L) ↦[sSet0 L]{fullShare} f := rfl
theorem pts_sH1 (f : Buf (Elt F) (shLoc d (cV L))) : ((sH1).view.loc (thrV d L) ↦[(sH1).view.set]{fullShare} f : sProp 𝕄) = shLoc d (cV L) ↦[sSet1 L]{fullShare} f := rfl

end Tile

/-! ## Where the pieces lie -/

/-- The grid point of tile `s` of SparseCore `c`. -/
def coordsV (c : Fin 2) (s : Fin 16) : grid0.Coords :=
  fun | 0 => c | 1 => s | ⟨_ + 2, h⟩ => absurd h (Nat.not_lt.2 (Nat.le_add_left _ _))

/-- Chunk 0 of tile `(c, s)`: rows `256 s + 128 c` to `+ 32` of the result. -/
theorem mem_oSetA0 (c : Fin 2) (s : Fin 16) (i : S4096x1024.Idx) :
    i ∈ oSetA0 (coordsV c s) ↔ 256 * s.val + 128 * c.val ≤ (i 0).val ∧ (i 0).val < 256 * s.val + 128 * c.val + 32 := by
  have h1 : (i 1).val < 1024 := (i 1).isLt
  show i ∈ ((View.whole (main_v0_scv : Ref sig .scVector)).slice (Rect.unit (s := S4096x1024) (k0_off5 (coordsV c s) 0#32) S32x1024.size (k0_off5_inb (coordsV c s) 0))).set ↔ _
  rw [View.set_slice_whole, Rect.mem_set_unit, show k0_off5 (coordsV c s) 0#32 = ![256 * s.val + 128 * c.val + 32 * 0, 0] from k0_off5_eq (coordsV c s) 0]
  constructor
  · intro h
    have h0 : 256 * s.val + 128 * c.val + 32 * 0 ≤ (i 0).val ∧ (i 0).val < 256 * s.val + 128 * c.val + 32 * 0 + 32 := h 0
    omega
  · intro h a
    match a with
    | ⟨0, _⟩ => exact (show 256 * s.val + 128 * c.val + 32 * 0 ≤ (i 0).val ∧ (i 0).val < 256 * s.val + 128 * c.val + 32 * 0 + 32 by omega)
    | ⟨1, _⟩ => exact (show 0 ≤ (i 1).val ∧ (i 1).val < 0 + 1024 by omega)

/-- Chunk 1: the next 32 rows. -/
theorem mem_oSetA1 (c : Fin 2) (s : Fin 16) (i : S4096x1024.Idx) :
    i ∈ oSetA1 (coordsV c s) ↔ 256 * s.val + 128 * c.val + 32 ≤ (i 0).val ∧ (i 0).val < 256 * s.val + 128 * c.val + 64 := by
  have h1 : (i 1).val < 1024 := (i 1).isLt
  show i ∈ ((View.whole (main_v0_scv : Ref sig .scVector)).slice (Rect.unit (s := S4096x1024) (k0_off5 (coordsV c s) 32#32) S32x1024.size (k0_off5_inb (coordsV c s) 1))).set ↔ _
  rw [View.set_slice_whole, Rect.mem_set_unit, show k0_off5 (coordsV c s) 32#32 = ![256 * s.val + 128 * c.val + 32 * 1, 0] from k0_off5_eq (coordsV c s) 1]
  constructor
  · intro h
    have h0 : 256 * s.val + 128 * c.val + 32 * 1 ≤ (i 0).val ∧ (i 0).val < 256 * s.val + 128 * c.val + 32 * 1 + 32 := h 0
    omega
  · intro h a
    match a with
    | ⟨0, _⟩ => exact (show 256 * s.val + 128 * c.val + 32 * 1 ≤ (i 0).val ∧ (i 0).val < 256 * s.val + 128 * c.val + 32 * 1 + 32 by omega)
    | ⟨1, _⟩ => exact (show 0 ≤ (i 1).val ∧ (i 1).val < 0 + 1024 by omega)

/-- Chunk 2: the third 32 rows. -/
theorem mem_oSetB0 (c : Fin 2) (s : Fin 16) (i : S4096x1024.Idx) :
    i ∈ oSetB0 (coordsV c s) ↔ 256 * s.val + 128 * c.val + 64 ≤ (i 0).val ∧ (i 0).val < 256 * s.val + 128 * c.val + 96 := by
  have h1 : (i 1).val < 1024 := (i 1).isLt
  show i ∈ ((View.whole (main_v0_scv : Ref sig .scVector)).slice (Rect.unit (s := S4096x1024) (k0_off6 (coordsV c s) 0#32) S32x1024.size (k0_off6_inb (coordsV c s) 0))).set ↔ _
  rw [View.set_slice_whole, Rect.mem_set_unit, show k0_off6 (coordsV c s) 0#32 = ![256 * s.val + 128 * c.val + 32 * 0 + 64, 0] from k0_off6_eq (coordsV c s) 0]
  constructor
  · intro h
    have h0 : 256 * s.val + 128 * c.val + 32 * 0 + 64 ≤ (i 0).val ∧ (i 0).val < 256 * s.val + 128 * c.val + 32 * 0 + 64 + 32 := h 0
    omega
  · intro h a
    match a with
    | ⟨0, _⟩ => exact (show 256 * s.val + 128 * c.val + 32 * 0 + 64 ≤ (i 0).val ∧ (i 0).val < 256 * s.val + 128 * c.val + 32 * 0 + 64 + 32 by omega)
    | ⟨1, _⟩ => exact (show 0 ≤ (i 1).val ∧ (i 1).val < 0 + 1024 by omega)

/-- Chunk 3: the last 32 rows. -/
theorem mem_oSetB1 (c : Fin 2) (s : Fin 16) (i : S4096x1024.Idx) :
    i ∈ oSetB1 (coordsV c s) ↔ 256 * s.val + 128 * c.val + 96 ≤ (i 0).val ∧ (i 0).val < 256 * s.val + 128 * c.val + 128 := by
  have h1 : (i 1).val < 1024 := (i 1).isLt
  show i ∈ ((View.whole (main_v0_scv : Ref sig .scVector)).slice (Rect.unit (s := S4096x1024) (k0_off6 (coordsV c s) 32#32) S32x1024.size (k0_off6_inb (coordsV c s) 1))).set ↔ _
  rw [View.set_slice_whole, Rect.mem_set_unit, show k0_off6 (coordsV c s) 32#32 = ![256 * s.val + 128 * c.val + 32 * 1 + 64, 0] from k0_off6_eq (coordsV c s) 1]
  constructor
  · intro h
    have h0 : 256 * s.val + 128 * c.val + 32 * 1 + 64 ≤ (i 0).val ∧ (i 0).val < 256 * s.val + 128 * c.val + 32 * 1 + 64 + 32 := h 0
    omega
  · intro h a
    match a with
    | ⟨0, _⟩ => exact (show 256 * s.val + 128 * c.val + 32 * 1 + 64 ≤ (i 0).val ∧ (i 0).val < 256 * s.val + 128 * c.val + 32 * 1 + 64 + 32 by omega)
    | ⟨1, _⟩ => exact (show 0 ≤ (i 1).val ∧ (i 1).val < 0 + 1024 by omega)

/-- The two halves of a tile's own memory: first coordinate 0, first coordinate 1. -/
theorem mem_bSet0 (i : S2x32x1024.Idx) : i ∈ bSet0 ↔ (i 0).val = 0 := by
  have h1 : (i 1).val < 32 := (i 1).isLt
  have h2 : (i 2).val < 1024 := (i 2).isLt
  show i ∈ (((View.whole (cc0_scratch0 : Ref sig .scVector)).slice (Rect.unit (s := S2x32x1024) ![0, 0, 0] S1x32x1024.size inb_S2x32x1024_S1x32x1024_0_0_0)).reshape S32x1024 squeezes_S1x32x1024_S32x1024.numel_eq).set ↔ _
  rw [View.set_reshape, View.set_slice_whole, Rect.mem_set_unit]
  constructor
  · intro h
    have h0 : 0 ≤ (i 0).val ∧ (i 0).val < 0 + 1 := h 0
    omega
  · intro h a
    match a with
    | ⟨0, _⟩ => exact (show 0 ≤ (i 0).val ∧ (i 0).val < 0 + 1 by omega)
    | ⟨1, _⟩ => exact (show 0 ≤ (i 1).val ∧ (i 1).val < 0 + 32 by omega)
    | ⟨2, _⟩ => exact (show 0 ≤ (i 2).val ∧ (i 2).val < 0 + 1024 by omega)

theorem mem_bSet1 (i : S2x32x1024.Idx) : i ∈ bSet1 ↔ (i 0).val = 1 := by
  have h1 : (i 1).val < 32 := (i 1).isLt
  have h2 : (i 2).val < 1024 := (i 2).isLt
  show i ∈ (((View.whole (cc0_scratch0 : Ref sig .scVector)).slice (Rect.unit (s := S2x32x1024) ![1, 0, 0] S1x32x1024.size inb_S2x32x1024_S1x32x1024_1_0_0)).reshape S32x1024 squeezes_S1x32x1024_S32x1024.numel_eq).set ↔ _
  rw [View.set_reshape, View.set_slice_whole, Rect.mem_set_unit]
  constructor
  · intro h
    have h0 : 1 ≤ (i 0).val ∧ (i 0).val < 1 + 1 := h 0
    omega
  · intro h a
    match a with
    | ⟨0, _⟩ => exact (show 1 ≤ (i 0).val ∧ (i 0).val < 1 + 1 by omega)
    | ⟨1, _⟩ => exact (show 0 ≤ (i 1).val ∧ (i 1).val < 0 + 32 by omega)
    | ⟨2, _⟩ => exact (show 0 ≤ (i 2).val ∧ (i 2).val < 0 + 1024 by omega)

/-- Tile `s`'s two rows of the shared memory: first coordinate `s`, second coordinate 0 or 1. -/
theorem mem_sSet0 (c : Fin 2) (s : Fin 16) (i : S16x2x32x1024.Idx) : i ∈ sSet0 (coordsV c s) ↔ (i 0).val = s.val ∧ (i 1).val = 0 := by
  have h2 : (i 2).val < 32 := (i 2).isLt
  have h3 : (i 3).val < 1024 := (i 3).isLt
  show i ∈ (((View.whole (cc0_scratch1 : Ref sig .scVector)).slice (Rect.unit (s := S16x2x32x1024) (k0_off2 (coordsV c s)) S1x1x32x1024.size (k0_off2_inb (coordsV c s)))).reshape S32x1024 squeezes_S1x1x32x1024_S32x1024.numel_eq).set ↔ _
  rw [View.set_reshape, View.set_slice_whole, Rect.mem_set_unit, show k0_off2 (coordsV c s) = ![s.val, 0, 0, 0] from k0_off2_eq (coordsV c s)]
  constructor
  · intro h
    have h0 : s.val ≤ (i 0).val ∧ (i 0).val < s.val + 1 := h 0
    have h1 : 0 ≤ (i 1).val ∧ (i 1).val < 0 + 1 := h 1
    omega
  · intro h a
    match a with
    | ⟨0, _⟩ => exact (show s.val ≤ (i 0).val ∧ (i 0).val < s.val + 1 by omega)
    | ⟨1, _⟩ => exact (show 0 ≤ (i 1).val ∧ (i 1).val < 0 + 1 by omega)
    | ⟨2, _⟩ => exact (show 0 ≤ (i 2).val ∧ (i 2).val < 0 + 32 by omega)
    | ⟨3, _⟩ => exact (show 0 ≤ (i 3).val ∧ (i 3).val < 0 + 1024 by omega)

theorem mem_sSet1 (c : Fin 2) (s : Fin 16) (i : S16x2x32x1024.Idx) : i ∈ sSet1 (coordsV c s) ↔ (i 0).val = s.val ∧ (i 1).val = 1 := by
  have h2 : (i 2).val < 32 := (i 2).isLt
  have h3 : (i 3).val < 1024 := (i 3).isLt
  show i ∈ (((View.whole (cc0_scratch1 : Ref sig .scVector)).slice (Rect.unit (s := S16x2x32x1024) (k0_off4 (coordsV c s)) S1x1x32x1024.size (k0_off4_inb (coordsV c s)))).reshape S32x1024 squeezes_S1x1x32x1024_S32x1024.numel_eq).set ↔ _
  rw [View.set_reshape, View.set_slice_whole, Rect.mem_set_unit, show k0_off4 (coordsV c s) = ![s.val, 1, 0, 0] from k0_off4_eq (coordsV c s)]
  constructor
  · intro h
    have h0 : s.val ≤ (i 0).val ∧ (i 0).val < s.val + 1 := h 0
    have h1 : 1 ≤ (i 1).val ∧ (i 1).val < 1 + 1 := h 1
    omega
  · intro h a
    match a with
    | ⟨0, _⟩ => exact (show s.val ≤ (i 0).val ∧ (i 0).val < s.val + 1 by omega)
    | ⟨1, _⟩ => exact (show 1 ≤ (i 1).val ∧ (i 1).val < 1 + 1 by omega)
    | ⟨2, _⟩ => exact (show 0 ≤ (i 2).val ∧ (i 2).val < 0 + 32 by omega)
    | ⟨3, _⟩ => exact (show 0 ≤ (i 3).val ∧ (i 3).val < 0 + 1024 by omega)

end Cert.Proof.KernelFrame

end
-- ==== Proof.KernelBody.lean ====
/-
  One tile's task in `Kernel`, run once at a symbolic tile. The task reads its four 32-row chunks of the table into its
  four buffer pieces, waits for each, writes each piece to the same rows of the result, and waits for those. Every
  transfer has a semaphore of its own, so each is in flight alone on its cell; no buffer piece is written or read while a
  transfer on it is pending. What a chunk of the result holds afterwards is what its piece held, which is what the
  table's chunk held: the table's rows `256 s + 128 c + 32 k` onwards, at the same row numbers.
-/
import proofs.«210076_g26774826123951_cont_9to1_2051_14_alg».proof.Proof.KernelPieces
import Idealize.ShloMosaic.Lib.Pipeline.FrameBody
import Idealize.ShloMosaic.Lib.Pipeline.Value

noncomputable section

namespace Cert.Proof.KernelFrame

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Reading back one whole write -/

/-- What one write through the whole of a view leaves reads back, through the view, as what was written. -/
theorem read_writes_whole {sig : RefSig} {κ : Kind} {sp : Space} {s : Shape} {e : EltTy} {Val : EltTy → Type} [∀ e, Nonempty (Val e)]
    (v : View sig κ sp s e) (f : v.ty.Contents Val) (w : s.Idx → Val e) :
    v.read Val (v.writes Val f [⟨Rect.whole s, w⟩]) = w := by
  rw [View.read_writes_eq_canon v f _ (fun y => ⟨_, List.mem_singleton_self _, by
    show y ∈ (Rect.whole s).set; rw [Rect.set_whole]; exact Finset.mem_univ y⟩)]
  exact View.canon_unit_zero rfl _ w

section Tile

variable (d : Dev nD) (L : grid0.Coords)

local notation "tW" => (Memref.whole Cert.Kernel.main_arg1_scv : Memref Cert.Kernel.sig Kind.scVector Space.hbm Cert.Kernel.S8192x1024 EltTy.f32)
local notation "oW" => (Memref.whole Cert.Kernel.main_v0_scv : Memref Cert.Kernel.sig Kind.scVector Space.hbm Cert.Kernel.S4096x1024 EltTy.f32)
local notation "bW" => (Memref.whole Cert.Kernel.cc0_scratch0 : Memref Cert.Kernel.sig Kind.scVector Space.vmem Cert.Kernel.S2x32x1024 EltTy.f32)
local notation "shW" => (Memref.whole Cert.Kernel.cc0_scratch1 : Memref Cert.Kernel.sig Kind.scVector Space.shared Cert.Kernel.S16x2x32x1024 EltTy.f32)
local notation "tA0" => (Memref.slice tW (Rect.unit (s := Cert.Kernel.S8192x1024) (Cert.Kernel.k0_off1 L 0#32) (Shape.size Cert.Kernel.S32x1024) (k0_off1_inb L 0)) (fun _ => rfl))
local notation "tA1" => (Memref.slice tW (Rect.unit (s := Cert.Kernel.S8192x1024) (Cert.Kernel.k0_off1 L 32#32) (Shape.size Cert.Kernel.S32x1024) (k0_off1_inb L 1)) (fun _ => rfl))
local notation "tB0" => (Memref.slice tW (Rect.unit (s := Cert.Kernel.S8192x1024) (Cert.Kernel.k0_off3 L 0#32) (Shape.size Cert.Kernel.S32x1024) (k0_off3_inb L 0)) (fun _ => rfl))
local notation "tB1" => (Memref.slice tW (Rect.unit (s := Cert.Kernel.S8192x1024) (Cert.Kernel.k0_off3 L 32#32) (Shape.size Cert.Kernel.S32x1024) (k0_off3_inb L 1)) (fun _ => rfl))
local notation "oA0" => (Memref.slice oW (Rect.unit (s := Cert.Kernel.S4096x1024) (Cert.Kernel.k0_off5 L 0#32) (Shape.size Cert.Kernel.S32x1024) (k0_off5_inb L 0)) (fun _ => rfl))
local notation "oA1" => (Memref.slice oW (Rect.unit (s := Cert.Kernel.S4096x1024) (Cert.Kernel.k0_off5 L 32#32) (Shape.size Cert.Kernel.S32x1024) (k0_off5_inb L 1)) (fun _ => rfl))
local notation "oB0" => (Memref.slice oW (Rect.unit (s := Cert.Kernel.S4096x1024) (Cert.Kernel.k0_off6 L 0#32) (Shape.size Cert.Kernel.S32x1024) (k0_off6_inb L 0)) (fun _ => rfl))
local notation "oB1" => (Memref.slice oW (Rect.unit (s := Cert.Kernel.S4096x1024) (Cert.Kernel.k0_off6 L 32#32) (Shape.size Cert.Kernel.S32x1024) (k0_off6_inb L 1)) (fun _ => rfl))

variable [FloatOps F] (m : (ℓ : Loc nD τ sig) → Buf (Elt F) ℓ)

/-- The rows of the table the result is to hold, as contents of the result's array. -/
abbrev rowsF (d : Dev nD) : Buf (Elt F) (oLoc d) := Cert.Spec.rows (m (tLoc d))

/-! ## A chunk of the result after the task: the table's rows -/

omit [FloatOps F] in
theorem emb_A0 (y : S32x1024.Idx) : (tA0).view.emb y = Cert.Spec.tabIdx (((oA0).view.emb y) 0) (((oA0).view.emb y) 1) := by
  funext a; apply Fin.ext
  match a with
  | ⟨0, _⟩ => rfl
  | ⟨1, _⟩ => rfl
omit [FloatOps F] in
theorem emb_A1 (y : S32x1024.Idx) : (tA1).view.emb y = Cert.Spec.tabIdx (((oA1).view.emb y) 0) (((oA1).view.emb y) 1) := by
  funext a; apply Fin.ext
  match a with
  | ⟨0, _⟩ => rfl
  | ⟨1, _⟩ => rfl
omit [FloatOps F] in
theorem emb_B0 (y : S32x1024.Idx) : (tB0).view.emb y = Cert.Spec.tabIdx (((oB0).view.emb y) 0) (((oB0).view.emb y) 1) := by
  funext a; apply Fin.ext
  match a with
  | ⟨0, _⟩ => rfl
  | ⟨1, _⟩ => rfl
omit [FloatOps F] in
theorem emb_B1 (y : S32x1024.Idx) : (tB1).view.emb y = Cert.Spec.tabIdx (((oB1).view.emb y) 0) (((oB1).view.emb y) 1) := by
  funext a; apply Fin.ext
  match a with
  | ⟨0, _⟩ => rfl
  | ⟨1, _⟩ => rfl

omit [FloatOps F] in
/-- The result's chunk written whole with the table's chunk holds, on its elements, the table's rows. -/
theorem val_A0 [∀ e, Nonempty (Elt F e)] (fo : Buf (Elt F) (oLoc d)) :
    ∀ i ∈ oSetA0 L, ((oA0).view.writes (Elt F) fo [⟨Rect.whole S32x1024, (tA0).view.read (Elt F) (m (tLoc d))⟩]) i = rowsF m d i := by
  intro i hi
  obtain ⟨y, rfl⟩ := View.exists_emb_of_mem_set (oA0).view hi
  have h := congrFun (read_writes_whole (oA0).view fo ((tA0).view.read (Elt F) (m (tLoc d)))) y
  have hl : (oA0).view.read (Elt F) ((oA0).view.writes (Elt F) fo [⟨Rect.whole S32x1024, (tA0).view.read (Elt F) (m (tLoc d))⟩]) y
      = ((oA0).view.writes (Elt F) fo [⟨Rect.whole S32x1024, (tA0).view.read (Elt F) (m (tLoc d))⟩]) ((oA0).view.emb y) :=
    (View.read_apply _ _).trans (cast_eq _ _)
  have hr : (tA0).view.read (Elt F) (m (tLoc d)) y = m (tLoc d) ((tA0).view.emb y) := (View.read_apply _ _).trans (cast_eq _ _)
  exact hl.symm.trans (h.trans (hr.trans (congrArg (m (tLoc d)) (emb_A0 L y))))
omit [FloatOps F] in
theorem val_A1 [∀ e, Nonempty (Elt F e)] (fo : Buf (Elt F) (oLoc d)) :
    ∀ i ∈ oSetA1 L, ((oA1).view.writes (Elt F) fo [⟨Rect.whole S32x1024, (tA1).view.read (Elt F) (m (tLoc d))⟩]) i = rowsF m d i := by
  intro i hi
  obtain ⟨y, rfl⟩ := View.exists_emb_of_mem_set (oA1).view hi
  have h := congrFun (read_writes_whole (oA1).view fo ((tA1).view.read (Elt F) (m (tLoc d)))) y
  have hl : (oA1).view.read (Elt F) ((oA1).view.writes (Elt F) fo [⟨Rect.whole S32x1024, (tA1).view.read (Elt F) (m (tLoc d))⟩]) y
      = ((oA1).view.writes (Elt F) fo [⟨Rect.whole S32x1024, (tA1).view.read (Elt F) (m (tLoc d))⟩]) ((oA1).view.emb y) :=
    (View.read_apply _ _).trans (cast_eq _ _)
  have hr : (tA1).view.read (Elt F) (m (tLoc d)) y = m (tLoc d) ((tA1).view.emb y) := (View.read_apply _ _).trans (cast_eq _ _)
  exact hl.symm.trans (h.trans (hr.trans (congrArg (m (tLoc d)) (emb_A1 L y))))
omit [FloatOps F] in
theorem val_B0 [∀ e, Nonempty (Elt F e)] (fo : Buf (Elt F) (oLoc d)) :
    ∀ i ∈ oSetB0 L, ((oB0).view.writes (Elt F) fo [⟨Rect.whole S32x1024, (tB0).view.read (Elt F) (m (tLoc d))⟩]) i = rowsF m d i := by
  intro i hi
  obtain ⟨y, rfl⟩ := View.exists_emb_of_mem_set (oB0).view hi
  have h := congrFun (read_writes_whole (oB0).view fo ((tB0).view.read (Elt F) (m (tLoc d)))) y
  have hl : (oB0).view.read (Elt F) ((oB0).view.writes (Elt F) fo [⟨Rect.whole S32x1024, (tB0).view.read (Elt F) (m (tLoc d))⟩]) y
      = ((oB0).view.writes (Elt F) fo [⟨Rect.whole S32x1024, (tB0).view.read (Elt F) (m (tLoc d))⟩]) ((oB0).view.emb y) :=
    (View.read_apply _ _).trans (cast_eq _ _)
  have hr : (tB0).view.read (Elt F) (m (tLoc d)) y = m (tLoc d) ((tB0).view.emb y) := (View.read_apply _ _).trans (cast_eq _ _)
  exact hl.symm.trans (h.trans (hr.trans (congrArg (m (tLoc d)) (emb_B0 L y))))
omit [FloatOps F] in
theorem val_B1 [∀ e, Nonempty (Elt F e)] (fo : Buf (Elt F) (oLoc d)) :
    ∀ i ∈ oSetB1 L, ((oB1).view.writes (Elt F) fo [⟨Rect.whole S32x1024, (tB1).view.read (Elt F) (m (tLoc d))⟩]) i = rowsF m d i := by
  intro i hi
  obtain ⟨y, rfl⟩ := View.exists_emb_of_mem_set (oB1).view hi
  have h := congrFun (read_writes_whole (oB1).view fo ((tB1).view.read (Elt F) (m (tLoc d)))) y
  have hl : (oB1).view.read (Elt F) ((oB1).view.writes (Elt F) fo [⟨Rect.whole S32x1024, (tB1).view.read (Elt F) (m (tLoc d))⟩]) y
      = ((oB1).view.writes (Elt F) fo [⟨Rect.whole S32x1024, (tB1).view.read (Elt F) (m (tLoc d))⟩]) ((oB1).view.emb y) :=
    (View.read_apply _ _).trans (cast_eq _ _)
  have hr : (tB1).view.read (Elt F) (m (tLoc d)) y = m (tLoc d) ((tB1).view.emb y) := (View.read_apply _ _).trans (cast_eq _ _)
  exact hl.symm.trans (h.trans (hr.trans (congrArg (m (tLoc d)) (emb_B1 L y))))

end Tile

section Task

variable (d : Dev nD) (L : grid0.Coords)

local notation "tW" => (Memref.whole Cert.Kernel.main_arg1_scv : Memref Cert.Kernel.sig Kind.scVector Space.hbm Cert.Kernel.S8192x1024 EltTy.f32)
local notation "oW" => (Memref.whole Cert.Kernel.main_v0_scv : Memref Cert.Kernel.sig Kind.scVector Space.hbm Cert.Kernel.S4096x1024 EltTy.f32)
local notation "bW" => (Memref.whole Cert.Kernel.cc0_scratch0 : Memref Cert.Kernel.sig Kind.scVector Space.vmem Cert.Kernel.S2x32x1024 EltTy.f32)
local notation "shW" => (Memref.whole Cert.Kernel.cc0_scratch1 : Memref Cert.Kernel.sig Kind.scVector Space.shared Cert.Kernel.S16x2x32x1024 EltTy.f32)
local notation "tA0" => (Memref.slice tW (Rect.unit (s := Cert.Kernel.S8192x1024) (Cert.Kernel.k0_off1 L 0#32) (Shape.size Cert.Kernel.S32x1024) (k0_off1_inb L 0)) (fun _ => rfl))
local notation "tA1" => (Memref.slice tW (Rect.unit (s := Cert.Kernel.S8192x1024) (Cert.Kernel.k0_off1 L 32#32) (Shape.size Cert.Kernel.S32x1024) (k0_off1_inb L 1)) (fun _ => rfl))
local notation "tB0" => (Memref.slice tW (Rect.unit (s := Cert.Kernel.S8192x1024) (Cert.Kernel.k0_off3 L 0#32) (Shape.size Cert.Kernel.S32x1024) (k0_off3_inb L 0)) (fun _ => rfl))
local notation "tB1" => (Memref.slice tW (Rect.unit (s := Cert.Kernel.S8192x1024) (Cert.Kernel.k0_off3 L 32#32) (Shape.size Cert.Kernel.S32x1024) (k0_off3_inb L 1)) (fun _ => rfl))
local notation "oA0" => (Memref.slice oW (Rect.unit (s := Cert.Kernel.S4096x1024) (Cert.Kernel.k0_off5 L 0#32) (Shape.size Cert.Kernel.S32x1024) (k0_off5_inb L 0)) (fun _ => rfl))
local notation "oA1" => (Memref.slice oW (Rect.unit (s := Cert.Kernel.S4096x1024) (Cert.Kernel.k0_off5 L 32#32) (Shape.size Cert.Kernel.S32x1024) (k0_off5_inb L 1)) (fun _ => rfl))
local notation "oB0" => (Memref.slice oW (Rect.unit (s := Cert.Kernel.S4096x1024) (Cert.Kernel.k0_off6 L 0#32) (Shape.size Cert.Kernel.S32x1024) (k0_off6_inb L 0)) (fun _ => rfl))
local notation "oB1" => (Memref.slice oW (Rect.unit (s := Cert.Kernel.S4096x1024) (Cert.Kernel.k0_off6 L 32#32) (Shape.size Cert.Kernel.S32x1024) (k0_off6_inb L 1)) (fun _ => rfl))

variable [FloatOps F] (m : (ℓ : Loc nD τ sig) → Buf (Elt F) ℓ)

/-! ## The tile's own memory: its two halves -/

omit [FloatOps F] in
theorem bSets_disjoint : Disjoint bSet0 bSet1 :=
  Finset.disjoint_left.mpr fun i h0 h1 => by
    rw [mem_bSet0] at h0; rw [mem_bSet1] at h1; omega
omit [FloatOps F] in
theorem bSets_union : bSet0 ∪ bSet1 = Finset.univ := by
  ext i
  simp only [Finset.mem_union, mem_bSet0, mem_bSet1, Finset.mem_univ, iff_true]
  have h : (i 0).val < 2 := (i 0).isLt
  omega
omit [FloatOps F] in
theorem bPts_split (f : Buf (Elt F) (bLoc d L)) :
    (bLoc d L ↦{fullShare} f : sProp 𝕄) ⊣⊢ iprop((bLoc d L ↦[bSet0]{fullShare} f) ∗ bLoc d L ↦[bSet1]{fullShare} f) := by
  have h : (bLoc d L ↦[bSet0 ∪ bSet1]{fullShare} f : sProp 𝕄) ⊣⊢ iprop((bLoc d L ↦[bSet0]{fullShare} f) ∗ bLoc d L ↦[bSet1]{fullShare} f) :=
    pointsTo_union bSets_disjoint
  rw [bSets_union] at h; exact h
omit [FloatOps F] in
/-- The halves, each at contents of its own, are the tile's memory at some contents. -/
theorem bPts_join (f g : Buf (Elt F) (bLoc d L)) :
    iprop((bLoc d L ↦[bSet0]{fullShare} f) ∗ bLoc d L ↦[bSet1]{fullShare} g) ⊢ (iprop(∃ h, bLoc d L ↦{fullShare} h) : sProp 𝕄) := by
  iintro H
  ihave H' := (pointsTo_join (ℓ := bLoc d L) (q := fullShare) (f := f) (g := g) bSets_disjoint) $$ H
  rw [bSets_union]
  iexists _; iexact H'

/-! ## The tile's scoped storage: its memory and its eight transfer semaphores -/

omit [FloatOps F] in
theorem ownBufs_V :
    (ownBufs (thrV d L) : sProp 𝕄)
      = iprop((∃ f, bLoc d L ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
theorem cell_ne {a b : DmaSems sig S_} (h : a.sem ≠ b.sem) : cell d L a ≠ cell d L b :=
  fun e => h (SemLoc.dma.inj (Prod.mk.inj e).2)

omit [FloatOps F] in
theorem ownSems0_V :
    (ownSems0 (thrV d L) : sProp 𝕄)
      = iprop(semVal (cell d L cc0_scratch2) 0 ∗ semVal (cell d L cc0_scratch3) 0 ∗ semVal (cell d L cc0_scratch4) 0 ∗ semVal (cell d L cc0_scratch5) 0
          ∗ semVal (cell d L cc0_scratch6) 0 ∗ semVal (cell d L cc0_scratch7) 0 ∗ semVal (cell d L cc0_scratch8) 0 ∗ semVal (cell d L cc0_scratch9) 0
          ∗ bigSep (((((((((ownCells (thrV d L)).erase (cell d L cc0_scratch2)).erase (cell d L cc0_scratch3)).erase (cell d L cc0_scratch4)).erase (cell d L cc0_scratch5)).erase
              (cell d L cc0_scratch6)).erase (cell d L cc0_scratch7)).erase (cell d L cc0_scratch8)).erase (cell d L cc0_scratch9))
              fun g => semVal g 0) := by
  unfold SparseCore.Cfg.ownSems0
  have m2 : cell d L cc0_scratch2 ∈ ownCells (thrV d L) := (mem_ownCells (g := cell d L cc0_scratch2)).mpr ⟨rfl, by show (SemLoc.dma cc0_scratch2.sem : SemLoc sig).isScoped .scVector = true; decide⟩
  have m3 : cell d L cc0_scratch3 ∈ ownCells (thrV d L) := (mem_ownCells (g := cell d L cc0_scratch3)).mpr ⟨rfl, by show (SemLoc.dma cc0_scratch3.sem : SemLoc sig).isScoped .scVector = true; decide⟩
  have m4 : cell d L cc0_scratch4 ∈ ownCells (thrV d L) := (mem_ownCells (g := cell d L cc0_scratch4)).mpr ⟨rfl, by show (SemLoc.dma cc0_scratch4.sem : SemLoc sig).isScoped .scVector = true; decide⟩
  have m5 : cell d L cc0_scratch5 ∈ ownCells (thrV d L) := (mem_ownCells (g := cell d L cc0_scratch5)).mpr ⟨rfl, by show (SemLoc.dma cc0_scratch5.sem : SemLoc sig).isScoped .scVector = true; decide⟩
  have m6 : cell d L cc0_scratch6 ∈ ownCells (thrV d L) := (mem_ownCells (g := cell d L cc0_scratch6)).mpr ⟨rfl, by show (SemLoc.dma cc0_scratch6.sem : SemLoc sig).isScoped .scVector = true; decide⟩
  have m7 : cell d L cc0_scratch7 ∈ ownCells (thrV d L) := (mem_ownCells (g := cell d L cc0_scratch7)).mpr ⟨rfl, by show (SemLoc.dma cc0_scratch7.sem : SemLoc sig).isScoped .scVector = true; decide⟩
  have m8 : cell d L cc0_scratch8 ∈ ownCells (thrV d L) := (mem_ownCells (g := cell d L cc0_scratch8)).mpr ⟨rfl, by show (SemLoc.dma cc0_scratch8.sem : SemLoc sig).isScoped .scVector = true; decide⟩
  have m9 : cell d L cc0_scratch9 ∈ ownCells (thrV d L) := (mem_ownCells (g := cell d L cc0_scratch9)).mpr ⟨rfl, by show (SemLoc.dma cc0_scratch9.sem : SemLoc sig).isScoped .scVector = true; decide⟩
  rw [SparseCore.bigSep_erase' m2,
    SparseCore.bigSep_erase' (Finset.mem_erase.mpr ⟨cell_ne d L (by decide), m3⟩),
    SparseCore.bigSep_erase' (Finset.mem_erase.mpr ⟨cell_ne d L (by decide), Finset.mem_erase.mpr ⟨cell_ne d L (by decide), m4⟩⟩),
    SparseCore.bigSep_erase' (Finset.mem_erase.mpr ⟨cell_ne d L (by decide), Finset.mem_erase.mpr ⟨cell_ne d L (by decide), Finset.mem_erase.mpr ⟨cell_ne d L (by decide), m5⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), m6⟩⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), Finset.mem_erase.mpr ⟨cell_ne d L (by decide), m7⟩⟩⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), Finset.mem_erase.mpr ⟨cell_ne d L (by decide), Finset.mem_erase.mpr ⟨cell_ne d L (by decide), m8⟩⟩⟩⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), Finset.mem_erase.mpr ⟨cell_ne d L (by decide), Finset.mem_erase.mpr ⟨cell_ne d L (by decide),
      Finset.mem_erase.mpr ⟨cell_ne d L (by decide), m9⟩⟩⟩⟩⟩⟩⟩)]

/-! ## The task -/

/-- The task of tile `L`: from four read shares of the table, its four chunks of the result, its two rows of the shared
    memory and its own scoped storage, it ends with its chunks of the result at the table's rows and everything else as it
    found it (the buffers at whatever they now hold), having recorded only waits on its own semaphores. -/
theorem tile_body [∀ e, Nonempty (Elt F e)] (hF : (K (F := F)).Facts) (q0 q1 q2 q3 : PosShare TreeShare)
    (O : CellTallies nD τ sig (HIx 1)) (W : Waits sig (HIx 1)) (hO : ∀ g, O g none = 0) :
    iprop(levAts (K (F := F)).L (K (F := F)).lev
        ∗ ((tLoc d ↦{q0} m (tLoc d)) ∗ (tLoc d ↦{q1} m (tLoc d)) ∗ (tLoc d ↦{q2} m (tLoc d)) ∗ (tLoc d ↦{q3} m (tLoc d)))
        ∗ ((oLoc d ↦[oSetA0 L]{fullShare} m (oLoc d)) ∗ (oLoc d ↦[oSetA1 L]{fullShare} m (oLoc d))
            ∗ (oLoc d ↦[oSetB0 L]{fullShare} m (oLoc d)) ∗ (oLoc d ↦[oSetB1 L]{fullShare} m (oLoc d)))
        ∗ ((∃ f, shLoc d (cV L) ↦[sSet0 L]{fullShare} f) ∗ (∃ f, shLoc d (cV L) ↦[sSet1 L]{fullShare} f))
        ∗ scopedBufs (thrV d L) ∗ scopedSems0 (thrV d L) ∗ owes (thrV d L) O W)
      ⊢ wp frame (wpE (defs₀ (F := F)) 𝒱₀ (thrV d L) none) Set.univ
          (cc0_sc_copy L tW (Memref.isWhole_whole _) oW (Memref.isWhole_whole _) bW (Memref.isWhole_whole _) shW (Memref.isWhole_whole _)
            cc0_scratch2 cc0_scratch3 cc0_scratch4 cc0_scratch5 cc0_scratch6 cc0_scratch7 cc0_scratch8 cc0_scratch9)
          fun _ => (iprop(((tLoc d ↦{q0} m (tLoc d)) ∗ (tLoc d ↦{q1} m (tLoc d)) ∗ (tLoc d ↦{q2} m (tLoc d)) ∗ (tLoc d ↦{q3} m (tLoc d)))
            ∗ ((oLoc d ↦[oSetA0 L]{fullShare} rowsF m d) ∗ (oLoc d ↦[oSetA1 L]{fullShare} rowsF m d)
                ∗ (oLoc d ↦[oSetB0 L]{fullShare} rowsF m d) ∗ (oLoc d ↦[oSetB1 L]{fullShare} rowsF m d))
            ∗ ((∃ f, shLoc d (cV L) ↦[sSet0 L]{fullShare} f) ∗ (∃ f, shLoc d (cV L) ↦[sSet1 L]{fullShare} f))
            ∗ scopedBufs (thrV d L) ∗ scopedSems0 (thrV d L)
            ∗ ∃ W', ⌜∀ p ∈ W', p ∈ W ∨ p.2 = none⌝ ∗ owes (thrV d L) O W') : sProp 𝕄) := by
  simp only [cc0_sc_copy_eq_skeleton]; unfold cc0_sc_copy_skel
  rw [(K (F := F)).scopedBufs_V hF d (cV L) (jV L), SparseCore.Cfg.scopedSems0_V (Val := Elt F) d (cV L) (jV L), ownSems0_V, ownBufs_V]
  iintro ⟨#Hlv, ⟨T0, T1, T2, T3⟩, ⟨O0, O1, O2, O3⟩, ⟨⟨%fs0, S0⟩, ⟨%fs1, S1⟩⟩, ⟨⟨%fb, Hb⟩, Hbufs⟩, ⟨s2, s3, s4, s5, s6, s7, s8, s9, Hsems⟩, HO⟩
  ihave Hb' := (bPts_split (F := F) d L fb).1 $$ Hb
  icases Hb' with ⟨B0, B1⟩
  ihave Hmw := ((K (F := F)).mayWaits_none (thr := thrV d L) hO) $$ Hlv
  ihave T0' := (Entails.of_eq (pts_t (F := F) d L _ _).symm) $$ T0
  ihave T1' := (Entails.of_eq (pts_t (F := F) d L _ _).symm) $$ T1
  ihave T2' := (Entails.of_eq (pts_t (F := F) d L _ _).symm) $$ T2
  ihave T3' := (Entails.of_eq (pts_t (F := F) d L _ _).symm) $$ T3
  ihave O0' := (Entails.of_eq (pts_oA0 (F := F) d L _).symm) $$ O0
  ihave O1' := (Entails.of_eq (pts_oA1 (F := F) d L _).symm) $$ O1
  ihave O2' := (Entails.of_eq (pts_oB0 (F := F) d L _).symm) $$ O2
  ihave O3' := (Entails.of_eq (pts_oB1 (F := F) d L _).symm) $$ O3
  ihave B0' := (Entails.of_eq (pts_bH0 (F := F) d L _).symm) $$ B0
  ihave B1' := (Entails.of_eq (pts_bH1 (F := F) d L _).symm) $$ B1
  ihave S0' := (Entails.of_eq (pts_sH0 (F := F) d L _).symm) $$ S0
  ihave S1' := (Entails.of_eq (pts_sH1 (F := F) d L _).symm) $$ S1
  sl_exec
  have e4 : tile_body.sl.dma0_4 d L m fb = (tA0).view.read (Elt F) (m (tLoc d)) := by
    unfold tile_body.sl.dma0_4 tile_body.sl.dma0
    simp only [ReadAs.apply_same, read_writes_whole]
  have e6 : tile_body.sl.dma0_6 d L m fb = (tA1).view.read (Elt F) (m (tLoc d)) := by
    unfold tile_body.sl.dma0_6 tile_body.sl.dma0_2
    simp only [ReadAs.apply_same, read_writes_whole]
  have e5 : tile_body.sl.dma0_5 d L m fs0 = (tB0).view.read (Elt F) (m (tLoc d)) := by
    unfold tile_body.sl.dma0_5 tile_body.sl.dma0_1
    simp only [ReadAs.apply_same, read_writes_whole]
  have e7 : tile_body.sl.dma0_7 d L m fs1 = (tB1).view.read (Elt F) (m (tLoc d)) := by
    unfold tile_body.sl.dma0_7 tile_body.sl.dma0_3
    simp only [ReadAs.apply_same, read_writes_whole]
  rw [e4, e5, e6, e7]
  sl_step
  isplitl [T0' T1' T2' T3']
  · isplitl [T0']; · iapply (Entails.of_eq (pts_t (F := F) d L _ _)); iexact T0'
    isplitl [T1']; · iapply (Entails.of_eq (pts_t (F := F) d L _ _)); iexact T1'
    isplitl [T2']; · iapply (Entails.of_eq (pts_t (F := F) d L _ _)); iexact T2'
    iapply (Entails.of_eq (pts_t (F := F) d L _ _)); iexact T3'
  isplitl [O0' O1' O2' O3']
  · isplitl [O0']; · iapply (Entails.of_eq ((pts_oA0 (F := F) d L _).trans (pointsTo_congr (val_A0 d L m _)))); iexact O0'
    isplitl [O1']; · iapply (Entails.of_eq ((pts_oA1 (F := F) d L _).trans (pointsTo_congr (val_A1 d L m _)))); iexact O1'
    isplitl [O2']; · iapply (Entails.of_eq ((pts_oB0 (F := F) d L _).trans (pointsTo_congr (val_B0 d L m _)))); iexact O2'
    iapply (Entails.of_eq ((pts_oB1 (F := F) d L _).trans (pointsTo_congr (val_B1 d L m _)))); iexact O3'
  isplitl [S0' S1']
  · isplitl [S0']
    · iexists _; iapply (Entails.of_eq (pts_sH0 (F := F) d L _)); iexact S0'
    · iexists _; iapply (Entails.of_eq (pts_sH1 (F := F) d L _)); iexact S1'
  isplitl [B0' B1' Hbufs]
  · isplitl [B0' B1']
    · ihave B0 := (Entails.of_eq (pts_bH0 (F := F) d L _)) $$ B0'
      ihave B1 := (Entails.of_eq (pts_bH1 (F := F) d L _)) $$ B1'
      iapply (bPts_join (F := F) d L _ _)
      isplitl [B0] <;> iassumption
    · iexact Hbufs
  isplitl [s2 s3 s4 s5 s6 s7 s8 s9 Hsems]
  · isplitl [s2]; · iexact s2
    isplitl [s3]; · iexact s3
    isplitl [s4]; · iexact s4
    isplitl [s5]; · iexact s5
    isplitl [s6]; · iexact s6
    isplitl [s7]; · iexact s7
    isplitl [s8]; · iexact s8
    isplitl [s9]; · iexact s9
    iexact Hsems
  iexists _; isplitr
  pick_goal 2
  · iexact HO
  ipureintro
  intro p hp
  simp only [Finset.mem_insert] at hp
  rcases hp with rfl | rfl | rfl | rfl | rfl | rfl | rfl | rfl | hp
  all_goals first | exact .inr rfl | exact .inl hp

end Task

end Cert.Proof.KernelFrame

end
-- ==== Proof.KernelSplit.lean ====
/-
  How the arrays of `Kernel` are dealt to the 2 × 16 tiles and gathered back. The result `[4096, 1024]` is the disjoint
  union of 32 slabs of 128 rows, slab `(c, s)` starting at row `256 s + 128 c`, and each slab of its four chunks of 32
  rows. The table is only read: it goes out as 128 read shares, four per tile, the remainder of the share kept back.
  The shared vector memory `[16, 2, 32, 1024]` of one SparseCore is the disjoint union of its 16 slabs `s`, each of two
  rows.
-/
import proofs.«210076_g26774826123951_cont_9to1_2051_14_alg».proof.Proof.KernelPieces

noncomputable section

namespace Cert.Proof.KernelFrame

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## Small facts about `bigSep` -/

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

/-! ## The result: 32 slabs of 128 rows, each of four chunks -/

/-- The 128 rows of tile `(c, s)`. -/
def oSlab (c : Fin 2) (s : Fin 16) : Finset S4096x1024.Idx :=
  oSetA0 (coordsV c s) ∪ (oSetA1 (coordsV c s) ∪ (oSetB0 (coordsV c s) ∪ oSetB1 (coordsV c s)))

theorem mem_oSlab (c : Fin 2) (s : Fin 16) (i : S4096x1024.Idx) :
    i ∈ oSlab c s ↔ 256 * s.val + 128 * c.val ≤ (i 0).val ∧ (i 0).val < 256 * s.val + 128 * c.val + 128 := by
  unfold oSlab
  simp only [Finset.mem_union, mem_oSetA0, mem_oSetA1, mem_oSetB0, mem_oSetB1]
  omega

theorem oSlab_disjoint (x y : Fin 2 × Fin 16) (h : x ≠ y) : Disjoint (oSlab x.1 x.2) (oSlab y.1 y.2) :=
  Finset.disjoint_left.mpr fun i hx hy => by
    rw [mem_oSlab] at hx hy
    apply h
    have hc1 : x.1.val < 2 := x.1.isLt
    have hc2 : y.1.val < 2 := y.1.isLt
    have e2 : x.2.val = y.2.val := by omega
    have e1 : x.1.val = y.1.val := by omega
    exact Prod.ext (Fin.ext e1) (Fin.ext e2)

theorem oSlab_cover : (Finset.univ : Finset (Fin 2 × Fin 16)).biUnion (fun x => oSlab x.1 x.2) = Finset.univ := by
  ext i
  simp only [Finset.mem_biUnion, Finset.mem_univ, true_and, iff_true]
  have h0 : (i 0).val < 4096 := (i 0).isLt
  refine ⟨(⟨(i 0).val / 128 % 2, by omega⟩, ⟨(i 0).val / 256, by omega⟩), ?_⟩
  rw [mem_oSlab]
  show 256 * ((i 0).val / 256) + 128 * ((i 0).val / 128 % 2) ≤ (i 0).val
    ∧ (i 0).val < 256 * ((i 0).val / 256) + 128 * ((i 0).val / 128 % 2) + 128
  omega

theorem oPts_slabs (d : Dev nD) (f : Buf (Elt F) (oLoc d)) :
    (oLoc d ↦{fullShare} f : sProp 𝕄)
      = bigSep Finset.univ fun c : Fin 2 => bigSep Finset.univ fun s : Fin 16 => oLoc d ↦[oSlab c s]{fullShare} f := by
  rw [← bigSep_univ_prod (fun x : Fin 2 × Fin 16 => (oLoc d ↦[oSlab x.1 x.2]{fullShare} f : sProp 𝕄)),
    ← pointsTo_biUnion Finset.univ (ℓ := oLoc d) (fun x : Fin 2 × Fin 16 => oSlab x.1 x.2) (fun x _ y _ h => oSlab_disjoint x y h),
    oSlab_cover]
  try rfl

/-- A tile's four chunks of the result, at contents `f`. -/
def outs (d : Dev nD) (c : Fin 2) (s : Fin 16) (f : Buf (Elt F) (oLoc d)) : sProp 𝕄 :=
  iprop((oLoc d ↦[oSetA0 (coordsV c s)]{fullShare} f) ∗ (oLoc d ↦[oSetA1 (coordsV c s)]{fullShare} f)
    ∗ (oLoc d ↦[oSetB0 (coordsV c s)]{fullShare} f) ∗ (oLoc d ↦[oSetB1 (coordsV c s)]{fullShare} f))

theorem slab_outs (d : Dev nD) (c : Fin 2) (s : Fin 16) (f : Buf (Elt F) (oLoc d)) :
    (oLoc d ↦[oSlab c s]{fullShare} f : sProp 𝕄) = outs d c s f := by
  unfold oSlab outs
  have d1 : Disjoint (oSetA0 (coordsV c s)) (oSetA1 (coordsV c s) ∪ (oSetB0 (coordsV c s) ∪ oSetB1 (coordsV c s))) :=
    Finset.disjoint_left.mpr fun i h1 h2 => by
      simp only [Finset.mem_union, mem_oSetA0, mem_oSetA1, mem_oSetB0, mem_oSetB1] at h1 h2; omega
  have d2 : Disjoint (oSetA1 (coordsV c s)) (oSetB0 (coordsV c s) ∪ oSetB1 (coordsV c s)) :=
    Finset.disjoint_left.mpr fun i h1 h2 => by
      simp only [Finset.mem_union, mem_oSetA1, mem_oSetB0, mem_oSetB1] at h1 h2; omega
  have d3 : Disjoint (oSetB0 (coordsV c s)) (oSetB1 (coordsV c s)) :=
    Finset.disjoint_left.mpr fun i h1 h2 => by
      simp only [mem_oSetB0, mem_oSetB1] at h1 h2; omega
  have e1 : (oLoc d ↦[oSetA0 (coordsV c s) ∪ (oSetA1 (coordsV c s) ∪ (oSetB0 (coordsV c s) ∪ oSetB1 (coordsV c s)))]{fullShare} f : sProp 𝕄)
      ⊣⊢ iprop((oLoc d ↦[oSetA0 (coordsV c s)]{fullShare} f) ∗ oLoc d ↦[oSetA1 (coordsV c s) ∪ (oSetB0 (coordsV c s) ∪ oSetB1 (coordsV c s))]{fullShare} f) :=
    pointsTo_union d1
  have e2 : (oLoc d ↦[oSetA1 (coordsV c s) ∪ (oSetB0 (coordsV c s) ∪ oSetB1 (coordsV c s))]{fullShare} f : sProp 𝕄)
      ⊣⊢ iprop((oLoc d ↦[oSetA1 (coordsV c s)]{fullShare} f) ∗ oLoc d ↦[oSetB0 (coordsV c s) ∪ oSetB1 (coordsV c s)]{fullShare} f) :=
    pointsTo_union d2
  have e3 : (oLoc d ↦[oSetB0 (coordsV c s) ∪ oSetB1 (coordsV c s)]{fullShare} f : sProp 𝕄)
      ⊣⊢ iprop((oLoc d ↦[oSetB0 (coordsV c s)]{fullShare} f) ∗ oLoc d ↦[oSetB1 (coordsV c s)]{fullShare} f) :=
    pointsTo_union d3
  rw [BI.equiv_iff.mp ⟨e1.1, e1.2⟩, BI.equiv_iff.mp ⟨e2.1, e2.2⟩, BI.equiv_iff.mp ⟨e3.1, e3.2⟩]

/-- The result whole is every tile's four chunks. -/
theorem oPts_eq (d : Dev nD) (f : Buf (Elt F) (oLoc d)) :
    (oLoc d ↦{fullShare} f : sProp 𝕄) = bigSep Finset.univ fun c : Fin 2 => bigSep Finset.univ fun s : Fin 16 => outs d c s f := by
  rw [oPts_slabs]
  exact bigSep_congr fun c _ => bigSep_congr fun s _ => slab_outs d c s f

/-! ## The table: 128 read shares, four per tile -/

abbrev NT : ℕ := 2 * (16 * 4)
/-- The read share of tile `(c, s)`'s transfer number `k`. -/
abbrev tokq (c : Fin 2) (s : Fin 16) (k : Fin 4) : PosShare TreeShare :=
  Transfers.shareTok fullShare NT (finProdFinEquiv (c, finProdFinEquiv (s, k)))

/-- A tile's four read shares of the table, at contents `f`. -/
def toks (d : Dev nD) (c : Fin 2) (s : Fin 16) (f : Buf (Elt F) (tLoc d)) : sProp 𝕄 :=
  iprop((tLoc d ↦{tokq c s 0} f) ∗ (tLoc d ↦{tokq c s 1} f) ∗ (tLoc d ↦{tokq c s 2} f) ∗ (tLoc d ↦{tokq c s 3} f))

theorem toks_all (d : Dev nD) (f : Buf (Elt F) (tLoc d)) :
    (bigSep Finset.univ fun i : Fin NT => (tLoc d ↦{Transfers.shareTok fullShare NT i} f : sProp 𝕄))
      = bigSep Finset.univ fun c : Fin 2 => bigSep Finset.univ fun s : Fin 16 => toks d c s f := by
  rw [bigSep_univ_equiv (finProdFinEquiv : Fin 2 × Fin (16 * 4) ≃ Fin NT), bigSep_univ_prod]
  refine bigSep_congr fun c _ => ?_
  rw [bigSep_univ_equiv (finProdFinEquiv : Fin 16 × Fin 4 ≃ Fin (16 * 4)), bigSep_univ_prod]
  refine bigSep_congr fun s _ => ?_
  rw [bigSep_fin4]; rfl

/-- The table whole is the share kept back and every tile's four read shares. -/
theorem tPts_eq (d : Dev nD) (f : Buf (Elt F) (tLoc d)) :
    (tLoc d ↦{fullShare} f : sProp 𝕄)
      = iprop((tLoc d ↦{Transfers.shareDrop fullShare NT} f) ∗ bigSep Finset.univ fun c : Fin 2 => bigSep Finset.univ fun s : Fin 16 => toks d c s f) := by
  have h : (tLoc d ↦{fullShare} f : sProp 𝕄)
      ⊣⊢ iprop((tLoc d ↦{Transfers.shareDrop fullShare NT} f) ∗ bigSep Finset.univ (fun i : Fin NT => tLoc d ↦{Transfers.shareTok fullShare NT i} f)) :=
    Transfers.pointsTo_toks fullShare NT
  rw [BI.equiv_iff.mp ⟨h.1, h.2⟩, toks_all]

/-! ## The shared vector memory of one SparseCore: 16 slabs of two rows -/

def sSlab (c : Fin 2) (s : Fin 16) : Finset S16x2x32x1024.Idx := sSet0 (coordsV c s) ∪ sSet1 (coordsV c s)

theorem mem_sSlab (c : Fin 2) (s : Fin 16) (i : S16x2x32x1024.Idx) : i ∈ sSlab c s ↔ (i 0).val = s.val := by
  unfold sSlab
  simp only [Finset.mem_union, mem_sSet0, mem_sSet1]
  have h1 : (i 1).val < 2 := (i 1).isLt
  omega

theorem sSlab_disjoint (c : Fin 2) (s s' : Fin 16) (h : s ≠ s') : Disjoint (sSlab c s) (sSlab c s') :=
  Finset.disjoint_left.mpr fun i hx hy => by
    rw [mem_sSlab] at hx hy
    exact h (Fin.ext (hx.symm.trans hy))

theorem sSlab_cover (c : Fin 2) : (Finset.univ : Finset (Fin 16)).biUnion (sSlab c) = Finset.univ := by
  ext i
  simp only [Finset.mem_biUnion, Finset.mem_univ, true_and, iff_true]
  exact ⟨⟨(i 0).val, (i 0).isLt⟩, (mem_sSlab c _ i).mpr rfl⟩

theorem sSets_disjoint (c : Fin 2) (s : Fin 16) : Disjoint (sSet0 (coordsV c s)) (sSet1 (coordsV c s)) :=
  Finset.disjoint_left.mpr fun i h0 h1 => by
    rw [mem_sSet0] at h0; rw [mem_sSet1] at h1; omega

theorem shPts_slabs (d : Dev nD) (c : Fin 2) (f : Buf (Elt F) (shLoc d c)) :
    (shLoc d c ↦{fullShare} f : sProp 𝕄) = bigSep Finset.univ fun s : Fin 16 => shLoc d c ↦[sSlab c s]{fullShare} f := by
  rw [← pointsTo_biUnion Finset.univ (ℓ := shLoc d c) (sSlab c) (fun s _ s' _ h => sSlab_disjoint c s s' h), sSlab_cover]
  try rfl

/-- A tile's two rows of the shared memory, each at some contents. -/
def shs (d : Dev nD) (c : Fin 2) (s : Fin 16) : sProp 𝕄 :=
  iprop((∃ f, shLoc d c ↦[sSet0 (coordsV c s)]{fullShare} f) ∗ (∃ f, shLoc d c ↦[sSet1 (coordsV c s)]{fullShare} f))

/-- The shared memory at some contents deals every tile its two rows. -/
theorem sh_split (d : Dev nD) (c : Fin 2) :
    (iprop(∃ f, shLoc d c ↦{fullShare} f) : sProp 𝕄) ⊢ bigSep Finset.univ fun s : Fin 16 => shs d c s := by
  have hs : ∀ (f : Buf (Elt F) (shLoc d c)) (s : Fin 16), (shLoc d c ↦[sSlab c s]{fullShare} f : sProp 𝕄) ⊢ shs d c s := by
    intro f s
    have e : (shLoc d c ↦[sSet0 (coordsV c s) ∪ sSet1 (coordsV c s)]{fullShare} f : sProp 𝕄)
        ⊣⊢ iprop((shLoc d c ↦[sSet0 (coordsV c s)]{fullShare} f) ∗ shLoc d c ↦[sSet1 (coordsV c s)]{fullShare} f) :=
      pointsTo_union (sSets_disjoint c s)
    unfold sSlab shs
    iintro H
    ihave H' := e.1 $$ H
    icases H' with ⟨H0, H1⟩
    isplitl [H0]
    · iexists _; iexact H0
    · iexists _; iexact H1
  iintro ⟨%f, H⟩
  ihave H' := ((Entails.of_eq (shPts_slabs (F := F) d c f)).trans (SparseCore.ent (bigSep_mono (Φ := fun s : Fin 16 => (shLoc d c ↦[sSlab c s]{fullShare} f : sProp 𝕄))
    (Ψ := fun s => shs d c s) fun s _ => hs f s))) $$ H
  iexact H'

/-- The tiles' rows, each at contents of its own, are the shared memory at some contents. -/
theorem sh_join (d : Dev nD) (c : Fin 2) :
    (bigSep Finset.univ fun s : Fin 16 => shs (F := F) d c s) ⊢ (iprop(∃ f, shLoc d c ↦{fullShare} f) : sProp 𝕄) := by
  have hs : ∀ s : Fin 16, shs (F := F) d c s ⊢ (iprop(∃ f, shLoc d c ↦[sSlab c s]{fullShare} f) : sProp 𝕄) := by
    intro s
    unfold shs sSlab
    iintro ⟨⟨%f0, H0⟩, ⟨%f1, H1⟩⟩
    ihave H := (pointsTo_join (ℓ := shLoc d c) (q := fullShare) (f := f0) (g := f1) (sSets_disjoint c s)) $$ [H0 H1]
    · isplitl [H0] <;> iassumption
    iexists _; iexact H
  refine (SparseCore.ent (bigSep_mono (Φ := fun s : Fin 16 => shs (F := F) d c s)
    (Ψ := fun s => (iprop(∃ f, shLoc d c ↦[sSlab c s]{fullShare} f) : sProp 𝕄)) fun s _ => hs s)).trans ?_
  refine (bigSep_exists_pi Finset.univ (fun (s : Fin 16) (f : Buf (Elt F) (shLoc d c)) => (shLoc d c ↦[sSlab c s]{fullShare} f : sProp 𝕄))).trans ?_
  iintro ⟨%fs, H⟩
  ihave H' := (pointsTo_biUnion_join Finset.univ (sSlab c) fs (fs 0) (fun s _ s' _ h => sSlab_disjoint c s s' h)) $$ H
  icases H' with ⟨%g, -, Hg⟩
  rw [sSlab_cover]
  iexists g; iexact Hg

end Cert.Proof.KernelFrame

end
-- ==== Proof.KernelLaunch.lean ====
/-
  The launch of `Kernel` and its run. @main on the TensorCore starts the kernel on both SparseCores, handing every tile
  four read shares of the table and its four chunks of the result; each sequencer adds, from its own shared vector
  memory, the tile's two rows; the tiles run their task; everything comes back, the result's chunks at the table's rows.
  Gathered, the result array `[4096, 1024]` holds the table's first 4096 rows, the table is whole and unchanged, and
  @main's one host operation puts a leading unit axis on the result. So every weakly fair execution ends, without a
  fault, with the arguments as they were and the output at the table's first 4096 rows under a leading unit axis.
-/
import proofs.«210076_g26774826123951_cont_9to1_2051_14_alg».proof.Proof.KernelBody
import proofs.«210076_g26774826123951_cont_9to1_2051_14_alg».proof.Proof.KernelSplit

noncomputable section

namespace Cert.Proof.KernelFrame

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_split held_sdiff_result wp_hlo_within)
local notation "tW" => (Memref.whole Cert.Kernel.main_arg1_scv : Memref Cert.Kernel.sig Kind.scVector Space.hbm Cert.Kernel.S8192x1024 EltTy.f32)
local notation "oW" => (Memref.whole Cert.Kernel.main_v0_scv : Memref Cert.Kernel.sig Kind.scVector Space.hbm Cert.Kernel.S4096x1024 EltTy.f32)
local notation "bW" => (Memref.whole Cert.Kernel.cc0_scratch0 : Memref Cert.Kernel.sig Kind.scVector Space.vmem Cert.Kernel.S2x32x1024 EltTy.f32)
local notation "shW" => (Memref.whole Cert.Kernel.cc0_scratch1 : Memref Cert.Kernel.sig Kind.scVector Space.shared Cert.Kernel.S16x2x32x1024 EltTy.f32)

variable (m : (ℓ : Loc nD τ sig) → Buf (Elt F) ℓ) (ρ : Dev nD → PrngReg)

variable [FloatOps F]

/-! ## What the handshakes carry -/

/-- A tile's share of the call's operands: its read shares of the table and its chunks of the result at `f`. -/
def tOut (d : Dev nD) (c : Fin 2) (s : Fin 16) (f : Buf (Elt F) (oLoc d)) : sProp 𝕄 :=
  iprop(toks d c s (m (tLoc d)) ∗ outs d c s f)

/-- The start hands SparseCore `c` its sixteen tiles' shares, the result at its launch contents; the go hands tile `s`
    its share and its two rows of the shared memory; taskDone and done hand the same back, the result's chunks at the
    table's rows. -/
def P : (K (F := F)).Pay (nD := nD) (Val := Elt F) (Name := ℕ) (U := UU) where
  st := fun q d c => match q with | 0 => bigSep Finset.univ fun s : Fin 16 => tOut m d (Fin.cast nCore_zero c) s (m (oLoc d))
  dn := fun q d c => match q with | 0 => bigSep Finset.univ fun s : Fin 16 => tOut m d (Fin.cast nCore_zero c) s (rowsF m d)
  go := fun q d c i => match q with
    | 0 => iprop(tOut m d (Fin.cast nCore_zero c) (Fin.cast nSub_zero i) (m (oLoc d)) ∗ shs d (Fin.cast nCore_zero c) (Fin.cast nSub_zero i))
  td := fun q d c i => match q with
    | 0 => iprop(tOut m d (Fin.cast nCore_zero c) (Fin.cast nSub_zero i) (rowsF m d) ∗ shs d (Fin.cast nCore_zero c) (Fin.cast nSub_zero i))
  x := fun _ _ => iprop(emp)

instance P_storable : (P (F := F) m).IsStorable where
  st q d c := match q with
    | 0 => (by unfold tOut toks outs; infer_instance :
        BI.Storable (upEmb : UEmb _ 𝕄) (bigSep Finset.univ fun s : Fin 16 => tOut m d (Fin.cast nCore_zero c) s (m (oLoc d))))
  dn q d c := match q with
    | 0 => (by unfold tOut toks outs; infer_instance :
        BI.Storable (upEmb : UEmb _ 𝕄) (bigSep Finset.univ fun s : Fin 16 => tOut m d (Fin.cast nCore_zero c) s (rowsF m d)))
  go q d c i := match q with
    | 0 => (by unfold tOut toks outs shs; infer_instance :
        BI.Storable (upEmb : UEmb _ 𝕄) iprop(tOut m d (Fin.cast nCore_zero c) (Fin.cast nSub_zero i) (m (oLoc d)) ∗ shs d (Fin.cast nCore_zero c) (Fin.cast nSub_zero i)))
  td q d c i := match q with
    | 0 => (by unfold tOut toks outs shs; infer_instance :
        BI.Storable (upEmb : UEmb _ 𝕄) iprop(tOut m d (Fin.cast nCore_zero c) (Fin.cast nSub_zero i) (rowsF m d) ∗ shs d (Fin.cast nCore_zero c) (Fin.cast nSub_zero i)))

/-! ## The tile's obligation -/

omit [FloatOps F] in
theorem repack_pre {Lv A B C Sb Ss Ow : sProp 𝕄} :
    iprop(Lv ∗ emp ∗ ((A ∗ B) ∗ C) ∗ Sb ∗ Ss ∗ Ow) ⊢ iprop(Lv ∗ A ∗ B ∗ C ∗ Sb ∗ Ss ∗ Ow) := by
  iintro ⟨Hlv, -, ⟨⟨Ha, Hb⟩, Hc⟩, Hsb, Hss, HO⟩
  isplitl [Hlv]; · iexact Hlv
  isplitl [Ha]; · iexact Ha
  isplitl [Hb]; · iexact Hb
  isplitl [Hc]; · iexact Hc
  isplitl [Hsb]; · iexact Hsb
  isplitl [Hss]; · iexact Hss
  iexact HO
omit [FloatOps F] in
theorem repack_post {A B C Sb Ss X : sProp 𝕄} :
    iprop(A ∗ B ∗ C ∗ Sb ∗ Ss ∗ X) ⊢ iprop(((A ∗ B) ∗ C) ∗ Sb ∗ Ss ∗ X) := by
  iintro ⟨Ha, Hb, Hc, Hsb, Hss, HX⟩
  isplitl [Ha Hb Hc]
  · isplitl [Ha Hb]
    · isplitl [Ha]; · iexact Ha
      iexact Hb
    · iexact Hc
  isplitl [Hsb]; · iexact Hsb
  isplitl [Hss]; · iexact Hss
  iexact HX

/-- The task of tile `(c, s)`, from and to what the handshakes carry. -/
theorem tile_task [∀ e, Nonempty (Elt F e)] (d : Dev nD) (c : Fin 2) (s : Fin 16)
    (O : CellTallies nD τ sig (HIx 1)) (W : Waits sig (HIx 1)) (hO : ∀ g, O g none = 0) :
    iprop(levAts (K (F := F)).L (K (F := F)).lev ∗ emp ∗ (tOut m d c s (m (oLoc d)) ∗ shs d c s)
        ∗ scopedBufs (thrV d (coordsV c s)) ∗ scopedSems0 (thrV d (coordsV c s)) ∗ owes (thrV d (coordsV c s)) O W)
      ⊢ wp frame (wpE (defs₀ (F := F)) 𝒱₀ (thrV d (coordsV c s)) none) Set.univ
          (cc0_sc_copy (coordsV c s) tW (Memref.isWhole_whole _) oW (Memref.isWhole_whole _) bW (Memref.isWhole_whole _) shW (Memref.isWhole_whole _)
            cc0_scratch2 cc0_scratch3 cc0_scratch4 cc0_scratch5 cc0_scratch6 cc0_scratch7 cc0_scratch8 cc0_scratch9)
          fun _ => (iprop((tOut m d c s (rowsF m d) ∗ shs d c s) ∗ scopedBufs (thrV d (coordsV c s)) ∗ scopedSems0 (thrV d (coordsV c s))
            ∗ ∃ W', ⌜∀ p ∈ W', p ∈ W ∨ p.2 = none⌝ ∗ owes (thrV d (coordsV c s)) O W') : sProp 𝕄) := by
  unfold tOut toks outs shs
  exact repack_pre.trans ((tile_body (F := F) d (coordsV c s) m facts (tokq c s 0) (tokq c s 1) (tokq c s 2) (tokq c s 3) O W hO).trans
    (wp_mono frame _ _ fun _ => repack_post))

theorem defs₀_vector (c : Fin τ.nSC) (s : Fin τ.nSub) :
    defs₀ (F := F) (.scVector c s) 0 ()
      = SparseCore.onTile hcore0 hsub0 (fun c s => cc0_sc_copy (coordsV c s)
          tW (Memref.isWhole_whole _) oW (Memref.isWhole_whole _) bW (Memref.isWhole_whole _) shW (Memref.isWhole_whole _)
          cc0_scratch2 cc0_scratch3 cc0_scratch4 cc0_scratch5 cc0_scratch6 cc0_scratch7 cc0_scratch8 cc0_scratch9) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [∀ e, Nonempty (Elt F e)] : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task m d (Fin.cast nCore_zero c) (Fin.cast nSub_zero i) O W hO).trans (wp_mono frame _ _ fun _ => obl_post)

/-! ## A SparseCore's operands split among its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- The shared vector memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop((bigSep Finset.univ fun s : Fin 16 => tOut m d (Fin.cast nCore_zero c) s (m (oLoc d))) ∗ ownBufs (S d ((K (F := F)).core 0 c)))
    ⊢ |={Set.univ}=> iprop(
      (bigSep Finset.univ fun i : Fin ((K (F := F)).nSub 0) =>
        iprop(tOut m d (Fin.cast nCore_zero c) (Fin.cast nSub_zero i) (m (oLoc d)) ∗ shs d (Fin.cast nCore_zero c) (Fin.cast nSub_zero i)))
      ∗ ((bigSep Finset.univ fun i : Fin ((K (F := F)).nSub 0) =>
          iprop(tOut m d (Fin.cast nCore_zero c) (Fin.cast nSub_zero i) (rowsF m d) ∗ shs d (Fin.cast nCore_zero c) (Fin.cast nSub_zero i)))
          -∗ iprop((bigSep Finset.univ fun s : Fin 16 => tOut m d (Fin.cast nCore_zero c) s (rowsF m d)) ∗ ownBufs (S d ((K (F := F)).core 0 c)))))
  rw [bigSep_tasks (F := F) (fun s => iprop(tOut m d (Fin.cast nCore_zero c) s (m (oLoc d)) ∗ shs d (Fin.cast nCore_zero c) s)),
    bigSep_tasks (F := F) (fun s => iprop(tOut m d (Fin.cast nCore_zero c) s (rowsF m d) ∗ shs d (Fin.cast nCore_zero c) s)),
    bigSep_sep', bigSep_sep', ownBufs_S]
  iintro ⟨Hst, Hsh, Hrest⟩; imodintro
  isplitl [Hst Hsh]
  · isplitl [Hst]; · iexact Hst
    iapply (sh_split (F := F) d (Fin.cast nCore_zero c)); iexact Hsh
  iintro ⟨Hto, Hsh⟩
  isplitl [Hto]; · iexact Hto
  isplitl [Hsh]; · iapply (sh_join (F := F) d (Fin.cast nCore_zero c)); iexact Hsh
  iexact Hrest

/-! ## The launch element: the handshakes' rounds; the transfers' counters are not dealt -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev o' : DevRef τ sig := Proc.devRef .tc (main_v0 : Ref sig .tc)
abbrev r' : DevRef τ sig := Proc.devRef .tc (main_v1 : Ref sig .tc)
/-- @main's one host operation: the result under a leading unit axis. -/
abbrev opB : HloOp τ sig (Elt F) :=
  StableHlo.unary main_v0 main_v1 (broadcastInDim S1x4096x1024 ![1, 2] bcast_S4096x1024_S1x4096x1024_1_2 : (⟨S4096x1024, .f32⟩ : BufTy).Contents (Elt F) → (⟨S1x4096x1024, .f32⟩ : BufTy).Contents (Elt F))
abbrev S2 : Finset (DevRef τ sig) := {o', r'}

/-- What the output array holds at the end: the table's first 4096 rows under a leading unit axis. -/
abbrev resF (d : Dev nD) : Buf (Elt F) (rLoc d) :=
  broadcastInDim S1x4096x1024 ![1, 2] bcast_S4096x1024_S1x4096x1024_1_2 (rowsF m d)

omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (tLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- After the call: the result at the table's rows, the output array at its launch contents. -/
def V1 (d : Dev nD) : Valuation τ sig (Elt F) := Function.update (fun b => m (d, b)) o' (rowsF m d)

theorem V1_o (d : Dev nD) : V1 m d o' = rowsF m d := Function.update_self _ _ _
theorem V1_r (d : Dev nD) : V1 m d r' = m (rLoc d) := Function.update_of_ne (show r' ≠ o' by decide) _ _
theorem res_o (d : Dev nD) : (opB (F := F)).result (V1 m d) o' = rowsF m d :=
  ((opB (F := F)).result_of_not_mem (V1 m d) (b := o') (show o' ∉ ({r'} : Finset (DevRef τ sig)) by decide)).trans (V1_o m d)
theorem res_r (d : Dev nD) : (opB (F := F)).result (V1 m d) r' = resF m d :=
  (StableHlo.unary_result main_v0 main_v1 _ _ _ (V1 m d)).trans (congrArg _ (V1_o m d))

theorem hB : (opB (F := F)).bufs ⊆ S2 := show ({o', r'} : Finset (DevRef τ sig)) ⊆ S2 by decide

theorem tOut_all (d : Dev nD) (f : Buf (Elt F) (oLoc d)) :
    (bigSep Finset.univ fun c : Fin 2 => bigSep Finset.univ fun s : Fin 16 => tOut m d c s f)
      = iprop((bigSep Finset.univ fun c : Fin 2 => bigSep Finset.univ fun s : Fin 16 => toks d c s (m (tLoc d)))
          ∗ bigSep Finset.univ fun c : Fin 2 => bigSep Finset.univ fun s : Fin 16 => outs d c s f) :=
  (bigSep_congr fun c _ => bigSep_sep Finset.univ (fun s : Fin 16 => toks d c s (m (tLoc d))) (fun s => outs d c s f)).trans
    (bigSep_sep Finset.univ _ _)

theorem st0_eq (d : Dev nD) :
    (bigSep Finset.univ fun c : Fin ((K (F := F)).nCore 0) => (P m).st 0 d c)
      = bigSep Finset.univ fun c : Fin 2 => bigSep Finset.univ fun s : Fin 16 => tOut m d c s (m (oLoc d)) :=
  bigSep_cores (F := F) (fun c => bigSep Finset.univ fun s : Fin 16 => tOut m d c s (m (oLoc d)))
theorem dn0_eq (d : Dev nD) :
    (bigSep Finset.univ fun c : Fin ((K (F := F)).nCore 0) => (P m).dn 0 d c)
      = bigSep Finset.univ fun c : Fin 2 => bigSep Finset.univ fun s : Fin 16 => tOut m d c s (rowsF m d) :=
  bigSep_cores (F := F) (fun c => bigSep Finset.univ fun s : Fin 16 => tOut m d c s (rowsF m d))

/-- What @main leaves the claim: the two arguments at their launch contents, the output at `resF`. -/
abbrev FIN (d : Dev nD) : sProp 𝕄 := iprop((xLoc d ↦{fullShare} m (xLoc d)) ∗ (tLoc d ↦{fullShare} m (tLoc d)) ∗ rLoc d ↦{fullShare} resF m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ht, Ho, Hr⟩, -, -⟩, -⟩
  ihave Ht' := (Entails.of_eq (tPts_eq (F := F) d _)) $$ Ht
  icases Ht' with ⟨Htd, Htoks⟩
  ihave Ho' := (Entails.of_eq (oPts_eq (F := F) d _)) $$ Ho
  iapply ((K (F := F)).wp_run (D (F := F)) 𝒱 (EH := EH) (P := P m) κ d 0) $$ [Hst Htoks Ho' Htd Hx Hb Hr]
  isplitr; · iexact Hctx
  isplitl [Hst]; · iexact Hst
  isplitl [Htoks Ho']
  · rw [st0_eq, tOut_all]
    isplitl [Htoks] <;> iassumption
  iintro ⟨Hst, Hdn⟩
  ihave Hdn' := (Entails.of_eq ((dn0_eq m d).trans (tOut_all m d _))) $$ Hdn
  icases Hdn' with ⟨Htoks, Houts⟩
  ihave Ht := (Entails.of_eq (tPts_eq (F := F) d _).symm) $$ [Htd Htoks]
  · isplitl [Htd] <;> iassumption
  ihave Ho := (Entails.of_eq (oPts_eq (F := F) d _).symm) $$ Houts
  iapply (wp_hlo_within 𝒱 (SparseCore.T d) none Set.univ (op := opB) (S := S2) hB (V := V1 m d)) $$ [Hb Ho Hr]
  · isplitl [Hb]; · iexact Hb
    rw [held_S2, V1_o, V1_r]
    isplitl [Ho]; · iexact Ho
    iexact Hr
  iintro ⟨Hb, Hheld⟩
  ihave Hh := (Entails.of_eq ((held_S2 (F := F) d _).trans (by rw [res_o, res_r]))) $$ Hheld
  icases Hh with ⟨Ho, Hr⟩
  rw [wp_ret]; imodintro; imodintro
  isplitl [Hst]; · iexact Hst
  isplitl [Hx]; · iexact Hx
  isplitl [Ht]; · iexact Ht
  iexact Hr

def fq (d : Dev nD) (s' : Phys nD τ sig (Elt F)) : Prop :=
  s'.mem.mem (rLoc d) = resF m d ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := resF m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every device's output array ends at `resF`, its two arguments as they were. -/
def QC : PUnit × MemSt nD τ sig (Elt F) → Prop := fun r => ∀ c : Dev nD,
  r.2.mem (rLoc c) = resF m c ∧ r.2.mem (xLoc c) = m (xLoc c) ∧ r.2.mem (tLoc c) = m (tLoc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => vecSplit m)
    m ρ main (fun _ => iprop(emp)) (FIN m) (u₀ (F := F)) (sep_elim_left.trans (hu₀ m)) (hmain m ρ) (fq m) (hfin m) (QC m) (fun _ h => h)

/-- The output at the end is the table's first 4096 rows under a leading unit axis. -/
theorem resF_eq_G (d : Dev nD) : resF m d = Cert.Spec.G (m (tLoc d)) := by
  funext i
  exact broadcastInDim_apply (s := S4096x1024) (t := S1x4096x1024) ![1, 2] bcast_S4096x1024_S1x4096x1024_1_2 (rowsF m d) i
    (ValueIdx.ix2 (i 1) (i 2)) (fun a => by match a with | ⟨0, _⟩ => rfl | ⟨1, _⟩ => rfl)

end Cert.Proof.KernelFrame

end
-- ==== Proof.KernelIdealSetup.lean ====
/-
  The program `KernelIdeal` as the SparseCore launch theorem sees it, and the pieces of memory one tile's task works on.
  The kernel copies the first 4096 rows of the table `[8192, 1024]` into an array `[4096, 1024]`: tile `(c, s)` of the
  2 × 16 grid moves the 128 rows starting at row `256 s + 128 c`, in four chunks of 32 rows — two through the halves of
  its own vector memory `[2, 32, 1024]`, two through its two rows `(s, 0)`, `(s, 1)` of the SparseCore's shared vector
  memory `[16, 2, 32, 1024]`. Every chunk is read from the table into a buffer piece and written from that piece to the
  same rows of the result, each transfer on a semaphore of its own, one transfer per semaphore.
-/
import proofs.«210076_g26774826123951_cont_9to1_2051_14_alg».proof.Defs
import proofs.«210076_g26774826123951_cont_9to1_2051_14_alg».proof.Proof.Spec
import Idealize.ShloMosaic.Lib.SparseCore.Launch
import Idealize.ShloMosaic.Lib.StableHlo.Run
import Idealize.ShloMosaic.Lib.Pipeline.Kit
import Idealize.ShloMosaic.Lib.Tactic
import proofs.«210076_g26774826123951_cont_9to1_2051_14_alg».proof.Proof.Gen.KernelIdeal
import proofs.«210076_g26774826123951_cont_9to1_2051_14_alg».proof.Proof.Gen.KernelIdeal.Skeleton

noncomputable section

namespace Cert.Proof.KernelIdealFrame

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1
/-- The shared vector memory of SparseCore `c`. -/
abbrev shRef (c : Fin τ.nSC) : DevRef τ sig := ⟨.shared, ⟨0, by decide⟩, c⟩
abbrev shLoc (d : Dev nD) (c : Fin τ.nSC) : Loc nD τ sig := (d, shRef c)

end Cert.Proof.KernelIdealFrame

end
-- ==== Proof.KernelIdealPieces.lean ====
/-
  One tile's pieces of memory in `KernelIdeal`, spelt as the program slices them, and where they lie: which elements of the
  result `[4096, 1024]` each of a tile's four chunks holds (the 32 rows from row `256 s + 128 c + 32 k`), which elements
  of the tile's own vector memory its two halves hold, and which elements of the shared vector memory the tile's two rows
  hold. Over all tiles the chunks are pairwise disjoint and cover the result; the halves partition the tile's memory; the
  rows of the sixteen tiles of one SparseCore partition its shared memory.
-/
import proofs.«210076_g26774826123951_cont_9to1_2051_14_alg».proof.Proof.KernelIdealSetup

noncomputable section

namespace Cert.Proof.KernelIdealFrame

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## One tile's pieces, spelt as the program slices them -/

section Tile

variable (d : Dev nD) (L : grid0.Coords)

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

local notation "tW" => (Memref.whole Cert.KernelIdeal.main_arg1_scv : Memref Cert.KernelIdeal.sig Kind.scVector Space.hbm Cert.KernelIdeal.S8192x1024 EltTy.f32)
local notation "oW" => (Memref.whole Cert.KernelIdeal.main_v0_scv : Memref Cert.KernelIdeal.sig Kind.scVector Space.hbm Cert.KernelIdeal.S4096x1024 EltTy.f32)
local notation "bW" => (Memref.whole Cert.KernelIdeal.cc0_scratch0 : Memref Cert.KernelIdeal.sig Kind.scVector Space.vmem Cert.KernelIdeal.S2x32x1024 EltTy.f32)
local notation "shW" => (Memref.whole Cert.KernelIdeal.cc0_scratch1 : Memref Cert.KernelIdeal.sig Kind.scVector Space.shared Cert.KernelIdeal.S16x2x32x1024 EltTy.f32)
-- the four chunks of the result the tile writes: rows `256 s + 128 c + 32 k` onwards, 32 rows each
local notation "oA0" => (Memref.slice oW (Rect.unit (s := Cert.KernelIdeal.S4096x1024) (Cert.KernelIdeal.k0_off5 L 0#32) (Shape.size Cert.KernelIdeal.S32x1024) (k0_off5_inb L 0)) (fun _ => rfl))
local notation "oA1" => (Memref.slice oW (Rect.unit (s := Cert.KernelIdeal.S4096x1024) (Cert.KernelIdeal.k0_off5 L 32#32) (Shape.size Cert.KernelIdeal.S32x1024) (k0_off5_inb L 1)) (fun _ => rfl))
local notation "oB0" => (Memref.slice oW (Rect.unit (s := Cert.KernelIdeal.S4096x1024) (Cert.KernelIdeal.k0_off6 L 0#32) (Shape.size Cert.KernelIdeal.S32x1024) (k0_off6_inb L 0)) (fun _ => rfl))
local notation "oB1" => (Memref.slice oW (Rect.unit (s := Cert.KernelIdeal.S4096x1024) (Cert.KernelIdeal.k0_off6 L 32#32) (Shape.size Cert.KernelIdeal.S32x1024) (k0_off6_inb L 1)) (fun _ => rfl))
-- the two halves of the tile's own vector memory
local notation "bH0" => (Memref.squeeze (Memref.slice bW (Rect.unit (s := Cert.KernelIdeal.S2x32x1024) ![0, 0, 0] (Shape.size Cert.KernelIdeal.S1x32x1024) inb_S2x32x1024_S1x32x1024_0_0_0) (fun _ => rfl)) Cert.KernelIdeal.S32x1024 squeezes_S1x32x1024_S32x1024)
local notation "bH1" => (Memref.squeeze (Memref.slice bW (Rect.unit (s := Cert.KernelIdeal.S2x32x1024) ![1, 0, 0] (Shape.size Cert.KernelIdeal.S1x32x1024) inb_S2x32x1024_S1x32x1024_1_0_0) (fun _ => rfl)) Cert.KernelIdeal.S32x1024 squeezes_S1x32x1024_S32x1024)
-- the tile's two rows of the shared vector memory
local notation "sH0" => (Memref.squeeze (Memref.slice shW (Rect.unit (s := Cert.KernelIdeal.S16x2x32x1024) (Cert.KernelIdeal.k0_off2 L) (Shape.size Cert.KernelIdeal.S1x1x32x1024) (k0_off2_inb L)) (fun _ => rfl)) Cert.KernelIdeal.S32x1024 squeezes_S1x1x32x1024_S32x1024)
local notation "sH1" => (Memref.squeeze (Memref.slice shW (Rect.unit (s := Cert.KernelIdeal.S16x2x32x1024) (Cert.KernelIdeal.k0_off4 L) (Shape.size Cert.KernelIdeal.S1x1x32x1024) (k0_off4_inb L)) (fun _ => rfl)) Cert.KernelIdeal.S32x1024 squeezes_S1x1x32x1024_S32x1024)

/-- The elements of the result's four chunks, of the two halves and of the two shared rows. -/
abbrev oSetA0 : Finset S4096x1024.Idx := (oA0).view.set
abbrev oSetA1 : Finset S4096x1024.Idx := (oA1).view.set
abbrev oSetB0 : Finset S4096x1024.Idx := (oB0).view.set
abbrev oSetB1 : Finset S4096x1024.Idx := (oB1).view.set
abbrev bSet0 : Finset S2x32x1024.Idx := (bH0).view.set
abbrev bSet1 : Finset S2x32x1024.Idx := (bH1).view.set
abbrev sSet0 : Finset S16x2x32x1024.Idx := (sH0).view.set
abbrev sSet1 : Finset S16x2x32x1024.Idx := (sH1).view.set

abbrev bLoc (d : Dev nD) (L : grid0.Coords) : Loc nD τ sig := (thrV d L).loc cc0_scratch0
abbrev cell (d : Dev nD) (L : grid0.Coords) (a : DmaSems sig S_) : GSem nD τ sig := (thrV d L, .dma a.sem)

theorem pts_t (q : PosShare TreeShare) (f : Buf (Elt F) (tLoc d)) :
    ((tW).view.loc (thrV d L) ↦{q} f : sProp 𝕄) = tLoc d ↦{q} f := rfl
theorem pts_oA0 (f : Buf (Elt F) (oLoc d)) : ((oA0).view.loc (thrV d L) ↦[(oA0).view.set]{fullShare} f : sProp 𝕄) = oLoc d ↦[oSetA0 L]{fullShare} f := rfl
theorem pts_oA1 (f : Buf (Elt F) (oLoc d)) : ((oA1).view.loc (thrV d L) ↦[(oA1).view.set]{fullShare} f : sProp 𝕄) = oLoc d ↦[oSetA1 L]{fullShare} f := rfl
theorem pts_oB0 (f : Buf (Elt F) (oLoc d)) : ((oB0).view.loc (thrV d L) ↦[(oB0).view.set]{fullShare} f : sProp 𝕄) = oLoc d ↦[oSetB0 L]{fullShare} f := rfl
theorem pts_oB1 (f : Buf (Elt F) (oLoc d)) : ((oB1).view.loc (thrV d L) ↦[(oB1).view.set]{fullShare} f : sProp 𝕄) = oLoc d ↦[oSetB1 L]{fullShare} f := rfl
theorem pts_bH0 (f : Buf (Elt F) (bLoc d L)) : ((bH0).view.loc (thrV d L) ↦[(bH0).view.set]{fullShare} f : sProp 𝕄) = bLoc d L ↦[bSet0]{fullShare} f := rfl
theorem pts_bH1 (f : Buf (Elt F) (bLoc d L)) : ((bH1).view.loc (thrV d L) ↦[(bH1).view.set]{fullShare} f : sProp 𝕄) = bLoc d L ↦[bSet1]{fullShare} f := rfl
theorem pts_sH0 (f : Buf (Elt F) (shLoc d (cV L))) : ((sH0).view.loc (thrV d L) ↦[(sH0).view.set]{fullShare} f : sProp 𝕄) = shLoc d (cV L) ↦[sSet0 L]{fullShare} f := rfl
theorem pts_sH1 (f : Buf (Elt F) (shLoc d (cV L))) : ((sH1).view.loc (thrV d L) ↦[(sH1).view.set]{fullShare} f : sProp 𝕄) = shLoc d (cV L) ↦[sSet1 L]{fullShare} f := rfl

end Tile

/-! ## Where the pieces lie -/

/-- The grid point of tile `s` of SparseCore `c`. -/
def coordsV (c : Fin 2) (s : Fin 16) : grid0.Coords :=
  fun | 0 => c | 1 => s | ⟨_ + 2, h⟩ => absurd h (Nat.not_lt.2 (Nat.le_add_left _ _))

/-- Chunk 0 of tile `(c, s)`: rows `256 s + 128 c` to `+ 32` of the result. -/
theorem mem_oSetA0 (c : Fin 2) (s : Fin 16) (i : S4096x1024.Idx) :
    i ∈ oSetA0 (coordsV c s) ↔ 256 * s.val + 128 * c.val ≤ (i 0).val ∧ (i 0).val < 256 * s.val + 128 * c.val + 32 := by
  have h1 : (i 1).val < 1024 := (i 1).isLt
  show i ∈ ((View.whole (main_v0_scv : Ref sig .scVector)).slice (Rect.unit (s := S4096x1024) (k0_off5 (coordsV c s) 0#32) S32x1024.size (k0_off5_inb (coordsV c s) 0))).set ↔ _
  rw [View.set_slice_whole, Rect.mem_set_unit, show k0_off5 (coordsV c s) 0#32 = ![256 * s.val + 128 * c.val + 32 * 0, 0] from k0_off5_eq (coordsV c s) 0]
  constructor
  · intro h
    have h0 : 256 * s.val + 128 * c.val + 32 * 0 ≤ (i 0).val ∧ (i 0).val < 256 * s.val + 128 * c.val + 32 * 0 + 32 := h 0
    omega
  · intro h a
    match a with
    | ⟨0, _⟩ => exact (show 256 * s.val + 128 * c.val + 32 * 0 ≤ (i 0).val ∧ (i 0).val < 256 * s.val + 128 * c.val + 32 * 0 + 32 by omega)
    | ⟨1, _⟩ => exact (show 0 ≤ (i 1).val ∧ (i 1).val < 0 + 1024 by omega)

/-- Chunk 1: the next 32 rows. -/
theorem mem_oSetA1 (c : Fin 2) (s : Fin 16) (i : S4096x1024.Idx) :
    i ∈ oSetA1 (coordsV c s) ↔ 256 * s.val + 128 * c.val + 32 ≤ (i 0).val ∧ (i 0).val < 256 * s.val + 128 * c.val + 64 := by
  have h1 : (i 1).val < 1024 := (i 1).isLt
  show i ∈ ((View.whole (main_v0_scv : Ref sig .scVector)).slice (Rect.unit (s := S4096x1024) (k0_off5 (coordsV c s) 32#32) S32x1024.size (k0_off5_inb (coordsV c s) 1))).set ↔ _
  rw [View.set_slice_whole, Rect.mem_set_unit, show k0_off5 (coordsV c s) 32#32 = ![256 * s.val + 128 * c.val + 32 * 1, 0] from k0_off5_eq (coordsV c s) 1]
  constructor
  · intro h
    have h0 : 256 * s.val + 128 * c.val + 32 * 1 ≤ (i 0).val ∧ (i 0).val < 256 * s.val + 128 * c.val + 32 * 1 + 32 := h 0
    omega
  · intro h a
    match a with
    | ⟨0, _⟩ => exact (show 256 * s.val + 128 * c.val + 32 * 1 ≤ (i 0).val ∧ (i 0).val < 256 * s.val + 128 * c.val + 32 * 1 + 32 by omega)
    | ⟨1, _⟩ => exact (show 0 ≤ (i 1).val ∧ (i 1).val < 0 + 1024 by omega)

/-- Chunk 2: the third 32 rows. -/
theorem mem_oSetB0 (c : Fin 2) (s : Fin 16) (i : S4096x1024.Idx) :
    i ∈ oSetB0 (coordsV c s) ↔ 256 * s.val + 128 * c.val + 64 ≤ (i 0).val ∧ (i 0).val < 256 * s.val + 128 * c.val + 96 := by
  have h1 : (i 1).val < 1024 := (i 1).isLt
  show i ∈ ((View.whole (main_v0_scv : Ref sig .scVector)).slice (Rect.unit (s := S4096x1024) (k0_off6 (coordsV c s) 0#32) S32x1024.size (k0_off6_inb (coordsV c s) 0))).set ↔ _
  rw [View.set_slice_whole, Rect.mem_set_unit, show k0_off6 (coordsV c s) 0#32 = ![256 * s.val + 128 * c.val + 32 * 0 + 64, 0] from k0_off6_eq (coordsV c s) 0]
  constructor
  · intro h
    have h0 : 256 * s.val + 128 * c.val + 32 * 0 + 64 ≤ (i 0).val ∧ (i 0).val < 256 * s.val + 128 * c.val + 32 * 0 + 64 + 32 := h 0
    omega
  · intro h a
    match a with
    | ⟨0, _⟩ => exact (show 256 * s.val + 128 * c.val + 32 * 0 + 64 ≤ (i 0).val ∧ (i 0).val < 256 * s.val + 128 * c.val + 32 * 0 + 64 + 32 by omega)
    | ⟨1, _⟩ => exact (show 0 ≤ (i 1).val ∧ (i 1).val < 0 + 1024 by omega)

/-- Chunk 3: the last 32 rows. -/
theorem mem_oSetB1 (c : Fin 2) (s : Fin 16) (i : S4096x1024.Idx) :
    i ∈ oSetB1 (coordsV c s) ↔ 256 * s.val + 128 * c.val + 96 ≤ (i 0).val ∧ (i 0).val < 256 * s.val + 128 * c.val + 128 := by
  have h1 : (i 1).val < 1024 := (i 1).isLt
  show i ∈ ((View.whole (main_v0_scv : Ref sig .scVector)).slice (Rect.unit (s := S4096x1024) (k0_off6 (coordsV c s) 32#32) S32x1024.size (k0_off6_inb (coordsV c s) 1))).set ↔ _
  rw [View.set_slice_whole, Rect.mem_set_unit, show k0_off6 (coordsV c s) 32#32 = ![256 * s.val + 128 * c.val + 32 * 1 + 64, 0] from k0_off6_eq (coordsV c s) 1]
  constructor
  · intro h
    have h0 : 256 * s.val + 128 * c.val + 32 * 1 + 64 ≤ (i 0).val ∧ (i 0).val < 256 * s.val + 128 * c.val + 32 * 1 + 64 + 32 := h 0
    omega
  · intro h a
    match a with
    | ⟨0, _⟩ => exact (show 256 * s.val + 128 * c.val + 32 * 1 + 64 ≤ (i 0).val ∧ (i 0).val < 256 * s.val + 128 * c.val + 32 * 1 + 64 + 32 by omega)
    | ⟨1, _⟩ => exact (show 0 ≤ (i 1).val ∧ (i 1).val < 0 + 1024 by omega)

/-- The two halves of a tile's own memory: first coordinate 0, first coordinate 1. -/
theorem mem_bSet0 (i : S2x32x1024.Idx) : i ∈ bSet0 ↔ (i 0).val = 0 := by
  have h1 : (i 1).val < 32 := (i 1).isLt
  have h2 : (i 2).val < 1024 := (i 2).isLt
  show i ∈ (((View.whole (cc0_scratch0 : Ref sig .scVector)).slice (Rect.unit (s := S2x32x1024) ![0, 0, 0] S1x32x1024.size inb_S2x32x1024_S1x32x1024_0_0_0)).reshape S32x1024 squeezes_S1x32x1024_S32x1024.numel_eq).set ↔ _
  rw [View.set_reshape, View.set_slice_whole, Rect.mem_set_unit]
  constructor
  · intro h
    have h0 : 0 ≤ (i 0).val ∧ (i 0).val < 0 + 1 := h 0
    omega
  · intro h a
    match a with
    | ⟨0, _⟩ => exact (show 0 ≤ (i 0).val ∧ (i 0).val < 0 + 1 by omega)
    | ⟨1, _⟩ => exact (show 0 ≤ (i 1).val ∧ (i 1).val < 0 + 32 by omega)
    | ⟨2, _⟩ => exact (show 0 ≤ (i 2).val ∧ (i 2).val < 0 + 1024 by omega)

theorem mem_bSet1 (i : S2x32x1024.Idx) : i ∈ bSet1 ↔ (i 0).val = 1 := by
  have h1 : (i 1).val < 32 := (i 1).isLt
  have h2 : (i 2).val < 1024 := (i 2).isLt
  show i ∈ (((View.whole (cc0_scratch0 : Ref sig .scVector)).slice (Rect.unit (s := S2x32x1024) ![1, 0, 0] S1x32x1024.size inb_S2x32x1024_S1x32x1024_1_0_0)).reshape S32x1024 squeezes_S1x32x1024_S32x1024.numel_eq).set ↔ _
  rw [View.set_reshape, View.set_slice_whole, Rect.mem_set_unit]
  constructor
  · intro h
    have h0 : 1 ≤ (i 0).val ∧ (i 0).val < 1 + 1 := h 0
    omega
  · intro h a
    match a with
    | ⟨0, _⟩ => exact (show 1 ≤ (i 0).val ∧ (i 0).val < 1 + 1 by omega)
    | ⟨1, _⟩ => exact (show 0 ≤ (i 1).val ∧ (i 1).val < 0 + 32 by omega)
    | ⟨2, _⟩ => exact (show 0 ≤ (i 2).val ∧ (i 2).val < 0 + 1024 by omega)

/-- Tile `s`'s two rows of the shared memory: first coordinate `s`, second coordinate 0 or 1. -/
theorem mem_sSet0 (c : Fin 2) (s : Fin 16) (i : S16x2x32x1024.Idx) : i ∈ sSet0 (coordsV c s) ↔ (i 0).val = s.val ∧ (i 1).val = 0 := by
  have h2 : (i 2).val < 32 := (i 2).isLt
  have h3 : (i 3).val < 1024 := (i 3).isLt
  show i ∈ (((View.whole (cc0_scratch1 : Ref sig .scVector)).slice (Rect.unit (s := S16x2x32x1024) (k0_off2 (coordsV c s)) S1x1x32x1024.size (k0_off2_inb (coordsV c s)))).reshape S32x1024 squeezes_S1x1x32x1024_S32x1024.numel_eq).set ↔ _
  rw [View.set_reshape, View.set_slice_whole, Rect.mem_set_unit, show k0_off2 (coordsV c s) = ![s.val, 0, 0, 0] from k0_off2_eq (coordsV c s)]
  constructor
  · intro h
    have h0 : s.val ≤ (i 0).val ∧ (i 0).val < s.val + 1 := h 0
    have h1 : 0 ≤ (i 1).val ∧ (i 1).val < 0 + 1 := h 1
    omega
  · intro h a
    match a with
    | ⟨0, _⟩ => exact (show s.val ≤ (i 0).val ∧ (i 0).val < s.val + 1 by omega)
    | ⟨1, _⟩ => exact (show 0 ≤ (i 1).val ∧ (i 1).val < 0 + 1 by omega)
    | ⟨2, _⟩ => exact (show 0 ≤ (i 2).val ∧ (i 2).val < 0 + 32 by omega)
    | ⟨3, _⟩ => exact (show 0 ≤ (i 3).val ∧ (i 3).val < 0 + 1024 by omega)

theorem mem_sSet1 (c : Fin 2) (s : Fin 16) (i : S16x2x32x1024.Idx) : i ∈ sSet1 (coordsV c s) ↔ (i 0).val = s.val ∧ (i 1).val = 1 := by
  have h2 : (i 2).val < 32 := (i 2).isLt
  have h3 : (i 3).val < 1024 := (i 3).isLt
  show i ∈ (((View.whole (cc0_scratch1 : Ref sig .scVector)).slice (Rect.unit (s := S16x2x32x1024) (k0_off4 (coordsV c s)) S1x1x32x1024.size (k0_off4_inb (coordsV c s)))).reshape S32x1024 squeezes_S1x1x32x1024_S32x1024.numel_eq).set ↔ _
  rw [View.set_reshape, View.set_slice_whole, Rect.mem_set_unit, show k0_off4 (coordsV c s) = ![s.val, 1, 0, 0] from k0_off4_eq (coordsV c s)]
  constructor
  · intro h
    have h0 : s.val ≤ (i 0).val ∧ (i 0).val < s.val + 1 := h 0
    have h1 : 1 ≤ (i 1).val ∧ (i 1).val < 1 + 1 := h 1
    omega
  · intro h a
    match a with
    | ⟨0, _⟩ => exact (show s.val ≤ (i 0).val ∧ (i 0).val < s.val + 1 by omega)
    | ⟨1, _⟩ => exact (show 1 ≤ (i 1).val ∧ (i 1).val < 1 + 1 by omega)
    | ⟨2, _⟩ => exact (show 0 ≤ (i 2).val ∧ (i 2).val < 0 + 32 by omega)
    | ⟨3, _⟩ => exact (show 0 ≤ (i 3).val ∧ (i 3).val < 0 + 1024 by omega)

end Cert.Proof.KernelIdealFrame

end
-- ==== Proof.KernelIdealBody.lean ====
/-
  One tile's task in `KernelIdeal`, run once at a symbolic tile. The task reads its four 32-row chunks of the table into its
  four buffer pieces, waits for each, writes each piece to the same rows of the result, and waits for those. Every
  transfer has a semaphore of its own, so each is in flight alone on its cell; no buffer piece is written or read while a
  transfer on it is pending. What a chunk of the result holds afterwards is what its piece held, which is what the
  table's chunk held: the table's rows `256 s + 128 c + 32 k` onwards, at the same row numbers.
-/
import proofs.«210076_g26774826123951_cont_9to1_2051_14_alg».proof.Proof.KernelIdealPieces
import Idealize.ShloMosaic.Lib.Pipeline.FrameBody
import Idealize.ShloMosaic.Lib.Pipeline.Value

noncomputable section

namespace Cert.Proof.KernelIdealFrame

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Reading back one whole write -/

/-- What one write through the whole of a view leaves reads back, through the view, as what was written. -/
theorem read_writes_whole {sig : RefSig} {κ : Kind} {sp : Space} {s : Shape} {e : EltTy} {Val : EltTy → Type} [∀ e, Nonempty (Val e)]
    (v : View sig κ sp s e) (f : v.ty.Contents Val) (w : s.Idx → Val e) :
    v.read Val (v.writes Val f [⟨Rect.whole s, w⟩]) = w := by
  rw [View.read_writes_eq_canon v f _ (fun y => ⟨_, List.mem_singleton_self _, by
    show y ∈ (Rect.whole s).set; rw [Rect.set_whole]; exact Finset.mem_univ y⟩)]
  exact View.canon_unit_zero rfl _ w

section Tile

variable (d : Dev nD) (L : grid0.Coords)

local notation "tW" => (Memref.whole Cert.KernelIdeal.main_arg1_scv : Memref Cert.KernelIdeal.sig Kind.scVector Space.hbm Cert.KernelIdeal.S8192x1024 EltTy.f32)
local notation "oW" => (Memref.whole Cert.KernelIdeal.main_v0_scv : Memref Cert.KernelIdeal.sig Kind.scVector Space.hbm Cert.KernelIdeal.S4096x1024 EltTy.f32)
local notation "bW" => (Memref.whole Cert.KernelIdeal.cc0_scratch0 : Memref Cert.KernelIdeal.sig Kind.scVector Space.vmem Cert.KernelIdeal.S2x32x1024 EltTy.f32)
local notation "shW" => (Memref.whole Cert.KernelIdeal.cc0_scratch1 : Memref Cert.KernelIdeal.sig Kind.scVector Space.shared Cert.KernelIdeal.S16x2x32x1024 EltTy.f32)
local notation "tA0" => (Memref.slice tW (Rect.unit (s := Cert.KernelIdeal.S8192x1024) (Cert.KernelIdeal.k0_off1 L 0#32) (Shape.size Cert.KernelIdeal.S32x1024) (k0_off1_inb L 0)) (fun _ => rfl))
local notation "tA1" => (Memref.slice tW (Rect.unit (s := Cert.KernelIdeal.S8192x1024) (Cert.KernelIdeal.k0_off1 L 32#32) (Shape.size Cert.KernelIdeal.S32x1024) (k0_off1_inb L 1)) (fun _ => rfl))
local notation "tB0" => (Memref.slice tW (Rect.unit (s := Cert.KernelIdeal.S8192x1024) (Cert.KernelIdeal.k0_off3 L 0#32) (Shape.size Cert.KernelIdeal.S32x1024) (k0_off3_inb L 0)) (fun _ => rfl))
local notation "tB1" => (Memref.slice tW (Rect.unit (s := Cert.KernelIdeal.S8192x1024) (Cert.KernelIdeal.k0_off3 L 32#32) (Shape.size Cert.KernelIdeal.S32x1024) (k0_off3_inb L 1)) (fun _ => rfl))
local notation "oA0" => (Memref.slice oW (Rect.unit (s := Cert.KernelIdeal.S4096x1024) (Cert.KernelIdeal.k0_off5 L 0#32) (Shape.size Cert.KernelIdeal.S32x1024) (k0_off5_inb L 0)) (fun _ => rfl))
local notation "oA1" => (Memref.slice oW (Rect.unit (s := Cert.KernelIdeal.S4096x1024) (Cert.KernelIdeal.k0_off5 L 32#32) (Shape.size Cert.KernelIdeal.S32x1024) (k0_off5_inb L 1)) (fun _ => rfl))
local notation "oB0" => (Memref.slice oW (Rect.unit (s := Cert.KernelIdeal.S4096x1024) (Cert.KernelIdeal.k0_off6 L 0#32) (Shape.size Cert.KernelIdeal.S32x1024) (k0_off6_inb L 0)) (fun _ => rfl))
local notation "oB1" => (Memref.slice oW (Rect.unit (s := Cert.KernelIdeal.S4096x1024) (Cert.KernelIdeal.k0_off6 L 32#32) (Shape.size Cert.KernelIdeal.S32x1024) (k0_off6_inb L 1)) (fun _ => rfl))

variable [FloatOps F] (m : (ℓ : Loc nD τ sig) → Buf (Elt F) ℓ)

/-- The rows of the table the result is to hold, as contents of the result's array. -/
abbrev rowsF (d : Dev nD) : Buf (Elt F) (oLoc d) := Cert.Spec.rows (m (tLoc d))

/-! ## A chunk of the result after the task: the table's rows -/

omit [FloatOps F] in
theorem emb_A0 (y : S32x1024.Idx) : (tA0).view.emb y = Cert.Spec.tabIdx (((oA0).view.emb y) 0) (((oA0).view.emb y) 1) := by
  funext a; apply Fin.ext
  match a with
  | ⟨0, _⟩ => rfl
  | ⟨1, _⟩ => rfl
omit [FloatOps F] in
theorem emb_A1 (y : S32x1024.Idx) : (tA1).view.emb y = Cert.Spec.tabIdx (((oA1).view.emb y) 0) (((oA1).view.emb y) 1) := by
  funext a; apply Fin.ext
  match a with
  | ⟨0, _⟩ => rfl
  | ⟨1, _⟩ => rfl
omit [FloatOps F] in
theorem emb_B0 (y : S32x1024.Idx) : (tB0).view.emb y = Cert.Spec.tabIdx (((oB0).view.emb y) 0) (((oB0).view.emb y) 1) := by
  funext a; apply Fin.ext
  match a with
  | ⟨0, _⟩ => rfl
  | ⟨1, _⟩ => rfl
omit [FloatOps F] in
theorem emb_B1 (y : S32x1024.Idx) : (tB1).view.emb y = Cert.Spec.tabIdx (((oB1).view.emb y) 0) (((oB1).view.emb y) 1) := by
  funext a; apply Fin.ext
  match a with
  | ⟨0, _⟩ => rfl
  | ⟨1, _⟩ => rfl

omit [FloatOps F] in
/-- The result's chunk written whole with the table's chunk holds, on its elements, the table's rows. -/
theorem val_A0 [∀ e, Nonempty (Elt F e)] (fo : Buf (Elt F) (oLoc d)) :
    ∀ i ∈ oSetA0 L, ((oA0).view.writes (Elt F) fo [⟨Rect.whole S32x1024, (tA0).view.read (Elt F) (m (tLoc d))⟩]) i = rowsF m d i := by
  intro i hi
  obtain ⟨y, rfl⟩ := View.exists_emb_of_mem_set (oA0).view hi
  have h := congrFun (read_writes_whole (oA0).view fo ((tA0).view.read (Elt F) (m (tLoc d)))) y
  have hl : (oA0).view.read (Elt F) ((oA0).view.writes (Elt F) fo [⟨Rect.whole S32x1024, (tA0).view.read (Elt F) (m (tLoc d))⟩]) y
      = ((oA0).view.writes (Elt F) fo [⟨Rect.whole S32x1024, (tA0).view.read (Elt F) (m (tLoc d))⟩]) ((oA0).view.emb y) :=
    (View.read_apply _ _).trans (cast_eq _ _)
  have hr : (tA0).view.read (Elt F) (m (tLoc d)) y = m (tLoc d) ((tA0).view.emb y) := (View.read_apply _ _).trans (cast_eq _ _)
  exact hl.symm.trans (h.trans (hr.trans (congrArg (m (tLoc d)) (emb_A0 L y))))
omit [FloatOps F] in
theorem val_A1 [∀ e, Nonempty (Elt F e)] (fo : Buf (Elt F) (oLoc d)) :
    ∀ i ∈ oSetA1 L, ((oA1).view.writes (Elt F) fo [⟨Rect.whole S32x1024, (tA1).view.read (Elt F) (m (tLoc d))⟩]) i = rowsF m d i := by
  intro i hi
  obtain ⟨y, rfl⟩ := View.exists_emb_of_mem_set (oA1).view hi
  have h := congrFun (read_writes_whole (oA1).view fo ((tA1).view.read (Elt F) (m (tLoc d)))) y
  have hl : (oA1).view.read (Elt F) ((oA1).view.writes (Elt F) fo [⟨Rect.whole S32x1024, (tA1).view.read (Elt F) (m (tLoc d))⟩]) y
      = ((oA1).view.writes (Elt F) fo [⟨Rect.whole S32x1024, (tA1).view.read (Elt F) (m (tLoc d))⟩]) ((oA1).view.emb y) :=
    (View.read_apply _ _).trans (cast_eq _ _)
  have hr : (tA1).view.read (Elt F) (m (tLoc d)) y = m (tLoc d) ((tA1).view.emb y) := (View.read_apply _ _).trans (cast_eq _ _)
  exact hl.symm.trans (h.trans (hr.trans (congrArg (m (tLoc d)) (emb_A1 L y))))
omit [FloatOps F] in
theorem val_B0 [∀ e, Nonempty (Elt F e)] (fo : Buf (Elt F) (oLoc d)) :
    ∀ i ∈ oSetB0 L, ((oB0).view.writes (Elt F) fo [⟨Rect.whole S32x1024, (tB0).view.read (Elt F) (m (tLoc d))⟩]) i = rowsF m d i := by
  intro i hi
  obtain ⟨y, rfl⟩ := View.exists_emb_of_mem_set (oB0).view hi
  have h := congrFun (read_writes_whole (oB0).view fo ((tB0).view.read (Elt F) (m (tLoc d)))) y
  have hl : (oB0).view.read (Elt F) ((oB0).view.writes (Elt F) fo [⟨Rect.whole S32x1024, (tB0).view.read (Elt F) (m (tLoc d))⟩]) y
      = ((oB0).view.writes (Elt F) fo [⟨Rect.whole S32x1024, (tB0).view.read (Elt F) (m (tLoc d))⟩]) ((oB0).view.emb y) :=
    (View.read_apply _ _).trans (cast_eq _ _)
  have hr : (tB0).view.read (Elt F) (m (tLoc d)) y = m (tLoc d) ((tB0).view.emb y) := (View.read_apply _ _).trans (cast_eq _ _)
  exact hl.symm.trans (h.trans (hr.trans (congrArg (m (tLoc d)) (emb_B0 L y))))
omit [FloatOps F] in
theorem val_B1 [∀ e, Nonempty (Elt F e)] (fo : Buf (Elt F) (oLoc d)) :
    ∀ i ∈ oSetB1 L, ((oB1).view.writes (Elt F) fo [⟨Rect.whole S32x1024, (tB1).view.read (Elt F) (m (tLoc d))⟩]) i = rowsF m d i := by
  intro i hi
  obtain ⟨y, rfl⟩ := View.exists_emb_of_mem_set (oB1).view hi
  have h := congrFun (read_writes_whole (oB1).view fo ((tB1).view.read (Elt F) (m (tLoc d)))) y
  have hl : (oB1).view.read (Elt F) ((oB1).view.writes (Elt F) fo [⟨Rect.whole S32x1024, (tB1).view.read (Elt F) (m (tLoc d))⟩]) y
      = ((oB1).view.writes (Elt F) fo [⟨Rect.whole S32x1024, (tB1).view.read (Elt F) (m (tLoc d))⟩]) ((oB1).view.emb y) :=
    (View.read_apply _ _).trans (cast_eq _ _)
  have hr : (tB1).view.read (Elt F) (m (tLoc d)) y = m (tLoc d) ((tB1).view.emb y) := (View.read_apply _ _).trans (cast_eq _ _)
  exact hl.symm.trans (h.trans (hr.trans (congrArg (m (tLoc d)) (emb_B1 L y))))

end Tile

section Task

variable (d : Dev nD) (L : grid0.Coords)

local notation "tW" => (Memref.whole Cert.KernelIdeal.main_arg1_scv : Memref Cert.KernelIdeal.sig Kind.scVector Space.hbm Cert.KernelIdeal.S8192x1024 EltTy.f32)
local notation "oW" => (Memref.whole Cert.KernelIdeal.main_v0_scv : Memref Cert.KernelIdeal.sig Kind.scVector Space.hbm Cert.KernelIdeal.S4096x1024 EltTy.f32)
local notation "bW" => (Memref.whole Cert.KernelIdeal.cc0_scratch0 : Memref Cert.KernelIdeal.sig Kind.scVector Space.vmem Cert.KernelIdeal.S2x32x1024 EltTy.f32)
local notation "shW" => (Memref.whole Cert.KernelIdeal.cc0_scratch1 : Memref Cert.KernelIdeal.sig Kind.scVector Space.shared Cert.KernelIdeal.S16x2x32x1024 EltTy.f32)
local notation "tA0" => (Memref.slice tW (Rect.unit (s := Cert.KernelIdeal.S8192x1024) (Cert.KernelIdeal.k0_off1 L 0#32) (Shape.size Cert.KernelIdeal.S32x1024) (k0_off1_inb L 0)) (fun _ => rfl))
local notation "tA1" => (Memref.slice tW (Rect.unit (s := Cert.KernelIdeal.S8192x1024) (Cert.KernelIdeal.k0_off1 L 32#32) (Shape.size Cert.KernelIdeal.S32x1024) (k0_off1_inb L 1)) (fun _ => rfl))
local notation "tB0" => (Memref.slice tW (Rect.unit (s := Cert.KernelIdeal.S8192x1024) (Cert.KernelIdeal.k0_off3 L 0#32) (Shape.size Cert.KernelIdeal.S32x1024) (k0_off3_inb L 0)) (fun _ => rfl))
local notation "tB1" => (Memref.slice tW (Rect.unit (s := Cert.KernelIdeal.S8192x1024) (Cert.KernelIdeal.k0_off3 L 32#32) (Shape.size Cert.KernelIdeal.S32x1024) (k0_off3_inb L 1)) (fun _ => rfl))
local notation "oA0" => (Memref.slice oW (Rect.unit (s := Cert.KernelIdeal.S4096x1024) (Cert.KernelIdeal.k0_off5 L 0#32) (Shape.size Cert.KernelIdeal.S32x1024) (k0_off5_inb L 0)) (fun _ => rfl))
local notation "oA1" => (Memref.slice oW (Rect.unit (s := Cert.KernelIdeal.S4096x1024) (Cert.KernelIdeal.k0_off5 L 32#32) (Shape.size Cert.KernelIdeal.S32x1024) (k0_off5_inb L 1)) (fun _ => rfl))
local notation "oB0" => (Memref.slice oW (Rect.unit (s := Cert.KernelIdeal.S4096x1024) (Cert.KernelIdeal.k0_off6 L 0#32) (Shape.size Cert.KernelIdeal.S32x1024) (k0_off6_inb L 0)) (fun _ => rfl))
local notation "oB1" => (Memref.slice oW (Rect.unit (s := Cert.KernelIdeal.S4096x1024) (Cert.KernelIdeal.k0_off6 L 32#32) (Shape.size Cert.KernelIdeal.S32x1024) (k0_off6_inb L 1)) (fun _ => rfl))

variable [FloatOps F] (m : (ℓ : Loc nD τ sig) → Buf (Elt F) ℓ)

/-! ## The tile's own memory: its two halves -/

omit [FloatOps F] in
theorem bSets_disjoint : Disjoint bSet0 bSet1 :=
  Finset.disjoint_left.mpr fun i h0 h1 => by
    rw [mem_bSet0] at h0; rw [mem_bSet1] at h1; omega
omit [FloatOps F] in
theorem bSets_union : bSet0 ∪ bSet1 = Finset.univ := by
  ext i
  simp only [Finset.mem_union, mem_bSet0, mem_bSet1, Finset.mem_univ, iff_true]
  have h : (i 0).val < 2 := (i 0).isLt
  omega
omit [FloatOps F] in
theorem bPts_split (f : Buf (Elt F) (bLoc d L)) :
    (bLoc d L ↦{fullShare} f : sProp 𝕄) ⊣⊢ iprop((bLoc d L ↦[bSet0]{fullShare} f) ∗ bLoc d L ↦[bSet1]{fullShare} f) := by
  have h : (bLoc d L ↦[bSet0 ∪ bSet1]{fullShare} f : sProp 𝕄) ⊣⊢ iprop((bLoc d L ↦[bSet0]{fullShare} f) ∗ bLoc d L ↦[bSet1]{fullShare} f) :=
    pointsTo_union bSets_disjoint
  rw [bSets_union] at h; exact h
omit [FloatOps F] in
/-- The halves, each at contents of its own, are the tile's memory at some contents. -/
theorem bPts_join (f g : Buf (Elt F) (bLoc d L)) :
    iprop((bLoc d L ↦[bSet0]{fullShare} f) ∗ bLoc d L ↦[bSet1]{fullShare} g) ⊢ (iprop(∃ h, bLoc d L ↦{fullShare} h) : sProp 𝕄) := by
  iintro H
  ihave H' := (pointsTo_join (ℓ := bLoc d L) (q := fullShare) (f := f) (g := g) bSets_disjoint) $$ H
  rw [bSets_union]
  iexists _; iexact H'

/-! ## The tile's scoped storage: its memory and its eight transfer semaphores -/

omit [FloatOps F] in
theorem ownBufs_V :
    (ownBufs (thrV d L) : sProp 𝕄)
      = iprop((∃ f, bLoc d L ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
theorem cell_ne {a b : DmaSems sig S_} (h : a.sem ≠ b.sem) : cell d L a ≠ cell d L b :=
  fun e => h (SemLoc.dma.inj (Prod.mk.inj e).2)

omit [FloatOps F] in
theorem ownSems0_V :
    (ownSems0 (thrV d L) : sProp 𝕄)
      = iprop(semVal (cell d L cc0_scratch2) 0 ∗ semVal (cell d L cc0_scratch3) 0 ∗ semVal (cell d L cc0_scratch4) 0 ∗ semVal (cell d L cc0_scratch5) 0
          ∗ semVal (cell d L cc0_scratch6) 0 ∗ semVal (cell d L cc0_scratch7) 0 ∗ semVal (cell d L cc0_scratch8) 0 ∗ semVal (cell d L cc0_scratch9) 0
          ∗ bigSep (((((((((ownCells (thrV d L)).erase (cell d L cc0_scratch2)).erase (cell d L cc0_scratch3)).erase (cell d L cc0_scratch4)).erase (cell d L cc0_scratch5)).erase
              (cell d L cc0_scratch6)).erase (cell d L cc0_scratch7)).erase (cell d L cc0_scratch8)).erase (cell d L cc0_scratch9))
              fun g => semVal g 0) := by
  unfold SparseCore.Cfg.ownSems0
  have m2 : cell d L cc0_scratch2 ∈ ownCells (thrV d L) := (mem_ownCells (g := cell d L cc0_scratch2)).mpr ⟨rfl, by show (SemLoc.dma cc0_scratch2.sem : SemLoc sig).isScoped .scVector = true; decide⟩
  have m3 : cell d L cc0_scratch3 ∈ ownCells (thrV d L) := (mem_ownCells (g := cell d L cc0_scratch3)).mpr ⟨rfl, by show (SemLoc.dma cc0_scratch3.sem : SemLoc sig).isScoped .scVector = true; decide⟩
  have m4 : cell d L cc0_scratch4 ∈ ownCells (thrV d L) := (mem_ownCells (g := cell d L cc0_scratch4)).mpr ⟨rfl, by show (SemLoc.dma cc0_scratch4.sem : SemLoc sig).isScoped .scVector = true; decide⟩
  have m5 : cell d L cc0_scratch5 ∈ ownCells (thrV d L) := (mem_ownCells (g := cell d L cc0_scratch5)).mpr ⟨rfl, by show (SemLoc.dma cc0_scratch5.sem : SemLoc sig).isScoped .scVector = true; decide⟩
  have m6 : cell d L cc0_scratch6 ∈ ownCells (thrV d L) := (mem_ownCells (g := cell d L cc0_scratch6)).mpr ⟨rfl, by show (SemLoc.dma cc0_scratch6.sem : SemLoc sig).isScoped .scVector = true; decide⟩
  have m7 : cell d L cc0_scratch7 ∈ ownCells (thrV d L) := (mem_ownCells (g := cell d L cc0_scratch7)).mpr ⟨rfl, by show (SemLoc.dma cc0_scratch7.sem : SemLoc sig).isScoped .scVector = true; decide⟩
  have m8 : cell d L cc0_scratch8 ∈ ownCells (thrV d L) := (mem_ownCells (g := cell d L cc0_scratch8)).mpr ⟨rfl, by show (SemLoc.dma cc0_scratch8.sem : SemLoc sig).isScoped .scVector = true; decide⟩
  have m9 : cell d L cc0_scratch9 ∈ ownCells (thrV d L) := (mem_ownCells (g := cell d L cc0_scratch9)).mpr ⟨rfl, by show (SemLoc.dma cc0_scratch9.sem : SemLoc sig).isScoped .scVector = true; decide⟩
  rw [SparseCore.bigSep_erase' m2,
    SparseCore.bigSep_erase' (Finset.mem_erase.mpr ⟨cell_ne d L (by decide), m3⟩),
    SparseCore.bigSep_erase' (Finset.mem_erase.mpr ⟨cell_ne d L (by decide), Finset.mem_erase.mpr ⟨cell_ne d L (by decide), m4⟩⟩),
    SparseCore.bigSep_erase' (Finset.mem_erase.mpr ⟨cell_ne d L (by decide), Finset.mem_erase.mpr ⟨cell_ne d L (by decide), Finset.mem_erase.mpr ⟨cell_ne d L (by decide), m5⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), m6⟩⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), Finset.mem_erase.mpr ⟨cell_ne d L (by decide), m7⟩⟩⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), Finset.mem_erase.mpr ⟨cell_ne d L (by decide), Finset.mem_erase.mpr ⟨cell_ne d L (by decide), m8⟩⟩⟩⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), Finset.mem_erase.mpr ⟨cell_ne d L (by decide), Finset.mem_erase.mpr ⟨cell_ne d L (by decide),
      Finset.mem_erase.mpr ⟨cell_ne d L (by decide), m9⟩⟩⟩⟩⟩⟩⟩)]

/-! ## The task -/

/-- The task of tile `L`: from four read shares of the table, its four chunks of the result, its two rows of the shared
    memory and its own scoped storage, it ends with its chunks of the result at the table's rows and everything else as it
    found it (the buffers at whatever they now hold), having recorded only waits on its own semaphores. -/
theorem tile_body [∀ e, Nonempty (Elt F e)] (hF : (K (F := F)).Facts) (q0 q1 q2 q3 : PosShare TreeShare)
    (O : CellTallies nD τ sig (HIx 1)) (W : Waits sig (HIx 1)) (hO : ∀ g, O g none = 0) :
    iprop(levAts (K (F := F)).L (K (F := F)).lev
        ∗ ((tLoc d ↦{q0} m (tLoc d)) ∗ (tLoc d ↦{q1} m (tLoc d)) ∗ (tLoc d ↦{q2} m (tLoc d)) ∗ (tLoc d ↦{q3} m (tLoc d)))
        ∗ ((oLoc d ↦[oSetA0 L]{fullShare} m (oLoc d)) ∗ (oLoc d ↦[oSetA1 L]{fullShare} m (oLoc d))
            ∗ (oLoc d ↦[oSetB0 L]{fullShare} m (oLoc d)) ∗ (oLoc d ↦[oSetB1 L]{fullShare} m (oLoc d)))
        ∗ ((∃ f, shLoc d (cV L) ↦[sSet0 L]{fullShare} f) ∗ (∃ f, shLoc d (cV L) ↦[sSet1 L]{fullShare} f))
        ∗ scopedBufs (thrV d L) ∗ scopedSems0 (thrV d L) ∗ owes (thrV d L) O W)
      ⊢ wp frame (wpE (defs₀ (F := F)) 𝒱₀ (thrV d L) none) Set.univ
          (cc0_sc_copy L tW (Memref.isWhole_whole _) oW (Memref.isWhole_whole _) bW (Memref.isWhole_whole _) shW (Memref.isWhole_whole _)
            cc0_scratch2 cc0_scratch3 cc0_scratch4 cc0_scratch5 cc0_scratch6 cc0_scratch7 cc0_scratch8 cc0_scratch9)
          fun _ => (iprop(((tLoc d ↦{q0} m (tLoc d)) ∗ (tLoc d ↦{q1} m (tLoc d)) ∗ (tLoc d ↦{q2} m (tLoc d)) ∗ (tLoc d ↦{q3} m (tLoc d)))
            ∗ ((oLoc d ↦[oSetA0 L]{fullShare} rowsF m d) ∗ (oLoc d ↦[oSetA1 L]{fullShare} rowsF m d)
                ∗ (oLoc d ↦[oSetB0 L]{fullShare} rowsF m d) ∗ (oLoc d ↦[oSetB1 L]{fullShare} rowsF m d))
            ∗ ((∃ f, shLoc d (cV L) ↦[sSet0 L]{fullShare} f) ∗ (∃ f, shLoc d (cV L) ↦[sSet1 L]{fullShare} f))
            ∗ scopedBufs (thrV d L) ∗ scopedSems0 (thrV d L)
            ∗ ∃ W', ⌜∀ p ∈ W', p ∈ W ∨ p.2 = none⌝ ∗ owes (thrV d L) O W') : sProp 𝕄) := by
  simp only [cc0_sc_copy_eq_skeleton]; unfold cc0_sc_copy_skel
  rw [(K (F := F)).scopedBufs_V hF d (cV L) (jV L), SparseCore.Cfg.scopedSems0_V (Val := Elt F) d (cV L) (jV L), ownSems0_V, ownBufs_V]
  iintro ⟨#Hlv, ⟨T0, T1, T2, T3⟩, ⟨O0, O1, O2, O3⟩, ⟨⟨%fs0, S0⟩, ⟨%fs1, S1⟩⟩, ⟨⟨%fb, Hb⟩, Hbufs⟩, ⟨s2, s3, s4, s5, s6, s7, s8, s9, Hsems⟩, HO⟩
  ihave Hb' := (bPts_split (F := F) d L fb).1 $$ Hb
  icases Hb' with ⟨B0, B1⟩
  ihave Hmw := ((K (F := F)).mayWaits_none (thr := thrV d L) hO) $$ Hlv
  ihave T0' := (Entails.of_eq (pts_t (F := F) d L _ _).symm) $$ T0
  ihave T1' := (Entails.of_eq (pts_t (F := F) d L _ _).symm) $$ T1
  ihave T2' := (Entails.of_eq (pts_t (F := F) d L _ _).symm) $$ T2
  ihave T3' := (Entails.of_eq (pts_t (F := F) d L _ _).symm) $$ T3
  ihave O0' := (Entails.of_eq (pts_oA0 (F := F) d L _).symm) $$ O0
  ihave O1' := (Entails.of_eq (pts_oA1 (F := F) d L _).symm) $$ O1
  ihave O2' := (Entails.of_eq (pts_oB0 (F := F) d L _).symm) $$ O2
  ihave O3' := (Entails.of_eq (pts_oB1 (F := F) d L _).symm) $$ O3
  ihave B0' := (Entails.of_eq (pts_bH0 (F := F) d L _).symm) $$ B0
  ihave B1' := (Entails.of_eq (pts_bH1 (F := F) d L _).symm) $$ B1
  ihave S0' := (Entails.of_eq (pts_sH0 (F := F) d L _).symm) $$ S0
  ihave S1' := (Entails.of_eq (pts_sH1 (F := F) d L _).symm) $$ S1
  sl_exec
  have e4 : tile_body.sl.dma0_4 d L m fb = (tA0).view.read (Elt F) (m (tLoc d)) := by
    unfold tile_body.sl.dma0_4 tile_body.sl.dma0
    simp only [ReadAs.apply_same, read_writes_whole]
  have e6 : tile_body.sl.dma0_6 d L m fb = (tA1).view.read (Elt F) (m (tLoc d)) := by
    unfold tile_body.sl.dma0_6 tile_body.sl.dma0_2
    simp only [ReadAs.apply_same, read_writes_whole]
  have e5 : tile_body.sl.dma0_5 d L m fs0 = (tB0).view.read (Elt F) (m (tLoc d)) := by
    unfold tile_body.sl.dma0_5 tile_body.sl.dma0_1
    simp only [ReadAs.apply_same, read_writes_whole]
  have e7 : tile_body.sl.dma0_7 d L m fs1 = (tB1).view.read (Elt F) (m (tLoc d)) := by
    unfold tile_body.sl.dma0_7 tile_body.sl.dma0_3
    simp only [ReadAs.apply_same, read_writes_whole]
  rw [e4, e5, e6, e7]
  sl_step
  isplitl [T0' T1' T2' T3']
  · isplitl [T0']; · iapply (Entails.of_eq (pts_t (F := F) d L _ _)); iexact T0'
    isplitl [T1']; · iapply (Entails.of_eq (pts_t (F := F) d L _ _)); iexact T1'
    isplitl [T2']; · iapply (Entails.of_eq (pts_t (F := F) d L _ _)); iexact T2'
    iapply (Entails.of_eq (pts_t (F := F) d L _ _)); iexact T3'
  isplitl [O0' O1' O2' O3']
  · isplitl [O0']; · iapply (Entails.of_eq ((pts_oA0 (F := F) d L _).trans (pointsTo_congr (val_A0 d L m _)))); iexact O0'
    isplitl [O1']; · iapply (Entails.of_eq ((pts_oA1 (F := F) d L _).trans (pointsTo_congr (val_A1 d L m _)))); iexact O1'
    isplitl [O2']; · iapply (Entails.of_eq ((pts_oB0 (F := F) d L _).trans (pointsTo_congr (val_B0 d L m _)))); iexact O2'
    iapply (Entails.of_eq ((pts_oB1 (F := F) d L _).trans (pointsTo_congr (val_B1 d L m _)))); iexact O3'
  isplitl [S0' S1']
  · isplitl [S0']
    · iexists _; iapply (Entails.of_eq (pts_sH0 (F := F) d L _)); iexact S0'
    · iexists _; iapply (Entails.of_eq (pts_sH1 (F := F) d L _)); iexact S1'
  isplitl [B0' B1' Hbufs]
  · isplitl [B0' B1']
    · ihave B0 := (Entails.of_eq (pts_bH0 (F := F) d L _)) $$ B0'
      ihave B1 := (Entails.of_eq (pts_bH1 (F := F) d L _)) $$ B1'
      iapply (bPts_join (F := F) d L _ _)
      isplitl [B0] <;> iassumption
    · iexact Hbufs
  isplitl [s2 s3 s4 s5 s6 s7 s8 s9 Hsems]
  · isplitl [s2]; · iexact s2
    isplitl [s3]; · iexact s3
    isplitl [s4]; · iexact s4
    isplitl [s5]; · iexact s5
    isplitl [s6]; · iexact s6
    isplitl [s7]; · iexact s7
    isplitl [s8]; · iexact s8
    isplitl [s9]; · iexact s9
    iexact Hsems
  iexists _; isplitr
  pick_goal 2
  · iexact HO
  ipureintro
  intro p hp
  simp only [Finset.mem_insert] at hp
  rcases hp with rfl | rfl | rfl | rfl | rfl | rfl | rfl | rfl | hp
  all_goals first | exact .inr rfl | exact .inl hp

end Task

end Cert.Proof.KernelIdealFrame

end
-- ==== Proof.KernelIdealSplit.lean ====
/-
  How the arrays of `KernelIdeal` are dealt to the 2 × 16 tiles and gathered back. The result `[4096, 1024]` is the disjoint
  union of 32 slabs of 128 rows, slab `(c, s)` starting at row `256 s + 128 c`, and each slab of its four chunks of 32
  rows. The table is only read: it goes out as 128 read shares, four per tile, the remainder of the share kept back.
  The shared vector memory `[16, 2, 32, 1024]` of one SparseCore is the disjoint union of its 16 slabs `s`, each of two
  rows.
-/
import proofs.«210076_g26774826123951_cont_9to1_2051_14_alg».proof.Proof.KernelIdealPieces

noncomputable section

namespace Cert.Proof.KernelIdealFrame

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## Small facts about `bigSep` -/

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

/-! ## The result: 32 slabs of 128 rows, each of four chunks -/

/-- The 128 rows of tile `(c, s)`. -/
def oSlab (c : Fin 2) (s : Fin 16) : Finset S4096x1024.Idx :=
  oSetA0 (coordsV c s) ∪ (oSetA1 (coordsV c s) ∪ (oSetB0 (coordsV c s) ∪ oSetB1 (coordsV c s)))

theorem mem_oSlab (c : Fin 2) (s : Fin 16) (i : S4096x1024.Idx) :
    i ∈ oSlab c s ↔ 256 * s.val + 128 * c.val ≤ (i 0).val ∧ (i 0).val < 256 * s.val + 128 * c.val + 128 := by
  unfold oSlab
  simp only [Finset.mem_union, mem_oSetA0, mem_oSetA1, mem_oSetB0, mem_oSetB1]
  omega

theorem oSlab_disjoint (x y : Fin 2 × Fin 16) (h : x ≠ y) : Disjoint (oSlab x.1 x.2) (oSlab y.1 y.2) :=
  Finset.disjoint_left.mpr fun i hx hy => by
    rw [mem_oSlab] at hx hy
    apply h
    have hc1 : x.1.val < 2 := x.1.isLt
    have hc2 : y.1.val < 2 := y.1.isLt
    have e2 : x.2.val = y.2.val := by omega
    have e1 : x.1.val = y.1.val := by omega
    exact Prod.ext (Fin.ext e1) (Fin.ext e2)

theorem oSlab_cover : (Finset.univ : Finset (Fin 2 × Fin 16)).biUnion (fun x => oSlab x.1 x.2) = Finset.univ := by
  ext i
  simp only [Finset.mem_biUnion, Finset.mem_univ, true_and, iff_true]
  have h0 : (i 0).val < 4096 := (i 0).isLt
  refine ⟨(⟨(i 0).val / 128 % 2, by omega⟩, ⟨(i 0).val / 256, by omega⟩), ?_⟩
  rw [mem_oSlab]
  show 256 * ((i 0).val / 256) + 128 * ((i 0).val / 128 % 2) ≤ (i 0).val
    ∧ (i 0).val < 256 * ((i 0).val / 256) + 128 * ((i 0).val / 128 % 2) + 128
  omega

theorem oPts_slabs (d : Dev nD) (f : Buf (Elt F) (oLoc d)) :
    (oLoc d ↦{fullShare} f : sProp 𝕄)
      = bigSep Finset.univ fun c : Fin 2 => bigSep Finset.univ fun s : Fin 16 => oLoc d ↦[oSlab c s]{fullShare} f := by
  rw [← bigSep_univ_prod (fun x : Fin 2 × Fin 16 => (oLoc d ↦[oSlab x.1 x.2]{fullShare} f : sProp 𝕄)),
    ← pointsTo_biUnion Finset.univ (ℓ := oLoc d) (fun x : Fin 2 × Fin 16 => oSlab x.1 x.2) (fun x _ y _ h => oSlab_disjoint x y h),
    oSlab_cover]
  try rfl

/-- A tile's four chunks of the result, at contents `f`. -/
def outs (d : Dev nD) (c : Fin 2) (s : Fin 16) (f : Buf (Elt F) (oLoc d)) : sProp 𝕄 :=
  iprop((oLoc d ↦[oSetA0 (coordsV c s)]{fullShare} f) ∗ (oLoc d ↦[oSetA1 (coordsV c s)]{fullShare} f)
    ∗ (oLoc d ↦[oSetB0 (coordsV c s)]{fullShare} f) ∗ (oLoc d ↦[oSetB1 (coordsV c s)]{fullShare} f))

theorem slab_outs (d : Dev nD) (c : Fin 2) (s : Fin 16) (f : Buf (Elt F) (oLoc d)) :
    (oLoc d ↦[oSlab c s]{fullShare} f : sProp 𝕄) = outs d c s f := by
  unfold oSlab outs
  have d1 : Disjoint (oSetA0 (coordsV c s)) (oSetA1 (coordsV c s) ∪ (oSetB0 (coordsV c s) ∪ oSetB1 (coordsV c s))) :=
    Finset.disjoint_left.mpr fun i h1 h2 => by
      simp only [Finset.mem_union, mem_oSetA0, mem_oSetA1, mem_oSetB0, mem_oSetB1] at h1 h2; omega
  have d2 : Disjoint (oSetA1 (coordsV c s)) (oSetB0 (coordsV c s) ∪ oSetB1 (coordsV c s)) :=
    Finset.disjoint_left.mpr fun i h1 h2 => by
      simp only [Finset.mem_union, mem_oSetA1, mem_oSetB0, mem_oSetB1] at h1 h2; omega
  have d3 : Disjoint (oSetB0 (coordsV c s)) (oSetB1 (coordsV c s)) :=
    Finset.disjoint_left.mpr fun i h1 h2 => by
      simp only [mem_oSetB0, mem_oSetB1] at h1 h2; omega
  have e1 : (oLoc d ↦[oSetA0 (coordsV c s) ∪ (oSetA1 (coordsV c s) ∪ (oSetB0 (coordsV c s) ∪ oSetB1 (coordsV c s)))]{fullShare} f : sProp 𝕄)
      ⊣⊢ iprop((oLoc d ↦[oSetA0 (coordsV c s)]{fullShare} f) ∗ oLoc d ↦[oSetA1 (coordsV c s) ∪ (oSetB0 (coordsV c s) ∪ oSetB1 (coordsV c s))]{fullShare} f) :=
    pointsTo_union d1
  have e2 : (oLoc d ↦[oSetA1 (coordsV c s) ∪ (oSetB0 (coordsV c s) ∪ oSetB1 (coordsV c s))]{fullShare} f : sProp 𝕄)
      ⊣⊢ iprop((oLoc d ↦[oSetA1 (coordsV c s)]{fullShare} f) ∗ oLoc d ↦[oSetB0 (coordsV c s) ∪ oSetB1 (coordsV c s)]{fullShare} f) :=
    pointsTo_union d2
  have e3 : (oLoc d ↦[oSetB0 (coordsV c s) ∪ oSetB1 (coordsV c s)]{fullShare} f : sProp 𝕄)
      ⊣⊢ iprop((oLoc d ↦[oSetB0 (coordsV c s)]{fullShare} f) ∗ oLoc d ↦[oSetB1 (coordsV c s)]{fullShare} f) :=
    pointsTo_union d3
  rw [BI.equiv_iff.mp ⟨e1.1, e1.2⟩, BI.equiv_iff.mp ⟨e2.1, e2.2⟩, BI.equiv_iff.mp ⟨e3.1, e3.2⟩]

/-- The result whole is every tile's four chunks. -/
theorem oPts_eq (d : Dev nD) (f : Buf (Elt F) (oLoc d)) :
    (oLoc d ↦{fullShare} f : sProp 𝕄) = bigSep Finset.univ fun c : Fin 2 => bigSep Finset.univ fun s : Fin 16 => outs d c s f := by
  rw [oPts_slabs]
  exact bigSep_congr fun c _ => bigSep_congr fun s _ => slab_outs d c s f

/-! ## The table: 128 read shares, four per tile -/

abbrev NT : ℕ := 2 * (16 * 4)
/-- The read share of tile `(c, s)`'s transfer number `k`. -/
abbrev tokq (c : Fin 2) (s : Fin 16) (k : Fin 4) : PosShare TreeShare :=
  Transfers.shareTok fullShare NT (finProdFinEquiv (c, finProdFinEquiv (s, k)))

/-- A tile's four read shares of the table, at contents `f`. -/
def toks (d : Dev nD) (c : Fin 2) (s : Fin 16) (f : Buf (Elt F) (tLoc d)) : sProp 𝕄 :=
  iprop((tLoc d ↦{tokq c s 0} f) ∗ (tLoc d ↦{tokq c s 1} f) ∗ (tLoc d ↦{tokq c s 2} f) ∗ (tLoc d ↦{tokq c s 3} f))

theorem toks_all (d : Dev nD) (f : Buf (Elt F) (tLoc d)) :
    (bigSep Finset.univ fun i : Fin NT => (tLoc d ↦{Transfers.shareTok fullShare NT i} f : sProp 𝕄))
      = bigSep Finset.univ fun c : Fin 2 => bigSep Finset.univ fun s : Fin 16 => toks d c s f := by
  rw [bigSep_univ_equiv (finProdFinEquiv : Fin 2 × Fin (16 * 4) ≃ Fin NT), bigSep_univ_prod]
  refine bigSep_congr fun c _ => ?_
  rw [bigSep_univ_equiv (finProdFinEquiv : Fin 16 × Fin 4 ≃ Fin (16 * 4)), bigSep_univ_prod]
  refine bigSep_congr fun s _ => ?_
  rw [bigSep_fin4]; rfl

/-- The table whole is the share kept back and every tile's four read shares. -/
theorem tPts_eq (d : Dev nD) (f : Buf (Elt F) (tLoc d)) :
    (tLoc d ↦{fullShare} f : sProp 𝕄)
      = iprop((tLoc d ↦{Transfers.shareDrop fullShare NT} f) ∗ bigSep Finset.univ fun c : Fin 2 => bigSep Finset.univ fun s : Fin 16 => toks d c s f) := by
  have h : (tLoc d ↦{fullShare} f : sProp 𝕄)
      ⊣⊢ iprop((tLoc d ↦{Transfers.shareDrop fullShare NT} f) ∗ bigSep Finset.univ (fun i : Fin NT => tLoc d ↦{Transfers.shareTok fullShare NT i} f)) :=
    Transfers.pointsTo_toks fullShare NT
  rw [BI.equiv_iff.mp ⟨h.1, h.2⟩, toks_all]

/-! ## The shared vector memory of one SparseCore: 16 slabs of two rows -/

def sSlab (c : Fin 2) (s : Fin 16) : Finset S16x2x32x1024.Idx := sSet0 (coordsV c s) ∪ sSet1 (coordsV c s)

theorem mem_sSlab (c : Fin 2) (s : Fin 16) (i : S16x2x32x1024.Idx) : i ∈ sSlab c s ↔ (i 0).val = s.val := by
  unfold sSlab
  simp only [Finset.mem_union, mem_sSet0, mem_sSet1]
  have h1 : (i 1).val < 2 := (i 1).isLt
  omega

theorem sSlab_disjoint (c : Fin 2) (s s' : Fin 16) (h : s ≠ s') : Disjoint (sSlab c s) (sSlab c s') :=
  Finset.disjoint_left.mpr fun i hx hy => by
    rw [mem_sSlab] at hx hy
    exact h (Fin.ext (hx.symm.trans hy))

theorem sSlab_cover (c : Fin 2) : (Finset.univ : Finset (Fin 16)).biUnion (sSlab c) = Finset.univ := by
  ext i
  simp only [Finset.mem_biUnion, Finset.mem_univ, true_and, iff_true]
  exact ⟨⟨(i 0).val, (i 0).isLt⟩, (mem_sSlab c _ i).mpr rfl⟩

theorem sSets_disjoint (c : Fin 2) (s : Fin 16) : Disjoint (sSet0 (coordsV c s)) (sSet1 (coordsV c s)) :=
  Finset.disjoint_left.mpr fun i h0 h1 => by
    rw [mem_sSet0] at h0; rw [mem_sSet1] at h1; omega

theorem shPts_slabs (d : Dev nD) (c : Fin 2) (f : Buf (Elt F) (shLoc d c)) :
    (shLoc d c ↦{fullShare} f : sProp 𝕄) = bigSep Finset.univ fun s : Fin 16 => shLoc d c ↦[sSlab c s]{fullShare} f := by
  rw [← pointsTo_biUnion Finset.univ (ℓ := shLoc d c) (sSlab c) (fun s _ s' _ h => sSlab_disjoint c s s' h), sSlab_cover]
  try rfl

/-- A tile's two rows of the shared memory, each at some contents. -/
def shs (d : Dev nD) (c : Fin 2) (s : Fin 16) : sProp 𝕄 :=
  iprop((∃ f, shLoc d c ↦[sSet0 (coordsV c s)]{fullShare} f) ∗ (∃ f, shLoc d c ↦[sSet1 (coordsV c s)]{fullShare} f))

/-- The shared memory at some contents deals every tile its two rows. -/
theorem sh_split (d : Dev nD) (c : Fin 2) :
    (iprop(∃ f, shLoc d c ↦{fullShare} f) : sProp 𝕄) ⊢ bigSep Finset.univ fun s : Fin 16 => shs d c s := by
  have hs : ∀ (f : Buf (Elt F) (shLoc d c)) (s : Fin 16), (shLoc d c ↦[sSlab c s]{fullShare} f : sProp 𝕄) ⊢ shs d c s := by
    intro f s
    have e : (shLoc d c ↦[sSet0 (coordsV c s) ∪ sSet1 (coordsV c s)]{fullShare} f : sProp 𝕄)
        ⊣⊢ iprop((shLoc d c ↦[sSet0 (coordsV c s)]{fullShare} f) ∗ shLoc d c ↦[sSet1 (coordsV c s)]{fullShare} f) :=
      pointsTo_union (sSets_disjoint c s)
    unfold sSlab shs
    iintro H
    ihave H' := e.1 $$ H
    icases H' with ⟨H0, H1⟩
    isplitl [H0]
    · iexists _; iexact H0
    · iexists _; iexact H1
  iintro ⟨%f, H⟩
  ihave H' := ((Entails.of_eq (shPts_slabs (F := F) d c f)).trans (SparseCore.ent (bigSep_mono (Φ := fun s : Fin 16 => (shLoc d c ↦[sSlab c s]{fullShare} f : sProp 𝕄))
    (Ψ := fun s => shs d c s) fun s _ => hs f s))) $$ H
  iexact H'

/-- The tiles' rows, each at contents of its own, are the shared memory at some contents. -/
theorem sh_join (d : Dev nD) (c : Fin 2) :
    (bigSep Finset.univ fun s : Fin 16 => shs (F := F) d c s) ⊢ (iprop(∃ f, shLoc d c ↦{fullShare} f) : sProp 𝕄) := by
  have hs : ∀ s : Fin 16, shs (F := F) d c s ⊢ (iprop(∃ f, shLoc d c ↦[sSlab c s]{fullShare} f) : sProp 𝕄) := by
    intro s
    unfold shs sSlab
    iintro ⟨⟨%f0, H0⟩, ⟨%f1, H1⟩⟩
    ihave H := (pointsTo_join (ℓ := shLoc d c) (q := fullShare) (f := f0) (g := f1) (sSets_disjoint c s)) $$ [H0 H1]
    · isplitl [H0] <;> iassumption
    iexists _; iexact H
  refine (SparseCore.ent (bigSep_mono (Φ := fun s : Fin 16 => shs (F := F) d c s)
    (Ψ := fun s => (iprop(∃ f, shLoc d c ↦[sSlab c s]{fullShare} f) : sProp 𝕄)) fun s _ => hs s)).trans ?_
  refine (bigSep_exists_pi Finset.univ (fun (s : Fin 16) (f : Buf (Elt F) (shLoc d c)) => (shLoc d c ↦[sSlab c s]{fullShare} f : sProp 𝕄))).trans ?_
  iintro ⟨%fs, H⟩
  ihave H' := (pointsTo_biUnion_join Finset.univ (sSlab c) fs (fs 0) (fun s _ s' _ h => sSlab_disjoint c s s' h)) $$ H
  icases H' with ⟨%g, -, Hg⟩
  rw [sSlab_cover]
  iexists g; iexact Hg

end Cert.Proof.KernelIdealFrame

end
-- ==== Proof.KernelIdealLaunch.lean ====
/-
  The launch of `KernelIdeal` and its run. @main on the TensorCore starts the kernel on both SparseCores, handing every tile
  four read shares of the table and its four chunks of the result; each sequencer adds, from its own shared vector
  memory, the tile's two rows; the tiles run their task; everything comes back, the result's chunks at the table's rows.
  Gathered, the result array `[4096, 1024]` holds the table's first 4096 rows, the table is whole and unchanged, and
  @main's one host operation puts a leading unit axis on the result. So every weakly fair execution ends, without a
  fault, with the arguments as they were and the output at the table's first 4096 rows under a leading unit axis.
-/
import proofs.«210076_g26774826123951_cont_9to1_2051_14_alg».proof.Proof.KernelIdealBody
import proofs.«210076_g26774826123951_cont_9to1_2051_14_alg».proof.Proof.KernelIdealSplit

noncomputable section

namespace Cert.Proof.KernelIdealFrame

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_split held_sdiff_result wp_hlo_within)
local notation "tW" => (Memref.whole Cert.KernelIdeal.main_arg1_scv : Memref Cert.KernelIdeal.sig Kind.scVector Space.hbm Cert.KernelIdeal.S8192x1024 EltTy.f32)
local notation "oW" => (Memref.whole Cert.KernelIdeal.main_v0_scv : Memref Cert.KernelIdeal.sig Kind.scVector Space.hbm Cert.KernelIdeal.S4096x1024 EltTy.f32)
local notation "bW" => (Memref.whole Cert.KernelIdeal.cc0_scratch0 : Memref Cert.KernelIdeal.sig Kind.scVector Space.vmem Cert.KernelIdeal.S2x32x1024 EltTy.f32)
local notation "shW" => (Memref.whole Cert.KernelIdeal.cc0_scratch1 : Memref Cert.KernelIdeal.sig Kind.scVector Space.shared Cert.KernelIdeal.S16x2x32x1024 EltTy.f32)

variable (m : (ℓ : Loc nD τ sig) → Buf (Elt F) ℓ) (ρ : Dev nD → PrngReg)

variable [FloatOps F]

/-! ## What the handshakes carry -/

/-- A tile's share of the call's operands: its read shares of the table and its chunks of the result at `f`. -/
def tOut (d : Dev nD) (c : Fin 2) (s : Fin 16) (f : Buf (Elt F) (oLoc d)) : sProp 𝕄 :=
  iprop(toks d c s (m (tLoc d)) ∗ outs d c s f)

/-- The start hands SparseCore `c` its sixteen tiles' shares, the result at its launch contents; the go hands tile `s`
    its share and its two rows of the shared memory; taskDone and done hand the same back, the result's chunks at the
    table's rows. -/
def P : (K (F := F)).Pay (nD := nD) (Val := Elt F) (Name := ℕ) (U := UU) where
  st := fun q d c => match q with | 0 => bigSep Finset.univ fun s : Fin 16 => tOut m d (Fin.cast nCore_zero c) s (m (oLoc d))
  dn := fun q d c => match q with | 0 => bigSep Finset.univ fun s : Fin 16 => tOut m d (Fin.cast nCore_zero c) s (rowsF m d)
  go := fun q d c i => match q with
    | 0 => iprop(tOut m d (Fin.cast nCore_zero c) (Fin.cast nSub_zero i) (m (oLoc d)) ∗ shs d (Fin.cast nCore_zero c) (Fin.cast nSub_zero i))
  td := fun q d c i => match q with
    | 0 => iprop(tOut m d (Fin.cast nCore_zero c) (Fin.cast nSub_zero i) (rowsF m d) ∗ shs d (Fin.cast nCore_zero c) (Fin.cast nSub_zero i))
  x := fun _ _ => iprop(emp)

instance P_storable : (P (F := F) m).IsStorable where
  st q d c := match q with
    | 0 => (by unfold tOut toks outs; infer_instance :
        BI.Storable (upEmb : UEmb _ 𝕄) (bigSep Finset.univ fun s : Fin 16 => tOut m d (Fin.cast nCore_zero c) s (m (oLoc d))))
  dn q d c := match q with
    | 0 => (by unfold tOut toks outs; infer_instance :
        BI.Storable (upEmb : UEmb _ 𝕄) (bigSep Finset.univ fun s : Fin 16 => tOut m d (Fin.cast nCore_zero c) s (rowsF m d)))
  go q d c i := match q with
    | 0 => (by unfold tOut toks outs shs; infer_instance :
        BI.Storable (upEmb : UEmb _ 𝕄) iprop(tOut m d (Fin.cast nCore_zero c) (Fin.cast nSub_zero i) (m (oLoc d)) ∗ shs d (Fin.cast nCore_zero c) (Fin.cast nSub_zero i)))
  td q d c i := match q with
    | 0 => (by unfold tOut toks outs shs; infer_instance :
        BI.Storable (upEmb : UEmb _ 𝕄) iprop(tOut m d (Fin.cast nCore_zero c) (Fin.cast nSub_zero i) (rowsF m d) ∗ shs d (Fin.cast nCore_zero c) (Fin.cast nSub_zero i)))

/-! ## The tile's obligation -/

omit [FloatOps F] in
theorem repack_pre {Lv A B C Sb Ss Ow : sProp 𝕄} :
    iprop(Lv ∗ emp ∗ ((A ∗ B) ∗ C) ∗ Sb ∗ Ss ∗ Ow) ⊢ iprop(Lv ∗ A ∗ B ∗ C ∗ Sb ∗ Ss ∗ Ow) := by
  iintro ⟨Hlv, -, ⟨⟨Ha, Hb⟩, Hc⟩, Hsb, Hss, HO⟩
  isplitl [Hlv]; · iexact Hlv
  isplitl [Ha]; · iexact Ha
  isplitl [Hb]; · iexact Hb
  isplitl [Hc]; · iexact Hc
  isplitl [Hsb]; · iexact Hsb
  isplitl [Hss]; · iexact Hss
  iexact HO
omit [FloatOps F] in
theorem repack_post {A B C Sb Ss X : sProp 𝕄} :
    iprop(A ∗ B ∗ C ∗ Sb ∗ Ss ∗ X) ⊢ iprop(((A ∗ B) ∗ C) ∗ Sb ∗ Ss ∗ X) := by
  iintro ⟨Ha, Hb, Hc, Hsb, Hss, HX⟩
  isplitl [Ha Hb Hc]
  · isplitl [Ha Hb]
    · isplitl [Ha]; · iexact Ha
      iexact Hb
    · iexact Hc
  isplitl [Hsb]; · iexact Hsb
  isplitl [Hss]; · iexact Hss
  iexact HX

/-- The task of tile `(c, s)`, from and to what the handshakes carry. -/
theorem tile_task [∀ e, Nonempty (Elt F e)] (d : Dev nD) (c : Fin 2) (s : Fin 16)
    (O : CellTallies nD τ sig (HIx 1)) (W : Waits sig (HIx 1)) (hO : ∀ g, O g none = 0) :
    iprop(levAts (K (F := F)).L (K (F := F)).lev ∗ emp ∗ (tOut m d c s (m (oLoc d)) ∗ shs d c s)
        ∗ scopedBufs (thrV d (coordsV c s)) ∗ scopedSems0 (thrV d (coordsV c s)) ∗ owes (thrV d (coordsV c s)) O W)
      ⊢ wp frame (wpE (defs₀ (F := F)) 𝒱₀ (thrV d (coordsV c s)) none) Set.univ
          (cc0_sc_copy (coordsV c s) tW (Memref.isWhole_whole _) oW (Memref.isWhole_whole _) bW (Memref.isWhole_whole _) shW (Memref.isWhole_whole _)
            cc0_scratch2 cc0_scratch3 cc0_scratch4 cc0_scratch5 cc0_scratch6 cc0_scratch7 cc0_scratch8 cc0_scratch9)
          fun _ => (iprop((tOut m d c s (rowsF m d) ∗ shs d c s) ∗ scopedBufs (thrV d (coordsV c s)) ∗ scopedSems0 (thrV d (coordsV c s))
            ∗ ∃ W', ⌜∀ p ∈ W', p ∈ W ∨ p.2 = none⌝ ∗ owes (thrV d (coordsV c s)) O W') : sProp 𝕄) := by
  unfold tOut toks outs shs
  exact repack_pre.trans ((tile_body (F := F) d (coordsV c s) m facts (tokq c s 0) (tokq c s 1) (tokq c s 2) (tokq c s 3) O W hO).trans
    (wp_mono frame _ _ fun _ => repack_post))

theorem defs₀_vector (c : Fin τ.nSC) (s : Fin τ.nSub) :
    defs₀ (F := F) (.scVector c s) 0 ()
      = SparseCore.onTile hcore0 hsub0 (fun c s => cc0_sc_copy (coordsV c s)
          tW (Memref.isWhole_whole _) oW (Memref.isWhole_whole _) bW (Memref.isWhole_whole _) shW (Memref.isWhole_whole _)
          cc0_scratch2 cc0_scratch3 cc0_scratch4 cc0_scratch5 cc0_scratch6 cc0_scratch7 cc0_scratch8 cc0_scratch9) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [∀ e, Nonempty (Elt F e)] : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task m d (Fin.cast nCore_zero c) (Fin.cast nSub_zero i) O W hO).trans (wp_mono frame _ _ fun _ => obl_post)

/-! ## A SparseCore's operands split among its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- The shared vector memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop((bigSep Finset.univ fun s : Fin 16 => tOut m d (Fin.cast nCore_zero c) s (m (oLoc d))) ∗ ownBufs (S d ((K (F := F)).core 0 c)))
    ⊢ |={Set.univ}=> iprop(
      (bigSep Finset.univ fun i : Fin ((K (F := F)).nSub 0) =>
        iprop(tOut m d (Fin.cast nCore_zero c) (Fin.cast nSub_zero i) (m (oLoc d)) ∗ shs d (Fin.cast nCore_zero c) (Fin.cast nSub_zero i)))
      ∗ ((bigSep Finset.univ fun i : Fin ((K (F := F)).nSub 0) =>
          iprop(tOut m d (Fin.cast nCore_zero c) (Fin.cast nSub_zero i) (rowsF m d) ∗ shs d (Fin.cast nCore_zero c) (Fin.cast nSub_zero i)))
          -∗ iprop((bigSep Finset.univ fun s : Fin 16 => tOut m d (Fin.cast nCore_zero c) s (rowsF m d)) ∗ ownBufs (S d ((K (F := F)).core 0 c)))))
  rw [bigSep_tasks (F := F) (fun s => iprop(tOut m d (Fin.cast nCore_zero c) s (m (oLoc d)) ∗ shs d (Fin.cast nCore_zero c) s)),
    bigSep_tasks (F := F) (fun s => iprop(tOut m d (Fin.cast nCore_zero c) s (rowsF m d) ∗ shs d (Fin.cast nCore_zero c) s)),
    bigSep_sep', bigSep_sep', ownBufs_S]
  iintro ⟨Hst, Hsh, Hrest⟩; imodintro
  isplitl [Hst Hsh]
  · isplitl [Hst]; · iexact Hst
    iapply (sh_split (F := F) d (Fin.cast nCore_zero c)); iexact Hsh
  iintro ⟨Hto, Hsh⟩
  isplitl [Hto]; · iexact Hto
  isplitl [Hsh]; · iapply (sh_join (F := F) d (Fin.cast nCore_zero c)); iexact Hsh
  iexact Hrest

/-! ## The launch element: the handshakes' rounds; the transfers' counters are not dealt -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev o' : DevRef τ sig := Proc.devRef .tc (main_v0 : Ref sig .tc)
abbrev r' : DevRef τ sig := Proc.devRef .tc (main_v1 : Ref sig .tc)
/-- @main's one host operation: the result under a leading unit axis. -/
abbrev opB : HloOp τ sig (Elt F) :=
  StableHlo.unary main_v0 main_v1 (broadcastInDim S1x4096x1024 ![1, 2] bcast_S4096x1024_S1x4096x1024_1_2 : (⟨S4096x1024, .f32⟩ : BufTy).Contents (Elt F) → (⟨S1x4096x1024, .f32⟩ : BufTy).Contents (Elt F))
abbrev S2 : Finset (DevRef τ sig) := {o', r'}

/-- What the output array holds at the end: the table's first 4096 rows under a leading unit axis. -/
abbrev resF (d : Dev nD) : Buf (Elt F) (rLoc d) :=
  broadcastInDim S1x4096x1024 ![1, 2] bcast_S4096x1024_S1x4096x1024_1_2 (rowsF m d)

omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (tLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- After the call: the result at the table's rows, the output array at its launch contents. -/
def V1 (d : Dev nD) : Valuation τ sig (Elt F) := Function.update (fun b => m (d, b)) o' (rowsF m d)

theorem V1_o (d : Dev nD) : V1 m d o' = rowsF m d := Function.update_self _ _ _
theorem V1_r (d : Dev nD) : V1 m d r' = m (rLoc d) := Function.update_of_ne (show r' ≠ o' by decide) _ _
theorem res_o (d : Dev nD) : (opB (F := F)).result (V1 m d) o' = rowsF m d :=
  ((opB (F := F)).result_of_not_mem (V1 m d) (b := o') (show o' ∉ ({r'} : Finset (DevRef τ sig)) by decide)).trans (V1_o m d)
theorem res_r (d : Dev nD) : (opB (F := F)).result (V1 m d) r' = resF m d :=
  (StableHlo.unary_result main_v0 main_v1 _ _ _ (V1 m d)).trans (congrArg _ (V1_o m d))

theorem hB : (opB (F := F)).bufs ⊆ S2 := show ({o', r'} : Finset (DevRef τ sig)) ⊆ S2 by decide

theorem tOut_all (d : Dev nD) (f : Buf (Elt F) (oLoc d)) :
    (bigSep Finset.univ fun c : Fin 2 => bigSep Finset.univ fun s : Fin 16 => tOut m d c s f)
      = iprop((bigSep Finset.univ fun c : Fin 2 => bigSep Finset.univ fun s : Fin 16 => toks d c s (m (tLoc d)))
          ∗ bigSep Finset.univ fun c : Fin 2 => bigSep Finset.univ fun s : Fin 16 => outs d c s f) :=
  (bigSep_congr fun c _ => bigSep_sep Finset.univ (fun s : Fin 16 => toks d c s (m (tLoc d))) (fun s => outs d c s f)).trans
    (bigSep_sep Finset.univ _ _)

theorem st0_eq (d : Dev nD) :
    (bigSep Finset.univ fun c : Fin ((K (F := F)).nCore 0) => (P m).st 0 d c)
      = bigSep Finset.univ fun c : Fin 2 => bigSep Finset.univ fun s : Fin 16 => tOut m d c s (m (oLoc d)) :=
  bigSep_cores (F := F) (fun c => bigSep Finset.univ fun s : Fin 16 => tOut m d c s (m (oLoc d)))
theorem dn0_eq (d : Dev nD) :
    (bigSep Finset.univ fun c : Fin ((K (F := F)).nCore 0) => (P m).dn 0 d c)
      = bigSep Finset.univ fun c : Fin 2 => bigSep Finset.univ fun s : Fin 16 => tOut m d c s (rowsF m d) :=
  bigSep_cores (F := F) (fun c => bigSep Finset.univ fun s : Fin 16 => tOut m d c s (rowsF m d))

/-- What @main leaves the claim: the two arguments at their launch contents, the output at `resF`. -/
abbrev FIN (d : Dev nD) : sProp 𝕄 := iprop((xLoc d ↦{fullShare} m (xLoc d)) ∗ (tLoc d ↦{fullShare} m (tLoc d)) ∗ rLoc d ↦{fullShare} resF m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ht, Ho, Hr⟩, -, -⟩, -⟩
  ihave Ht' := (Entails.of_eq (tPts_eq (F := F) d _)) $$ Ht
  icases Ht' with ⟨Htd, Htoks⟩
  ihave Ho' := (Entails.of_eq (oPts_eq (F := F) d _)) $$ Ho
  iapply ((K (F := F)).wp_run (D (F := F)) 𝒱 (EH := EH) (P := P m) κ d 0) $$ [Hst Htoks Ho' Htd Hx Hb Hr]
  isplitr; · iexact Hctx
  isplitl [Hst]; · iexact Hst
  isplitl [Htoks Ho']
  · rw [st0_eq, tOut_all]
    isplitl [Htoks] <;> iassumption
  iintro ⟨Hst, Hdn⟩
  ihave Hdn' := (Entails.of_eq ((dn0_eq m d).trans (tOut_all m d _))) $$ Hdn
  icases Hdn' with ⟨Htoks, Houts⟩
  ihave Ht := (Entails.of_eq (tPts_eq (F := F) d _).symm) $$ [Htd Htoks]
  · isplitl [Htd] <;> iassumption
  ihave Ho := (Entails.of_eq (oPts_eq (F := F) d _).symm) $$ Houts
  iapply (wp_hlo_within 𝒱 (SparseCore.T d) none Set.univ (op := opB) (S := S2) hB (V := V1 m d)) $$ [Hb Ho Hr]
  · isplitl [Hb]; · iexact Hb
    rw [held_S2, V1_o, V1_r]
    isplitl [Ho]; · iexact Ho
    iexact Hr
  iintro ⟨Hb, Hheld⟩
  ihave Hh := (Entails.of_eq ((held_S2 (F := F) d _).trans (by rw [res_o, res_r]))) $$ Hheld
  icases Hh with ⟨Ho, Hr⟩
  rw [wp_ret]; imodintro; imodintro
  isplitl [Hst]; · iexact Hst
  isplitl [Hx]; · iexact Hx
  isplitl [Ht]; · iexact Ht
  iexact Hr

def fq (d : Dev nD) (s' : Phys nD τ sig (Elt F)) : Prop :=
  s'.mem.mem (rLoc d) = resF m d ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := resF m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every device's output array ends at `resF`, its two arguments as they were. -/
def QC : PUnit × MemSt nD τ sig (Elt F) → Prop := fun r => ∀ c : Dev nD,
  r.2.mem (rLoc c) = resF m c ∧ r.2.mem (xLoc c) = m (xLoc c) ∧ r.2.mem (tLoc c) = m (tLoc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => vecSplit m)
    m ρ main (fun _ => iprop(emp)) (FIN m) (u₀ (F := F)) (sep_elim_left.trans (hu₀ m)) (hmain m ρ) (fq m) (hfin m) (QC m) (fun _ h => h)

/-- The output at the end is the table's first 4096 rows under a leading unit axis. -/
theorem resF_eq_G (d : Dev nD) : resF m d = Cert.Spec.G (m (tLoc d)) := by
  funext i
  exact broadcastInDim_apply (s := S4096x1024) (t := S1x4096x1024) ![1, 2] bcast_S4096x1024_S1x4096x1024_1_2 (rowsF m d) i
    (ValueIdx.ix2 (i 1) (i 2)) (fun a => by match a with | ⟨0, _⟩ => rfl | ⟨1, _⟩ => rfl)

end Cert.Proof.KernelIdealFrame

end
-- ==== Proof.RefTerm.lean ====
/-
  The reference's result as one term of the table. The reference makes the row numbers `0, 1, …, 4095`, puts a leading
  unit axis on them, and takes those rows of the table: a negative row number is first moved up by the table's height,
  each number becomes a one-coordinate start index, a start index outside the table is marked, the rows at the start
  indices are gathered, and a marked row is replaced by not-a-number. Each step is one array operation; composed, they
  are the functions below, `out` the last.
-/
import proofs.«210076_g26774826123951_cont_9to1_2051_14_alg».proof.Proof.Gen.ReferenceIdeal

noncomputable section

namespace Cert.Proof.Ref

open Cert.ReferenceIdeal Cert.ReferenceIdeal.Gen Idealize.ShloMosaic

variable {F : FTy → Type} [FloatOps F]

/-- The row numbers asked for: `0, 1, …, 4095` under a leading unit axis. -/
def rowNos : IVec S1x4096 32 :=
  broadcastInDim S1x4096 ![1] bcast_S4096_S1x4096_1 (iotaInDim S4096 32 0)

/-- A negative row number counts from the table's end: `8192` is added to it; the others stay. -/
def wrapped : IVec S1x4096 32 :=
  select (cmpi .slt rowNos (broadcastInDim S1x4096 ![] bcast_S_S1x4096 (constantI S_ 32 0#32)))
    (addi rowNos (broadcastInDim S1x4096 ![] bcast_S_S1x4096 (constantI S_ 32 8192#32))) rowNos

/-- The same numbers as start indices of the row-taking: a trailing unit axis holds the one coordinate. -/
def starts : IVec S1x4096x1 32 :=
  broadcastInDim S1x4096x1 ![0, 1] bcast_S1x4096_S1x4096x1_0_1 wrapped

/-- Whether a start index lies in the table, `0 ≤ · ≤ 8191`, coordinate by coordinate. -/
def inRange : IVec S1x4096x1 1 :=
  andi (cmpi .sge starts (broadcastInDim S1x4096x1 ![] bcast_S_S1x4096x1 (constantI S_ 32 0#32)))
    (cmpi .sle starts
      (broadcastInDim S1x4096x1 ![0, 1, 2] bcast_S1x1x1_S1x4096x1_0_1_2
        (broadcastInDim S1x1x1 ![2] bcast_S1_S1x1x1_2 (constantI S1 32 8191#32))))

/-- The conjunction of that test over a start index's coordinates (there is one). -/
def mask : IVec S1x4096 1 :=
  Host.reduce IntOp.andi inRange (constantI S_ 1 1#1) reducesTo_S1x4096x1_S1x4096_d2 h_S_

/-- The rows taken from the table `t`, and a not-a-number row wherever the start index is outside it. -/
def out (t : FVec F S8192x1024 .f32) : FVec F S1x4096x1024 .f32 :=
  select (broadcastInDim S1x4096x1024 ![0, 1] bcast_S1x4096_S1x4096x1024_0_1 mask)
    (Host.gather gather_S8192x1024_S1x4096x1_S1x4096x1024_2_0_n_n_0_2_11024 t starts)
    (broadcastInDim S1x4096x1024 ![] bcast_S_S1x4096x1024 (constant (F := F) S_ .f32 0x7FC00000#32))

end Cert.Proof.Ref

end
-- ==== Proof.RefRun.lean ====
/-
  The reference program's run, read back. Its entry function makes an index vector `0, 1, …, 4095`, puts a leading
  unit axis on it, and takes those rows of the table; the row-taking function is written out at its call site, and
  the select it delegates to at its own. Listed in order these are twenty-five host operations, each writing one
  buffer of its own from buffers written before it; so every weakly fair execution terminates with each buffer at
  the composition of the operations that lead to it, applied to the arguments' contents at launch, and the
  arguments are left as they were.
-/
import proofs.«210076_g26774826123951_cont_9to1_2051_14_alg».proof.Proof.RefTerm
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## The program as a list of operations -/

/-- The entry function's operations in order, its calls written out: the index vector and its leading axis; then the
    row-taking function's twenty-three over that call's buffers, the ninth of them the select of the function it calls. -/
abbrev ops : List (HloOp τ sig (Elt F)) :=
  [ nullary main_v0 (iotaInDim S4096 32 0),
    unary main_v0 main_v1 (broadcastInDim S1x4096 ![1] bcast_S4096_S1x4096_1 : (⟨S4096, .i32⟩ : BufTy).Contents (Elt F) → (⟨S1x4096, .i32⟩ : BufTy).Contents (Elt F)),
    TRef.nullary main_call0.c (constantI S_ 32 0#32),
    TRef.unary main_call0.c main_call0.v0 (broadcastInDim S1x4096 ![] bcast_S_S1x4096),
    TRef.binary (.of main_v1) main_call0.v0 main_call0.v1 (cmpi .slt),
    TRef.nullary main_call0.c_0 (constantI S_ 32 8192#32),
    TRef.unary main_call0.c_0 main_call0.v2 (broadcastInDim S1x4096 ![] bcast_S_S1x4096),
    TRef.binary (.of main_v1) main_call0.v2 main_call0.v3 addi,
    TRef.ternary main_call0.v1 main_call0.v3 (.of main_v1) main_call0.call0.v0 select,
    TRef.unary main_call0.call0.v0 main_call0.v5 (broadcastInDim S1x4096x1 ![0, 1] bcast_S1x4096_S1x4096x1_0_1),
    TRef.nullary main_call0.c_1 (constantI S1 32 8191#32),
    TRef.nullary main_call0.c_2 (constantI S_ 32 0#32),
    TRef.unary main_call0.c_2 main_call0.v6 (broadcastInDim S1x4096x1 ![] bcast_S_S1x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1x4096x1 ![0, 1, 2] bcast_S1x1x1_S1x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1x4096x1_S1x4096_d2 h_S_),
    TRef.binary (.of main_arg1) main_call0.v5 main_call0.v13 (fun x i => Host.gather gather_S8192x1024_S1x4096x1_S1x4096x1024_2_0_n_n_0_2_11024 x i),
    TRef.unary main_call0.v12 main_call0.v14 (broadcastInDim S1x4096x1024 ![0, 1] bcast_S1x4096_S1x4096x1024_0_1),
    TRef.nullary main_call0.cst (constant S_ .f32 0x7FC00000#32),
    TRef.unary main_call0.cst main_call0.v15 (broadcastInDim S1x4096x1024 ![] bcast_S_S1x4096x1024),
    TRef.ternary main_call0.v14 main_call0.v13 main_call0.v15 main_call0.v16 select ]

/-- The entry function is that straight line: with the two functions' bodies put at their calls, both sides are one
    chain of host operations once the sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub ..⟩

/-! ## What the buffers hold after the line -/

/-- Contents moved to a typed reference's buffer type and back are the contents: the two types are one. -/
theorem ofBuf_toBuf {sig' : RefSig} {Val : EltTy → Type} {T : BufTy} (x : TRef sig' T) (v : T.Contents Val) :
    x.ofBuf (x.toBuf v) = v := by
  obtain ⟨r, h, _, _⟩ := x
  subst h
  rfl

attribute [local irreducible] Host.reduce Host.gather in
/-- At the result buffer the fold of the operations is `out` of the table's launch contents: the fold unrolled, each
    operation's result is its function's value at its own buffer and what was there at any other, and the typed
    references' casts are the identity at these literal references. The reduction and the row-taking stay folded: the
    equation never looks inside them. -/
theorem out_eq (V : Valuation τ sig (Elt F)) :
    after ops V (main_v2 : DevRef τ sig) = out (V (main_arg1 : DevRef τ sig)) := by
  unfold out mask inRange starts wrapped rowNos
  after_results_simp
  simp only [ofBuf_toBuf]
  rfl

/-- No operation writes the first argument. -/
theorem arg0_eq (V : Valuation τ sig (Elt F)) :
    after ops V (main_arg0 : DevRef τ sig) = V (main_arg0 : DevRef τ sig) := by
  simp only [after_cons, after_nil]
  rfl

/-- No operation writes the table. -/
theorem arg1_eq (V : Valuation τ sig (Elt F)) :
    after ops V (main_arg1 : DevRef τ sig) = V (main_arg1 : DevRef τ sig) := by
  simp only [after_cons, after_nil]
  rfl

/-- On every device, for any float values, from any memory with zero counters: every weakly fair execution of the
    reference terminates with its result at `out` of the table as launched, and both arguments as launched. -/
theorem run_out (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v2) = out (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (out_eq _), (h c main_arg0).trans (arg0_eq _),
      (h c main_arg1).trans (arg1_eq _)⟩)
    (run_seq scopedRefs_eq scopedSems_eq defs main (fun _ => ops) main_eq (fun _ => ops_sub) m ρ)

end Cert.Proof.Ref

end
-- ==== Proof.RefValue.lean ====
/-
  The reference's term read at an index. The row numbers are `0, 1, …, 4095`: read as signed words none is negative,
  so none is moved; each is at least `0` and at most `8191`, so every start index is marked as inside the table
  and the conjunction over its one coordinate is true; the row-taking clamps a start index into `[0, 8191]`, which
  leaves these as they are, and reads the table's row `r` at result row `r`; and the final choice, its mark
  true, takes that row. So at `(0, r, q)` the term is the table's entry `(r, q)`: the first 4096 rows of the
  table under a leading unit axis.
-/
import proofs.«210076_g26774826123951_cont_9to1_2051_14_alg».proof.Proof.RefTerm
import proofs.«210076_g26774826123951_cont_9to1_2051_14_alg».proof.Proof.Spec
import Idealize.ShloMosaic.Lib.Affine
import Idealize.ShloMosaic.Lib.ValueIdx
import Idealize.ShloMosaic.Lib.Pipeline.Value
import Idealize.ShloMosaic.PureOps.Reduce

noncomputable section

namespace Cert.Proof.Ref

open Cert.ReferenceIdeal Cert.ReferenceIdeal.Gen Idealize.ShloMosaic Idealize.ShloMosaic.ValueIdx

/-! ## Words -/

/-- A row number below 4096, written as a 32-bit word and read back signed, is itself. -/
theorem word_toInt (n : Nat) (h : n < 4096) : (BitVec.ofNat 32 n).toInt = (n : Int) := by
  have hn : (BitVec.ofNat 32 n).toNat = n := by rw [BitVec.toNat_ofNat]; omega
  rw [BitVec.toInt_eq_toNat_of_lt (by omega), hn]

theorem zero_toInt : (0#32 : BitVec 32).toInt = 0 := by decide
theorem last_toInt : (8191#32 : BitVec 32).toInt = 8191 := by decide

/-! ## The index arithmetic, coordinate by coordinate -/

/-- The row number at `(·, r)` is `r`. -/
theorem rowNos_at (a : Fin 1) (r : Fin 4096) : rowNos (ix2 a r) = BitVec.ofNat 32 r.val := by
  unfold rowNos
  exact broadcastInDim_apply _ _ _ (ix2 a r) (ix1 r) (fun d => match d with | ⟨0, _⟩ => rfl)

/-- It is not negative, so it is not moved. -/
theorem wrapped_at (a : Fin 1) (r : Fin 4096) : wrapped (ix2 a r) = BitVec.ofNat 32 r.val := by
  have hc : IntOp.cmpi .slt (BitVec.ofNat 32 r.val) 0#32 = 0#1 :=
    eq_zero_of_ne_one (fun h => by
      rw [IntOp.cmpi_slt, word_toInt r.val r.isLt, zero_toInt] at h
      omega)
  show Scalar.select (IntOp.cmpi .slt (rowNos (ix2 a r)) 0#32) (IntOp.addi (rowNos (ix2 a r)) 8192#32) (rowNos (ix2 a r)) = _
  rw [rowNos_at, hc, select_zero]

/-- The start index at `(·, r, ·)` is `r`. -/
theorem starts_at (a : Fin 1) (r : Fin 4096) (b : Fin 1) : starts (ix3 a r b) = BitVec.ofNat 32 r.val := by
  unfold starts
  exact (broadcastInDim_apply _ _ _ (ix3 a r b) (ix2 (0 : Fin 1) r)
    (fun d => match d with | ⟨0, _⟩ => rfl | ⟨1, _⟩ => rfl)).trans (wrapped_at 0 r)

/-- It lies in the table. -/
theorem inRange_at (a : Fin 1) (r : Fin 4096) (b : Fin 1) : inRange (ix3 a r b) = 1#1 := by
  show IntOp.andi (IntOp.cmpi .sge (starts (ix3 a r b)) 0#32) (IntOp.cmpi .sle (starts (ix3 a r b)) 8191#32) = 1#1
  rw [starts_at, IntOp.andi_eq_one, IntOp.cmpi_sge, IntOp.cmpi_sle, word_toInt r.val r.isLt, zero_toInt, last_toInt]
  have := r.isLt
  omega

theorem inRange_all (i : S1x4096x1.Idx) : inRange i = 1#1 := by
  rw [eq_ix3 i]
  exact inRange_at _ _ _

/-! ## A conjunction of ones -/

/-- Folding `and` from `1` over words that are all `1` gives `1`. -/
theorem foldl_andi_ones {ι : Type} (x : ι → BitVec 1) (hx : ∀ i, x i = 1#1) :
    ∀ l : List ι, l.foldl (fun r i => IntOp.andi r (x i)) 1#1 = 1#1
  | [] => rfl
  | i :: l => by
    rw [List.foldl_cons, hx i, show IntOp.andi 1#1 1#1 = (1#1 : BitVec 1) from by decide]
    exact foldl_andi_ones x hx l

/-- A reduction by `and`, from `1`, of an array of ones is `1` at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

/-- Every start index is marked as inside the table. -/
theorem mask_all (j : S1x4096.Idx) : mask j = 1#1 :=
  reduce_andi_ones _ _ _ _ inRange_all rfl j

/-! ## The row-taking read at an index

The operand is the table `[8192, 1024]`, the start indices `[1, 4096, 1]` hold one coordinate each (for the table's
row axis, which the result drops), and the result's last axis runs along the row. So result element `(·, r, q)` is the
table's at row `idx[·, r, 0]` — read signed and clamped into `[0, 8191]` — and column `q`. -/

theorem gather_at {α : Type} (x : S8192x1024.Idx → α) (idx : IVec S1x4096x1 32) (a : Fin 1) (r : Fin 4096) (q : Fin 1024) :
    Host.gather gather_S8192x1024_S1x4096x1_S1x4096x1024_2_0_n_n_0_2_11024 x idx (ix3 a r q)
      = x (ix2 (⟨min (idx (ix3 a r (0 : Fin 1))).toInt.toNat 8191, by omega⟩ : Fin 8192) q) := by
  unfold Host.gather
  refine congrArg x (funext fun d => Fin.ext ?_)
  match d with
  | ⟨0, _⟩ =>
    show gather_S8192x1024_S1x4096x1_S1x4096x1024_2_0_n_n_0_2_11024.start (ix3 a r q) idx 0 + gather_S8192x1024_S1x4096x1_S1x4096x1024_2_0_n_n_0_2_11024.batchCoord (ix3 a r q) 0 + gather_S8192x1024_S1x4096x1_S1x4096x1024_2_0_n_n_0_2_11024.offCoord (ix3 a r q) 0
      = min (idx (ix3 a r (0 : Fin 1))).toInt.toNat 8191
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x1024_S1x4096x1_S1x4096x1024_2_0_n_n_0_2_11024.startIndexMap from List.mem_singleton.mpr rfl)]
    have hsi : gather_S8192x1024_S1x4096x1_S1x4096x1024_2_0_n_n_0_2_11024.siIdx (ix3 a r q) ⟨List.idxOf (0 : Fin 2) gather_S8192x1024_S1x4096x1_S1x4096x1024_2_0_n_n_0_2_11024.startIndexMap,
        List.idxOf_lt_length_iff.2 (List.mem_singleton.mpr rfl)⟩ = ix3 a r (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S8192x1024_S1x4096x1_S1x4096x1024_2_0_n_n_0_2_11024.start (ix3 a r q) idx 1 + gather_S8192x1024_S1x4096x1_S1x4096x1024_2_0_n_n_0_2_11024.batchCoord (ix3 a r q) 1 + gather_S8192x1024_S1x4096x1_S1x4096x1024_2_0_n_n_0_2_11024.offCoord (ix3 a r q) 1 = q.val
    rw [GatherDims.batchCoord_eq_zero _ _ _ List.not_mem_nil]
    unfold GatherDims.start
    rw [dif_neg (show (1 : Fin 2) ∉ gather_S8192x1024_S1x4096x1_S1x4096x1024_2_0_n_n_0_2_11024.startIndexMap from by decide)]
    unfold GatherDims.offCoord
    rw [dif_pos (show (1 : Fin 2) ∈ gather_S8192x1024_S1x4096x1_S1x4096x1024_2_0_n_n_0_2_11024.sKept from by decide)]
    simp only [Nat.zero_add]
    rfl

/-! ## The result -/

/-- At `(·, r, q)` the reference's term is the table's entry `(r, q)`. -/
theorem out_at {F : FTy → Type} [FloatOps F] (t : FVec F S8192x1024 .f32) (a : Fin 1) (r : Fin 4096) (q : Fin 1024) :
    out t (ix3 a r q) = t (Cert.Spec.tabIdx r q) := by
  have hm : broadcastInDim S1x4096x1024 ![0, 1] bcast_S1x4096_S1x4096x1024_0_1 mask (ix3 a r q) = 1#1 :=
    (broadcastInDim_apply _ _ _ (ix3 a r q) (ix2 (0 : Fin 1) r)
      (fun d => match d with | ⟨0, _⟩ => rfl | ⟨1, _⟩ => rfl)).trans (mask_all _)
  unfold out
  rw [select_apply, hm, select_one, gather_at]
  refine congrArg t (congrArg (fun z : Fin 8192 => ix2 z q) (Fin.ext ?_))
  show min (starts (ix3 a r (0 : Fin 1))).toInt.toNat 8191 = r.val
  rw [starts_at, word_toInt r.val r.isLt, Int.toNat_natCast]
  have := r.isLt
  omega

/-- The reference's term is the first 4096 rows of the table under a leading unit axis. -/
theorem out_eq_G {F : FTy → Type} [FloatOps F] (t : FVec F S8192x1024 .f32) : out t = Cert.Spec.G t := by
  funext i
  rw [Cert.Spec.G_apply, eq_ix3 i]
  exact out_at t _ _ _

end Cert.Proof.Ref

end
-- ==== Proof.Ref.lean ====
/-
  The reference meets the specification: every weakly fair execution of it terminates with its result the first 4096
  rows of the table under a leading unit axis, and both arguments as they were. The run gives the result as the
  composition of the reference's operations applied to the table; read at an index that composition is the table's
  entry `(r, q)` at `(0, r, q)`.
-/
import proofs.«210076_g26774826123951_cont_9to1_2051_14_alg».proof.Proof.RefRun
import proofs.«210076_g26774826123951_cont_9to1_2051_14_alg».proof.Proof.RefValue

noncomputable section

namespace Cert.Proof.Ref

open Idealize.ShloMosaic Idealize.SL.Sem

theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v2)
            = Cert.Spec.G (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono (fun _ h c => ⟨(h c).1.trans (out_eq_G _), (h c).2⟩) (run_out (F := Ideal) m ρ)

end Cert.Proof.Ref

end
-- ==== Proof.lean ====
/-
  The claim. The kernel copies the first 4096 rows of the table `[8192, 1024]` to the result, on the 2 × 16 tiles of the
  two SparseCores, each tile moving its 128 rows in four chunks through a buffer piece of its own, and @main puts a
  leading unit axis on the result; the reference takes the table's rows `0 … 4095` under the same leading axis. Both end
  at `Cert.Spec.G` of the table: entry `(0, r, q)` of the result is entry `(r, q)` of the table.
  The kernel's run — every weakly fair execution of all the device's threads terminates, nothing faulting, the arguments
  unchanged, the output at `G` of the table — is `run_main`, proved once for any float instance and instantiated at the
  word-level and the ideal reading (the three frames are the runs with the output's value dropped). The reference's run is
  `Cert.Proof.Ref.run`. The idealization rewrote no operation, so `preserves` has nothing to state. The law joining the two
  sides is an identity of indices only: no arithmetic on the extended reals, and the precondition is never opened.
-/
import proofs.«210076_g26774826123951_cont_9to1_2051_14_alg».proof.Defs
import proofs.«210076_g26774826123951_cont_9to1_2051_14_alg».proof.Proof.KernelLaunch
import proofs.«210076_g26774826123951_cont_9to1_2051_14_alg».proof.Proof.KernelIdealLaunch
import proofs.«210076_g26774826123951_cont_9to1_2051_14_alg».proof.Proof.Ref
import proofs.«210076_g26774826123951_cont_9to1_2051_14_alg».proof.Proof.Gen.Pre_finite_inputs
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ =>
  (θ_run Cert.Kernel.defs _ _).mono (fun _ h c => ⟨(h c).2.1, (h c).2.2⟩) (Cert.Proof.KernelFrame.run_main (F := Bits) m ρ)

/-- So does its idealization. -/
theorem frame_kernelIdeal : Cert.frame_KernelIdeal := fun m ρ _ =>
  (θ_run Cert.KernelIdeal.defs _ _).mono (fun _ h c => ⟨(h c).2.1, (h c).2.2⟩) (Cert.Proof.KernelIdealFrame.run_main (F := Ideal) m ρ)

/-- And the reference. -/
theorem frame_reference : Cert.frame_ReferenceIdeal := fun m ρ _ =>
  (θ_run Cert.ReferenceIdeal.defs _ _).mono (fun _ h c => (h c).2) (Cert.Proof.Ref.run m ρ)

/-- From memories agreeing on the arguments both programs end with the output at the table's first 4096 rows under a
    leading unit axis. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.Proof.KernelIdealFrame.resF_eq_G m c), (h c).2.1, (h c).2.2⟩)
      (Cert.Proof.KernelIdealFrame.run_main (F := Ideal) m ρ)
  · exact (θ_run Cert.ReferenceIdeal.defs _ _).mono
      (fun _ h c => ⟨(h c).1.trans (congrArg Cert.Spec.G (hagree c).2), (h c).2.1, (h c).2.2⟩)
      (Cert.Proof.Ref.run m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
